-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64x2 .f32) (main_arg11 : FVec F S2 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S256x128 .f32) (main_arg7 : FVec F S128 .f32) (main_arg8 : FVec F S128x64 .f32) (main_arg9 : FVec F S64 .f32) (main_arg10 : FVec F S64x2 .f32) (main_arg11 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x500000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S128x64 .f32) (main_arg9 : FVec F S64 .f32) (main_arg10 : FVec F S64x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x500000 : Shape := ⟨2, ![1, 500000]⟩
abbrev S500000 : Shape := ⟨1, ![500000]⟩
abbrev S100000 : Shape := ⟨1, ![100000]⟩
abbrev S600000 : Shape := ⟨1, ![600000]⟩
abbrev S_ : Shape := ⟨0, ![]⟩
abbrev S600000x1 : Shape := ⟨2, ![600000, 1]⟩
abbrev S100000x1 : Shape := ⟨2, ![100000, 1]⟩
abbrev S1x128 : Shape := ⟨2, ![1, 128]⟩
abbrev S5000x128 : Shape := ⟨2, ![5000, 128]⟩
abbrev S5000x1 : Shape := ⟨2, ![5000, 1]⟩
abbrev S600000x128 : Shape := ⟨2, ![600000, 128]⟩
abbrev S500000x1 : Shape := ⟨2, ![500000, 1]⟩
abbrev S500000x128 : Shape := ⟨2, ![500000, 128]⟩
abbrev S1x64 : Shape := ⟨2, ![1, 64]⟩
abbrev S1x2 : Shape := ⟨2, ![1, 2]⟩
abbrev S5000x64 : Shape := ⟨2, ![5000, 64]⟩
abbrev S5000x2 : Shape := ⟨2, ![5000, 2]⟩
abbrev S5000 : Shape := ⟨1, ![5000]⟩

abbrev nBuf : Space → Nat
  | .hbm => 91
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64x2, .f32⟩
  | .hbm, ⟨11, _⟩ => ⟨S2, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S100000, .i32⟩
  | .hbm, ⟨17, _⟩ => ⟨S600000, .i32⟩
  | .hbm, ⟨18, _⟩ => ⟨S600000, .i32⟩
  | .hbm, ⟨19, _⟩ => ⟨S_, .f32⟩
  | .hbm, ⟨20, _⟩ => ⟨S600000, .f32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x128, .f32⟩
  | .hbm, ⟨60, _⟩ => ⟨S_, .f32⟩
  | .hbm, ⟨61, _⟩ => ⟨S100000x128, .f32⟩
  | .hbm, ⟨62, _⟩ => ⟨S600000x1, .i32⟩
  | .hbm, ⟨63, _⟩ => ⟨S100000x128, .f32⟩
  | .hbm, ⟨64, _⟩ => ⟨S100000x128, .f32⟩
  | .hbm, ⟨65, _⟩ => ⟨S100000x128, .bf16⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .bf16⟩
  | .hbm, ⟨75, _⟩ => ⟨S_, .i32⟩
  | .hbm, ⟨76, _⟩ => ⟨S500000, .i32⟩
  | .hbm, ⟨77, _⟩ => ⟨S500000, .i1⟩
  | .hbm, ⟨78, _⟩ => ⟨S_, .i32⟩
  | .hbm, ⟨79, _⟩ => ⟨S500000, .i32⟩
  | .hbm, ⟨80, _⟩ => ⟨S500000, .i32⟩
  | .hbm, ⟨81, _⟩ => ⟨S500000, .i32⟩
  | .hbm, ⟨82, _⟩ => ⟨S500000x1, .i32⟩
  | .hbm, ⟨83, _⟩ => ⟨S500000x128, .bf16⟩
  | .hbm, ⟨84, _⟩ => ⟨S128x128, .f32⟩
  | .hbm, ⟨85, _⟩ => ⟨S128x128, .f32⟩
  | .hbm, ⟨86, _⟩ => ⟨S1x128, .f32⟩
  | .hbm, ⟨87, _⟩ => ⟨S1x64, .f32⟩
  | .hbm, ⟨88, _⟩ => ⟨S1x2, .f32⟩
  | .hbm, ⟨89, _⟩ => ⟨S500000x1, .f32⟩
  | .hbm, ⟨90, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .bf16⟩
  | .local _ .vmem, ⟨23, _⟩ => ⟨S5000x128, .bf16⟩
  | .local _ .vmem, ⟨24, _⟩ => ⟨S5000x128, .bf16⟩
  | .local _ .vmem, ⟨25, _⟩ => ⟨S5000x128, .bf16⟩
  | .local _ .vmem, ⟨26, _⟩ => ⟨S128x128, .f32⟩
  | .local _ .vmem, ⟨27, _⟩ => ⟨S128x128, .f32⟩
  | .local _ .vmem, ⟨28, _⟩ => ⟨S1x128, .f32⟩
  | .local _ .vmem, ⟨29, _⟩ => ⟨S128x64, .f32⟩
  | .local _ .vmem, ⟨30, _⟩ => ⟨S1x64, .f32⟩
  | .local _ .vmem, ⟨31, _⟩ => ⟨S64x2, .f32⟩
  | .local _ .vmem, ⟨32, _⟩ => ⟨S1x2, .f32⟩
  | .local _ .vmem, ⟨33, _⟩ => ⟨S5000x1, .f32⟩
  | .local _ .vmem, ⟨34, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg9_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem9_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x2 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S100000_S600000_d0 : Shape.Concatenates [S500000, S100000] S600000 0
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S64_S1x64 : S64.ShapeCasts S1x64
  shapeCasts_S2_S1x2 : S2.ShapeCasts S1x2
  shapeCasts_S128x128_S128x128 : S128x128.ShapeCasts S128x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  slices_S5000x2_o0_1_S5000x1 : S5000x2.Slices ![0, 1] S5000x1
  shapeCasts_S500000x1_S500000 : S500000x1.ShapeCasts S500000
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S500000x1_S500000x128_1_0_n_n_0_1_1128_wf : GatherDims.WF S100000x128 S500000x1 S500000x128 [1] [0] [] [0] [] 1 ![1, 128]
  dot_S5000x128_S128x64_S5000x64_1_0_0_1_n_n_wf : DotDims.WF S5000x128 S128x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .bf16 = 32 ∨ (Rect.block (s := S500000x128) S5000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .bf16 = 32 ∨ (Rect.block (s := S500000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x2.size a ≤ S64x2.size a
  hwx3_7 : ∀ i : grid3.Coords, EltTy.bits .f32 = 32 ∨ (Rect.block (s := S64x2) S64x2.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x2.size a ≤ S1x2.size a
  hwx3_8 : ∀ i : grid3.Coords, EltTy.bits .f32 = 32 ∨ (Rect.block (s := S1x2) S1x2.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x1.size a ≤ S500000x1.size a
  hwx3_9 : ∀ i : grid3.Coords, EltTy.bits .f32 = 32 ∨ (Rect.block (s := S500000x1) S5000x1.size (cc3_transform_9 i) (hinb3_9 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg8) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S64x2.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v60) S1x2.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v61) S5000x1.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x500000 : Shape := ⟨2, ![1, 500000]⟩
abbrev S500000 : Shape := ⟨1, ![500000]⟩
abbrev S100000 : Shape := ⟨1, ![100000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S500000x1 : Shape := ⟨2, ![500000, 1]⟩
abbrev S500000x128 : Shape := ⟨2, ![500000, 128]⟩
abbrev S500000x256 : Shape := ⟨2, ![500000, 256]⟩
abbrev S500000x64 : Shape := ⟨2, ![500000, 64]⟩
abbrev S1x64 : Shape := ⟨2, ![1, 64]⟩
abbrev S500000x2 : Shape := ⟨2, ![500000, 2]⟩
abbrev S1x2 : Shape := ⟨2, ![1, 2]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S2x500000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S128x64, .f32⟩
  | 9 => ⟨S64, .f32⟩
  | 10 => ⟨S64x2, .f32⟩
  | 11 => ⟨S2, .f32⟩
  | 12 => ⟨S1x500000, .i32⟩
  | 13 => ⟨S500000, .i32⟩
  | 14 => ⟨S1x500000, .i32⟩
  | 15 => ⟨S500000, .i32⟩
  | 16 => ⟨S100000x128, .f32⟩
  | 17 => ⟨S100000, .i32⟩
  | 18 => ⟨S600000, .i32⟩
  | 19 => ⟨S600000, .i32⟩
  | 20 => ⟨S_, .f32⟩
  | 21 => ⟨S600000, .f32⟩
  | 22 => ⟨S_, .f32⟩
  | 23 => ⟨S100000, .f32⟩
  | 24 => ⟨S600000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000, .f32⟩
  | 52 => ⟨S600000, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S_, .f32⟩
  | 66 => ⟨S100000x128, .f32⟩
  | 67 => ⟨S600000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000, .i32⟩
  | 77 => ⟨S600000, .i32⟩
  | 78 => ⟨S600000, .i32⟩
  | 79 => ⟨S_, .f32⟩
  | 80 => ⟨S600000, .f32⟩
  | 81 => ⟨S_, .f32⟩
  | 82 => ⟨S100000, .f32⟩
  | 83 => ⟨S600000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000, .f32⟩
  | 111 => ⟨S600000, .f32⟩
  | 112 => ⟨S600000x1, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000x128, .f32⟩
  | 122 => ⟨S600000x128, .f32⟩
  | 123 => ⟨S600000x128, .f32⟩
  | 124 => ⟨S_, .f32⟩
  | 125 => ⟨S100000x128, .f32⟩
  | 126 => ⟨S600000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000x128, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S500000x256, .f32⟩
  | 22 => ⟨S500000x128, .f32⟩
  | 23 => ⟨S1x128, .f32⟩
  | 24 => ⟨S500000x128, .f32⟩
  | 25 => ⟨S500000x128, .f32⟩
  | 26 => ⟨S_, .f32⟩
  | 27 => ⟨S500000x128, .f32⟩
  | 28 => ⟨S500000x128, .f32⟩
  | 29 => ⟨S500000x64, .f32⟩
  | 30 => ⟨S1x64, .f32⟩
  | 31 => ⟨S500000x64, .f32⟩
  | 32 => ⟨S500000x64, .f32⟩
  | 33 => ⟨S_, .f32⟩
  | 34 => ⟨S500000x64, .f32⟩
  | 35 => ⟨S500000x64, .f32⟩
  | 36 => ⟨S500000x2, .f32⟩
  | 37 => ⟨S1x2, .f32⟩
  | 38 => ⟨S500000x2, .f32⟩
  | 39 => ⟨S500000x2, .f32⟩
  | 40 => ⟨S_, .f32⟩
  | 41 => ⟨S500000, .f32⟩
  | 42 => ⟨S_, .f32⟩
  | 43 => ⟨S500000, .f32⟩
  | 44 => ⟨S500000, .f32⟩
  | 45 => ⟨S500000x1, .f32⟩
  | 46 => ⟨S500000x2, .f32⟩
  | 47 => ⟨S500000x2, .f32⟩
  | 48 => ⟨S500000x2, .f32⟩
  | 49 => ⟨S_, .f32⟩
  | 50 => ⟨S500000, .f32⟩
  | 51 => ⟨S500000x1, .f32⟩
  | 52 => ⟨S500000x2, .f32⟩
  | 53 => ⟨S500000x2, .f32⟩
  | 54 => ⟨S500000x1, .f32⟩
  | 55 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_17 : Ref sig .tc := ⟨.hbm, 113, rfl⟩
abbrev main_v76 : Ref sig .tc := ⟨.hbm, 114, rfl⟩
abbrev main_v77 : Ref sig .tc := ⟨.hbm, 115, rfl⟩
abbrev main_c_18 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_20 : Ref sig .tc := ⟨.hbm, 131, rfl⟩
abbrev main_v91 : Ref sig .tc := ⟨.hbm, 132, rfl⟩
abbrev main_v92 : Ref sig .tc := ⟨.hbm, 133, rfl⟩
abbrev main_c_21 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_c_22 : Ref sig .tc := ⟨.hbm, 140, rfl⟩
abbrev main_v98 : Ref sig .tc := ⟨.hbm, 141, rfl⟩
abbrev main_v99 : Ref sig .tc := ⟨.hbm, 142, rfl⟩
abbrev main_c_23 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call3_cst : Ref sig .tc := ⟨.hbm, 154, rfl⟩
abbrev main_call3_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call4_cst : Ref sig .tc := ⟨.hbm, 161, rfl⟩
abbrev main_call4_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_24 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_26 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S100000_S600000_d0 : Shape.Concatenates [S500000, S100000] S600000 0
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S500000_d1 : S500000x2.ReducesTo [1] S500000
  h_S_ : 0 < S_.numel
  bcast_S500000x1_S500000x2_0_1 : S500000x1.BroadcastsInDim S500000x2 (![0, 1] : Fin 2 → Fin S500000x2.rank)
  slices_S500000x2_S500000x1_0_1 : S500000x2.Slices ![0, 1] S500000x1
  shapeCasts_S500000x1_S500000 : S500000x1.ShapeCasts S500000
  dot_S100000x128_S128x128_S100000x128_1_0_0_1_n_n_wf : DotDims.WF S100000x128 S128x128 S100000x128 [1] [0] [0] [1] [] []
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  gather_S100000x128_S500000x1_S500000x128_1_0_n_n_0_1_1128_wf : GatherDims.WF S100000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x64_S500000x64_1_0_0_1_n_n_wf : DotDims.WF S500000x128 S128x64 S500000x64 [1] [0] [0] [1] [] []
  dot_S500000x64_S64x2_S500000x2_1_0_0_1_n_n_wf : DotDims.WF S500000x64 S64x2 S500000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x2_S500000x2_1_0_0_1_n_n : DotDims S500000x64 S64x2 S500000x2 where
  lhsContracting := [1]
  rhsContracting := [0]
  lhsNonContracting := [0]
  rhsNonContracting := [1]
  lhsBatch := []
  rhsBatch := []
  wf := dot_S500000x64_S64x2_S500000x2_1_0_0_1_n_n_wf

class Facts : Prop extends Facts₀ where

variable [Facts]
-- ==== Proof.KRun.lean ====
/-
  The kernel program's run with its result named: every weakly fair execution terminates, nothing faults, the twelve
  argument arrays end as launched, and the result buffer ends holding what the last host stretch leaves in it — the
  contents `W11` at the end of the fold through the program's host stretches and launches.
-/
import proofs.«124494_j37151467111037_2_alg».proof.Proof.Gen.KernelIdeal.Frame

set_option maxRecDepth 16384

noncomputable section

namespace Cert.Gcn.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch of the program's eleven segments, read at the result buffer as well as at the arguments. -/
theorem run_result : θ_run defs (onTc (τ := τ) (main (F := F))) ⟨m, fun _ => 0, ρ⟩ (fun r => ∀ c : Dev nD,
      r.2.mem ((c.tc : Thread nD τ).loc main_v62) = W11 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v62 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.Gcn.KRun

end
-- ==== Proof.Spec.lean ====
/-
  The mathematics of the two programs, as functions of whole arrays of extended reals.

  A graph-convolution layer multiplies the node features by a weight matrix, scales row r by a per-node factor d(r),
  adds the rows up along the edges, scales the sums again and adds a bias. The kernel does the two scalings around the
  sum, inside its matrix-unit bodies, so its bodies compute, row by row,
    * `scaledProd X W d`   : (X·W)(r, l) · d(r)
    * `scaleBias A d b`    : A(r, l) · d(r) + b(l)
    * `hidden A d b`       : max(A(r, l) · d(r) + b(l), 0)
    * `layer2 A d b W`     : the first applied to the third: (hidden·W)(r, l) · d(r)
  and the edge head maps the two endpoint rows of an edge through three dense layers to two logits and returns the
  second class's softmax probability (`edgeHead`). Every function reads row r of its row-shaped arguments only, so
  it is the same function on a block of rows as on the whole array; the number of rows is a parameter.
-/
import Idealize.ShloMosaic.Lib.ValueIdx
import Idealize.ShloMosaic.PureOps.Ideal

noncomputable section

open scoped BigOperators

namespace Cert.Gcn

open Idealize.ShloMosaic Idealize.ShloMosaic.ValueIdx

/-- An a × b array of extended reals. -/
abbrev Mat (a b : Nat) : Type := (⟨2, ![a, b]⟩ : Shape).Idx → EReal

/-- The row number of a matrix index. -/
abbrev rowOf {a b : Nat} (i : (⟨2, ![a, b]⟩ : Shape).Idx) : Fin a := ⟨(i 0).val, idx2_lt0 i⟩
/-- The column number of a matrix index. -/
abbrev colOf {a b : Nat} (i : (⟨2, ![a, b]⟩ : Shape).Idx) : Fin b := ⟨(i 1).val, idx2_lt1 i⟩
/-- The one column of a column matrix, the one row of a row matrix. -/
abbrev c0 : Fin 1 := ⟨0, Nat.one_pos⟩

/-- The float zero that both programs take the positive part against. -/
abbrev fzero : EReal := Ideal.ofBits .f32 0x00000000#32

/-- Entry (p, q) of the product X·W. -/
def prodAt {n k c : Nat} (X : Mat n k) (W : Mat k c) (p : Fin n) (q : Fin c) : EReal :=
  ∑ j : Fin k, X (ix2 p j) * W (ix2 j q)

/-- (X·W)(r, l) · d(r). -/
def scaledProd {n : Nat} (X : Mat n 128) (W : Mat 128 128) (d : Mat n 1) : Mat n 128 :=
  fun i => prodAt X W (rowOf i) (colOf i) * d (ix2 (rowOf i) c0)

/-- A(r, l) · d(r) + b(l). -/
def scaleBias {n : Nat} (A : Mat n 128) (d : Mat n 1) (b : Mat 1 128) : Mat n 128 :=
  fun i => A i * d (ix2 (rowOf i) c0) + b (ix2 c0 (colOf i))

/-- The positive part, entry by entry. -/
def relu {n c : Nat} (X : Mat n c) : Mat n c := fun i => max (X i) fzero

/-- max(A(r, l) · d(r) + b(l), 0). -/
def hidden {n : Nat} (A : Mat n 128) (d : Mat n 1) (b : Mat 1 128) : Mat n 128 := relu (scaleBias A d b)

/-- (hidden·W)(r, l) · d(r): the first layer's epilogue fused with the second layer's scaled product. -/
def layer2 {n : Nat} (A : Mat n 128) (d : Mat n 1) (b : Mat 1 128) (W : Mat 128 128) : Mat n 128 :=
  scaledProd (hidden A d b) W d

/-- A dense layer: (X·W)(r, l) + b(l). -/
def dense {n k c : Nat} (X : Mat n k) (W : Mat k c) (b : Mat 1 c) : Mat n c :=
  fun i => prodAt X W (rowOf i) (colOf i) + b (ix2 c0 (colOf i))

/-- The edge features: the two endpoint rows against the two halves of the edge weight matrix, plus the bias. -/
def edgePre {n : Nat} (er ec : Mat n 128) (Wt Wb : Mat 128 128) (be : Mat 1 128) : Mat n 128 :=
  fun i => prodAt er Wt (rowOf i) (colOf i) + prodAt ec Wb (rowOf i) (colOf i) + be (ix2 c0 (colOf i))

/-- The two logits of every edge. -/
def logits {n : Nat} (er ec : Mat n 128) (Wt Wb : Mat 128 128) (be : Mat 1 128) (Wc1 : Mat 128 64) (bc1 : Mat 1 64)
    (Wc2 : Mat 64 2) (bc2 : Mat 1 2) : Mat n 2 :=
  dense (relu (dense (relu (edgePre er ec Wt Wb be)) Wc1 bc1)) Wc2 bc2

/-- The softmax probability of the second of two logits a, b, shifted by their maximum. -/
def prob1 (a b : EReal) : EReal :=
  Ideal.div (Ideal.exp (b - max a b)) (Ideal.exp (a - max a b) + Ideal.exp (b - max a b))

/-- The edge head: the second class's probability of every edge, as a one-column matrix. -/
def edgeHead {n : Nat} (er ec : Mat n 128) (Wt Wb : Mat 128 128) (be : Mat 1 128) (Wc1 : Mat 128 64) (bc1 : Mat 1 64)
    (Wc2 : Mat 64 2) (bc2 : Mat 1 2) : Mat n 1 :=
  fun i => prob1 (logits er ec Wt Wb be Wc1 bc1 Wc2 bc2 (ix2 (rowOf i) (⟨0, by decide⟩ : Fin 2)))
    (logits er ec Wt Wb be Wc1 bc1 Wc2 bc2 (ix2 (rowOf i) (⟨1, by decide⟩ : Fin 2)))

/-! ## Read at coordinates -/

theorem scaledProd_apply {n : Nat} (X : Mat n 128) (W : Mat 128 128) (d : Mat n 1) (p : Fin n) (q : Fin 128) :
    scaledProd X W d (ix2 p q) = prodAt X W p q * d (ix2 p c0) := rfl

theorem scaleBias_apply {n : Nat} (A : Mat n 128) (d : Mat n 1) (b : Mat 1 128) (p : Fin n) (q : Fin 128) :
    scaleBias A d b (ix2 p q) = A (ix2 p q) * d (ix2 p c0) + b (ix2 c0 q) := rfl

theorem relu_apply {n c : Nat} (X : Mat n c) (i : (⟨2, ![n, c]⟩ : Shape).Idx) : relu X i = max (X i) fzero := rfl

theorem hidden_apply {n : Nat} (A : Mat n 128) (d : Mat n 1) (b : Mat 1 128) (p : Fin n) (q : Fin 128) :
    hidden A d b (ix2 p q) = max (A (ix2 p q) * d (ix2 p c0) + b (ix2 c0 q)) fzero := rfl

theorem dense_apply {n k c : Nat} (X : Mat n k) (W : Mat k c) (b : Mat 1 c) (p : Fin n) (q : Fin c) :
    dense X W b (ix2 p q) = prodAt X W p q + b (ix2 c0 q) := rfl

theorem edgePre_apply {n : Nat} (er ec : Mat n 128) (Wt Wb : Mat 128 128) (be : Mat 1 128) (p : Fin n) (q : Fin 128) :
    edgePre er ec Wt Wb be (ix2 p q) = prodAt er Wt p q + prodAt ec Wb p q + be (ix2 c0 q) := rfl

theorem edgeHead_apply {n : Nat} (er ec : Mat n 128) (Wt Wb : Mat 128 128) (be : Mat 1 128) (Wc1 : Mat 128 64) (bc1 : Mat 1 64)
    (Wc2 : Mat 64 2) (bc2 : Mat 1 2) (p : Fin n) (q : Fin 1) :
    edgeHead er ec Wt Wb be Wc1 bc1 Wc2 bc2 (ix2 p q)
      = prob1 (logits er ec Wt Wb be Wc1 bc1 Wc2 bc2 (ix2 p (⟨0, by decide⟩ : Fin 2)))
          (logits er ec Wt Wb be Wc1 bc1 Wc2 bc2 (ix2 p (⟨1, by decide⟩ : Fin 2))) := rfl

end Cert.Gcn

end
-- ==== Proof.KSpec.lean ====
/-
  The kernel program as one function of its argument arrays, at the extended reals: the host operations between the
  four kernel launches spelt as the program spells them, each launch replaced by the whole-array function its body
  computes row by row (Spec.lean). The edge list gives two vectors of node numbers, `rowI` (sources) and `colI`
  (destinations); appending the self-loops 0 … N−1 to each gives `rowF` and `colF`. A gather reads the source rows
  through the column of wrapped numbers (`wrapCol`: a negative number has N added), a scatter-add sums them into
  the destination rows through the raw column (`rawCol`). The degree of a node is the number of edges that land on
  it, and `dinv` is its reciprocal square root where it is positive, zero elsewhere.
-/
import proofs.«124494_j37151467111037_2_alg».proof.KernelIdeal
import proofs.«124494_j37151467111037_2_alg».proof.Proof.Gen.KernelIdeal
import proofs.«124494_j37151467111037_2_alg».proof.Proof.Spec

noncomputable section

namespace Cert.Gcn.K

open Idealize.ShloMosaic Idealize.ShloMosaic.ValueIdx Cert.KernelIdeal Cert.KernelIdeal.Facts₀ Cert.Gcn

/-- The sources of the edges. -/
def rowI (x1 : IVec S2x500000 32) : IVec S500000 32 :=
  shapeCast S500000 (extractStridedSlice S1x500000 ![0, 0] x1 slices_S2x500000_S1x500000_0_0) shapeCasts_S1x500000_S500000
/-- The destinations of the edges. -/
def colI (x1 : IVec S2x500000 32) : IVec S500000 32 :=
  shapeCast S500000 (extractStridedSlice S1x500000 ![1, 0] x1 slices_S2x500000_S1x500000_1_0) shapeCasts_S1x500000_S500000
/-- A vector of node numbers with the self-loops appended. -/
def withLoops (v : IVec S500000 32) : IVec S600000 32 :=
  concatenate S600000 0 [⟨S500000, v⟩, ⟨S100000, iotaInDim S100000 32 0⟩] concatenates_S500000_S100000_S600000_d0
def rowF (x1 : IVec S2x500000 32) : IVec S600000 32 := withLoops (rowI x1)
def colF (x1 : IVec S2x500000 32) : IVec S600000 32 := withLoops (colI x1)
/-- The numbers as a one-column array. -/
def rawCol (v : IVec S600000 32) : IVec S600000x1 32 := broadcastInDim S600000x1 ![0] bcast_S600000_S600000x1_0 v
/-- The numbers, negatives wrapped by N, as a one-column array. -/
def wrapCol (v : IVec S600000 32) : IVec S600000x1 32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)
/-- The same wrap for the plain edge list (the edge head's endpoint gathers). -/
def wrapColE (v : IVec S500000 32) : IVec S500000x1 32 :=
  broadcastInDim S500000x1 ![0] bcast_S500000_S500000x1_0
    (select (cmpi .slt v (broadcastInDim S500000 ![] bcast_S_S500000 (constantI S_ 32 0#32)))
      (addi v (broadcastInDim S500000 ![] bcast_S_S500000 (constantI S_ 32 100000#32))) v)

/-- The number of edges (self-loop included) landing on each node. -/
def deg (x1 : IVec S2x500000 32) : FVec Ideal S100000 .f32 :=
  Host.scatterAdd scatter_S100000_S600000x1_S600000_n_0_0_1
    (broadcastInDim S100000 ![] bcast_S_S100000 (constant (F := Ideal) S_ .f32 0x00000000#32))
    (rawCol (colF x1))
    (broadcastInDim S600000 ![] bcast_S_S600000 (constant (F := Ideal) S_ .f32 0x3F800000#32))
/-- The per-node factor: the reciprocal square root of a positive degree, zero elsewhere. -/
def dinv (x1 : IVec S2x500000 32) : FVec Ideal S100000 .f32 :=
  select (cmpf .ogt (deg x1) (broadcastInDim S100000 ![] bcast_S_S100000 (constant (F := Ideal) S_ .f32 0x00000000#32)))
    (Host.rsqrt (deg x1))
    (broadcastInDim S100000 ![] bcast_S_S100000 (constant (F := Ideal) S_ .f32 0x00000000#32))
/-- The factors as a one-column matrix. -/
def dcol (x1 : IVec S2x500000 32) : FVec Ideal S100000x1 .f32 := shapeCast S100000x1 (dinv x1) shapeCasts_S100000_S100000x1

/-- A bias vector as a one-row matrix. -/
def brow128 (b : FVec Ideal S128 .f32) : FVec Ideal S1x128 .f32 := shapeCast S1x128 b shapeCasts_S128_S1x128
def brow64 (b : FVec Ideal S64 .f32) : FVec Ideal S1x64 .f32 := shapeCast S1x64 b shapeCasts_S64_S1x64
def brow2 (b : FVec Ideal S2 .f32) : FVec Ideal S1x2 .f32 := shapeCast S1x2 b shapeCasts_S2_S1x2

/-- The aggregation along the edges: the source rows gathered and summed into the destination rows. -/
def aggregate (A : FVec Ideal S100000x128 .f32) (x1 : IVec S2x500000 32) : FVec Ideal S100000x128 .f32 :=
  Host.scatterAdd scatter_S100000x128_S600000x1_S600000x128_1_0_0_1
    (broadcastInDim S100000x128 ![] bcast_S_S100000x128 (constant (F := Ideal) S_ .f32 0x00000000#32))
    (rawCol (colF x1))
    (Host.gather gather_S100000x128_S600000x1_S600000x128_1_0_n_n_0_1_1128 A (wrapCol (rowF x1)))

/-- The first launch's array. -/
def stage0 (x0 : FVec Ideal S100000x128 .f32) (x1 : IVec S2x500000 32) (x2 : FVec Ideal S128x128 .f32) : FVec Ideal S100000x128 .f32 :=
  scaledProd x0 x2 (dcol x1)
/-- The second launch's array. -/
def stage1 (x0 : FVec Ideal S100000x128 .f32) (x1 : IVec S2x500000 32) (x2 : FVec Ideal S128x128 .f32) (x3 : FVec Ideal S128 .f32)
    (x4 : FVec Ideal S128x128 .f32) : FVec Ideal S100000x128 .f32 :=
  layer2 (aggregate (stage0 x0 x1 x2) x1) (dcol x1) (brow128 x3) x4
/-- The third launch's array: the node embeddings. -/
def nodeEmb (x0 : FVec Ideal S100000x128 .f32) (x1 : IVec S2x500000 32) (x2 : FVec Ideal S128x128 .f32) (x3 : FVec Ideal S128 .f32)
    (x4 : FVec Ideal S128x128 .f32) (x5 : FVec Ideal S128 .f32) : FVec Ideal S100000x128 .f32 :=
  scaleBias (aggregate (stage1 x0 x1 x2 x3 x4) x1) (dcol x1) (brow128 x5)

/-- The embeddings of one endpoint of every edge. -/
def endpoint (E : FVec Ideal S100000x128 .f32) (v : IVec S500000 32) : FVec Ideal S500000x128 .f32 :=
  Host.gather gather_S100000x128_S500000x1_S500000x128_1_0_n_n_0_1_1128 E (wrapColE v)

/-- The fourth launch's array: the second class's probability of every edge, one column. -/
def stage3 (x0 : FVec Ideal S100000x128 .f32) (x1 : IVec S2x500000 32) (x2 : FVec Ideal S128x128 .f32) (x3 : FVec Ideal S128 .f32)
    (x4 : FVec Ideal S128x128 .f32) (x5 : FVec Ideal S128 .f32) (x6 : FVec Ideal S256x128 .f32) (x7 : FVec Ideal S128 .f32)
    (x8 : FVec Ideal S128x64 .f32) (x9 : FVec Ideal S64 .f32) (x10 : FVec Ideal S64x2 .f32) (x11 : FVec Ideal S2 .f32) :
    FVec Ideal S500000x1 .f32 :=
  edgeHead (endpoint (nodeEmb x0 x1 x2 x3 x4 x5) (rowI x1)) (endpoint (nodeEmb x0 x1 x2 x3 x4 x5) (colI x1))
    (extractStridedSlice S128x128 ![0, 0] x6 slices_S256x128_S128x128_0_0)
    (extractStridedSlice S128x128 ![128, 0] x6 slices_S256x128_S128x128_128_0)
    (brow128 x7) x8 (brow64 x9) x10 (brow2 x11)

/-- THE KERNEL PROGRAM'S RESULT as a function of its twelve arguments. -/
def result (x0 : FVec Ideal S100000x128 .f32) (x1 : IVec S2x500000 32) (x2 : FVec Ideal S128x128 .f32) (x3 : FVec Ideal S128 .f32)
    (x4 : FVec Ideal S128x128 .f32) (x5 : FVec Ideal S128 .f32) (x6 : FVec Ideal S256x128 .f32) (x7 : FVec Ideal S128 .f32)
    (x8 : FVec Ideal S128x64 .f32) (x9 : FVec Ideal S64 .f32) (x10 : FVec Ideal S64x2 .f32) (x11 : FVec Ideal S2 .f32) :
    FVec Ideal S500000 .f32 :=
  shapeCast S500000 (stage3 x0 x1 x2 x3 x4 x5 x6 x7 x8 x9 x10 x11) shapeCasts_S500000x1_S500000

end Cert.Gcn.K

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«124494_j37151467111037_2_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibTwoLanes.lean ====
/-
  Reductions along the rows of a two-column matrix.

  Over two lanes a fold is a single binary operation: the maximum of a row, started from a value b, is
  max(x₀, max(x₁, b)), and the sum of a row is x₀ + x₁. Started from the word of minus infinity — the bottom of the
  extended reals — the row maximum is max(x₀, x₁). (The general forms over b lanes are
  `multiReduction_maximumf_rows_apply` and `multiReduction_add_rows_apply`.)
-/
import proofs.«124494_j37151467111037_2_alg».proof.Proof.LibLaneMax

open scoped BigOperators

namespace Idealize.ShloMosaic.ValueIdx

open Idealize.ShloMosaic

/-- The fold of the maximum over two lanes, from a starting value `b`: `max (f 0) (max (f 1) b)`. -/
theorem fold_max_univ_two {α : Type} [LinearOrder α] (f : Fin 2 → α) (b : α) :
    (Finset.univ : Finset (Fin 2)).fold max b f = max (f 0) (max (f 1) b) := by
  have h : (Finset.univ : Finset (Fin 2)) = insert (0 : Fin 2) {(1 : Fin 2)} := by decide
  rw [h, Finset.fold_insert (by decide), Finset.fold_singleton]

/-- The 32-bit word of minus infinity reads as the bottom of the extended reals. -/
theorem ofBits_neg_inf_f32 : Ideal.ofBits .f32 0xFF800000#32 = (⊥ : EReal) := by
  simp [Ideal.ofBits, Ideal.ieee]

/-- The maximum of an `[a, 2]` matrix over axis 1, started from minus infinity, read at row `i`: the larger of the
    row's two entries. -/
theorem multiReduction_maximumf_two_apply {a : ℕ} (src : FVec Ideal ⟨2, ![a, 2]⟩ .f32)
    (h : (⟨2, ![a, 2]⟩ : Shape).Reduces [1] ⟨1, ![a]⟩) (hφ : FKind.Formats .f32)
    (hacc : (0xFF800000#32 : BitVec FTy.f32.bits) = FKind.maximumf.neutral .f32 hφ) (i : Fin a) :
    multiReduction .maximumf [1] ⟨1, ![a]⟩ src 0xFF800000#32 h hφ hacc (ix1 i)
      = max (src (ix2 i (0 : Fin 2))) (src (ix2 i (1 : Fin 2))) := by
  refine (multiReduction_maximumf_rows_apply src _ h hφ hacc i).trans ?_
  rw [fold_max_univ_two]
  show max _ (max _ (Ideal.ofBits .f32 0xFF800000#32)) = _
  rw [ofBits_neg_inf_f32, max_bot_right]

/-- The sum of an `[a, 2]` matrix over axis 1, read at row `i`: the sum of the row's two entries. -/
theorem multiReduction_add_two_apply {a : ℕ} {φ : FTy} (src : FVec Ideal ⟨2, ![a, 2]⟩ φ) (acc : BitVec φ.bits)
    (h : (⟨2, ![a, 2]⟩ : Shape).Reduces [1] ⟨1, ![a]⟩) (hφ : FKind.Formats φ) (hacc : acc = FKind.add.neutral φ hφ) (i : Fin a) :
    multiReduction .add [1] ⟨1, ![a]⟩ src acc h hφ hacc (ix1 i)
      = src (ix2 i (0 : Fin 2)) + src (ix2 i (1 : Fin 2)) :=
  (multiReduction_add_rows_apply src acc h hφ hacc i).trans (Fin.sum_univ_two _)

end Idealize.ShloMosaic.ValueIdx
-- ==== Proof.Payloads.lean ====
/-
  The four kernel bodies, each read as one function of the blocks it loads.
-/
import proofs.«124494_j37151467111037_2_alg».proof.Proof.Gen.KernelIdeal.Skeleton
import proofs.«124494_j37151467111037_2_alg».proof.Proof.Spec
import proofs.«124494_j37151467111037_2_alg».proof.Proof.LibPlainMatmul
import proofs.«124494_j37151467111037_2_alg».proof.Proof.LibColumnBroadcast
import proofs.«124494_j37151467111037_2_alg».proof.Proof.LibColumnCast
import proofs.«124494_j37151467111037_2_alg».proof.Proof.LibLaneMax
import proofs.«124494_j37151467111037_2_alg».proof.Proof.LibTwoLanes
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Pay

open Idealize.ShloMosaic Idealize.ShloMosaic.ValueIdx Cert.KernelIdeal Cert.KernelIdeal.Gen Cert.Gcn

/-- The first body: the product of the block of rows with the weights, each row scaled by its factor. -/
theorem pay0 (x0 : Vec Ideal S5000x128 .f32) (x1 : Vec Ideal S128x128 .f32) (x2 : Vec Ideal S5000x1 .f32) :
    k0_pay1 (F := Ideal) x0 x1 x2 = scaledProd x0 x1 x2 := by
  funext j
  obtain ⟨p, q, rfl⟩ : ∃ (p : Fin 5000) (q : Fin 128), j = ix2 p q := ⟨j 0, j 1, eq_ix2 j⟩
  unfold k0_pay1
  simp only [shapeCast_self]
  -- entry (p, q) is the product's entry times the factor column's entry of row p
  rw [mulf_apply, broadcastTo_a1_ab_apply]
  refine congrArg (· * x2 (ix2 p (0 : Fin 1))) ?_
  -- the product into the zero accumulator is the sum over the contracted coordinate
  refine (matmul_plain_zero_apply dot_S5000x128_S128x128_S5000x128_1_0_0_1_n_n_wf none _ _ p q).trans ?_
  show _ = ∑ c : Fin 128, x0 (ix2 p c) * x1 (ix2 c q)
  rfl

/-- The second body (the factor block is loaded twice; both loads read the same block). -/
theorem pay1 (v0 : Vec Ideal S5000x128 .f32) (v2 : Vec Ideal S5000x1 .f32) (v6 : Vec Ideal S1x128 .f32) (v14 : Vec Ideal S128x128 .f32) :
    k1_pay1 (F := Ideal) v0 v2 v6 v14 v2 = layer2 v0 v2 v6 v14 := by
  funext j
  obtain ⟨p, q, rfl⟩ : ∃ (p : Fin 5000) (q : Fin 128), j = ix2 p q := ⟨j 0, j 1, eq_ix2 j⟩
  unfold k1_pay1
  simp only [shapeCast_self]
  -- entry (p, q) is the product's entry times the factor column's entry of row p
  rw [mulf_apply, broadcastTo_a1_ab_apply]
  refine congrArg (· * v2 (ix2 p (0 : Fin 1))) ?_
  -- the product into the zero accumulator is the sum over the contracted coordinate
  refine (matmul_plain_zero_apply dot_S5000x128_S128x128_S5000x128_1_0_0_1_n_n_wf none _ _ p q).trans ?_
  show _ = ∑ c : Fin 128, hidden v0 v2 v6 (ix2 p c) * v14 (ix2 c q)
  refine Finset.sum_congr rfl fun c _ => ?_
  refine congrArg (· * v14 (ix2 c q)) ?_
  -- the left factor at (p, c) is the positive part of the scaled entry plus the bias
  rw [truncf_apply, maximumf_apply, addf_apply, mulf_apply, broadcastTo_a1_ab_apply, broadcastTo_1b_ab_apply]
  rfl

/-- The third body. -/
theorem pay2 (v0 : Vec Ideal S5000x128 .f32) (v2 : Vec Ideal S5000x1 .f32) (v6 : Vec Ideal S1x128 .f32) :
    k2_pay1 (F := Ideal) v0 v2 v6 = scaleBias v0 v2 v6 := by
  funext j
  obtain ⟨p, q, rfl⟩ : ∃ (p : Fin 5000) (q : Fin 128), j = ix2 p q := ⟨j 0, j 1, eq_ix2 j⟩
  unfold k2_pay1
  simp only [shapeCast_self]
  -- entry (p, q) is the entry times the factor column's entry of row p, plus the bias row's entry of column q
  rw [addf_apply, mulf_apply, broadcastTo_a1_ab_apply, broadcastTo_1b_ab_apply]
  rfl

/-! ## The fourth body: the three dense layers -/

/-- The logits of a block of edges, before the last bias: three dense layers read at an entry. -/
theorem logitsProd_apply (v0 v2 : Vec Ideal S5000x128 .bf16) (v4 v7 : Vec Ideal S128x128 .f32) (v13 : Vec Ideal S1x128 .f32)
    (v21 : Vec Ideal S128x64 .f32) (v24 : Vec Ideal S1x64 .f32) (v32 : Vec Ideal S64x2 .f32) (p : Fin 5000) (c : Fin 2) :
    k3_pay2 (F := Ideal) v0 v2 v4 v7 v13 v21 v24 v32 (ix2 p c)
      = prodAt (relu (dense (relu (edgePre v0 v2 v4 v7 v13)) v21 v24)) v32 p c := by
  unfold k3_pay2
  simp only [shapeCast_self]
  -- the last product: the sum over the 64 hidden coordinates
  refine (matmul_plain_zero_apply dot_S5000x64_S64x2_S5000x2_1_0_0_1_n_n_wf none _ _ p c).trans ?_
  show _ = ∑ k : Fin 64, relu (dense (relu (edgePre v0 v2 v4 v7 v13)) v21 v24) (ix2 p k) * v32 (ix2 k c)
  refine Finset.sum_congr rfl fun k _ => ?_
  refine congrArg (· * v32 (ix2 k c)) ?_
  rw [truncf_apply, maximumf_apply, addf_apply, broadcastTo_1b_ab_apply, broadcast_apply]
  show _ = max (prodAt (relu (edgePre v0 v2 v4 v7 v13)) v21 p k + v24 (ix2 c0 k)) fzero
  refine congrArg (fun z => max (z + v24 (ix2 (0 : Fin 1) k)) fzero) ?_
  -- the middle product: the sum over the 128 edge features
  refine (matmul_plain_zero_apply dot_S5000x128_S128x64_S5000x64_1_0_0_1_n_n_wf none _ _ p k).trans ?_
  show _ = ∑ m : Fin 128, relu (edgePre v0 v2 v4 v7 v13) (ix2 p m) * v21 (ix2 m k)
  refine Finset.sum_congr rfl fun m _ => ?_
  refine congrArg (· * v21 (ix2 m k)) ?_
  rw [truncf_apply, maximumf_apply, addf_apply, addf_apply, broadcastTo_1b_ab_apply, broadcast_apply]
  show _ = max (prodAt v0 v4 p m + prodAt v2 v7 p m + v13 (ix2 c0 m)) fzero
  -- the two endpoint products
  refine (congrArg₂ (fun x y => max (x + y + v13 (ix2 (0 : Fin 1) m)) fzero)
    (matmul_plain_zero_apply dot_S5000x128_S128x128_S5000x128_1_0_0_1_n_n_wf none _ _ p m)
    (matmul_plain_zero_apply dot_S5000x128_S128x128_S5000x128_1_0_0_1_n_n_wf none _ _ p m)).trans ?_
  rfl

/-! ## The fourth body: the softmax over the two logits of every edge -/

/-- The row maximum of a two-column block, started from minus infinity and compared once more with minus infinity,
    spread back over the two columns: the larger of the row's two entries. -/
theorem rowMax_apply (Y : FVec Ideal S5000x2 .f32) (p : Fin 5000) (c : Fin 2) :
    broadcastTo S5000x2 (shapeCast S5000x1 (maximumf (broadcast S5000 (Scalar.ofBits (F := Ideal) .f32 0xFF800000#32))
      (multiReduction (F := Ideal) .maximumf [1] S5000 Y 0xFF800000#32 reduces_S5000x2_S5000 (.inl rfl) rfl))
      shapeCasts_S5000_S5000x1) broadcasts_S5000x1_S5000x2 (ix2 p c)
      = max (Y (ix2 p (0 : Fin 2))) (Y (ix2 p (1 : Fin 2))) := by
  rw [broadcastTo_a1_ab_apply, shapeCast_a_a1_apply, maximumf_apply, broadcast_apply]
  refine (congrArg (max _) (multiReduction_maximumf_two_apply Y reduces_S5000x2_S5000 _ _ p)).trans ?_
  show max (Ideal.ofBits .f32 0xFF800000#32) _ = _
  rw [ofBits_neg_inf_f32, max_bot_left]

/-- The row sum of a two-column block, spread back over the two columns: the sum of the row's two entries. -/
theorem rowSum_apply (E : FVec Ideal S5000x2 .f32) (p : Fin 5000) (c : Fin 2) :
    broadcastTo S5000x2 (shapeCast S5000x1
      (multiReduction (F := Ideal) .add [1] S5000 E 0x00000000#32 reduces_S5000x2_S5000 (.inl rfl) rfl)
      shapeCasts_S5000_S5000x1) broadcasts_S5000x1_S5000x2 (ix2 p c)
      = E (ix2 p (0 : Fin 2)) + E (ix2 p (1 : Fin 2)) := by
  rw [broadcastTo_a1_ab_apply, shapeCast_a_a1_apply]
  exact multiReduction_add_two_apply E _ reduces_S5000x2_S5000 _ _ p

/-- The exponential, entry by entry. -/
theorem exp_apply {s : Shape} {φ : FTy} (a : FVec Ideal s φ) (i : s.Idx) : exp a i = Ideal.exp (a i) := rfl

/-- The tail of the fourth body: from the logits block without the last bias, and that bias, the second class's
    probability of every edge. -/
theorem softmaxTail_apply (L : FVec Ideal S5000x2 .f32) (b : Vec Ideal S1x2 .f32) (p : Fin 5000) (u : Fin 1) :
    k3_pay1 (F := Ideal) L b (ix2 p u)
      = prob1 (L (ix2 p (0 : Fin 2)) + b (ix2 (0 : Fin 1) (0 : Fin 2)))
          (L (ix2 p (1 : Fin 2)) + b (ix2 (0 : Fin 1) (1 : Fin 2))) := by
  unfold k3_pay1
  simp only [shapeCast_self]
  -- the slice keeps column 1
  refine (extractStridedSlice_apply ![0, 1] _ slices_S5000x2_o0_1_S5000x1 (ix2 p u) (ix2 p (1 : Fin 2)) fun a => ?_).trans ?_
  · match a with
    | ⟨0, _⟩ => show p.val = 0 + p.val; omega
    | ⟨1, _⟩ => show 1 = 1 + u.val; omega
  -- the quotient of the exponentials by their row sum, each shifted by the row maximum
  rw [divf_apply, rowSum_apply]
  simp only [exp_apply, subf_apply]
  rw [rowMax_apply, rowMax_apply]
  simp only [addf_apply, broadcastTo_1b_ab_apply]
  rfl

/-- The fourth body: the edge head on a block of edges. -/
theorem pay3 (v0 v2 : Vec Ideal S5000x128 .bf16) (v4 v7 : Vec Ideal S128x128 .f32) (v13 : Vec Ideal S1x128 .f32)
    (v21 : Vec Ideal S128x64 .f32) (v24 : Vec Ideal S1x64 .f32) (v32 : Vec Ideal S64x2 .f32) (v35 : Vec Ideal S1x2 .f32) :
    k3_pay1 (F := Ideal) (k3_pay2 (F := Ideal) v0 v2 v4 v7 v13 v21 v24 v32) v35 = edgeHead v0 v2 v4 v7 v13 v21 v24 v32 v35 := by
  funext j
  obtain ⟨p, u, rfl⟩ : ∃ (p : Fin 5000) (u : Fin 1), j = ix2 p u := ⟨j 0, j 1, eq_ix2 j⟩
  rw [softmaxTail_apply, logitsProd_apply, logitsProd_apply]
  rfl

end Cert.Gcn.Pay

end
-- ==== Proof.Region0.lean ====
/-
  The first launch, blocks to array. The grid has 20 points; point t loads rows 5000·t … 5000·t + 4999 of the node
  features and of the factor column, and the whole weight matrix, and writes back the same rows of the result. The
  body's function reads row r of its row-shaped arguments only, so block t of the whole-array function is the body's
  function of the blocks, and the 20 blocks tile the 100000 rows: the array after the launch is `scaledProd` of the
  three arrays the launch finds.
-/
import proofs.«124494_j37151467111037_2_alg».proof.Proof.Gen.KernelIdeal.Frame
import proofs.«124494_j37151467111037_2_alg».proof.Proof.Payloads
import Idealize.ShloMosaic.Lib.Pipeline.Value
import Idealize.ShloMosaic.Lib.ValueIdx

set_option maxRecDepth 16384

noncomputable section

open scoped BigOperators

namespace Cert.Gcn.R0

open Idealize.ShloMosaic Idealize.ShloMosaic.TcCoe Idealize.ShloMosaic.ValueIdx
open Idealize.SL Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-shaped windows sit at block row t, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The whole-array function of the launch. -/
abbrev G (c : Dev nD) : Mat 100000 128 := scaledProd (V c main_arg0) (V c main_arg2) (V c main_v15)

/-- WHAT POINT t WRITES BACK is block t of the whole-array function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  rw [Pay.pay0]
  obtain ⟨e0, e1, e2, e3, e4, e5, e6, e7⟩ := idx_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  have hE : ((cfg0.win 3).blk t).view.emb (ix2 p q) = ix2 (⟨t.val * 5000 + p.val, by omega⟩ : Fin 100000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  show scaledProd (iblk0 V c 0 t) (iblk0 V c 1 t) (iblk0 V c 2 t) (ix2 p q) = G V c (((cfg0.win 3).blk t).view.emb (ix2 p q))
  rw [hE]
  show prodAt (iblk0 V c 0 t) (iblk0 V c 1 t) p q * iblk0 V c 2 t (ix2 p c0)
    = prodAt (V c main_arg0) (V c main_arg2) (⟨t.val * 5000 + p.val, by omega⟩ : Fin 100000) q
      * V c main_v15 (ix2 (⟨t.val * 5000 + p.val, by omega⟩ : Fin 100000) c0)
  have h2 : iblk0 V c 2 t (ix2 p c0) = V c main_v15 (ix2 (⟨t.val * 5000 + p.val, by omega⟩ : Fin 100000) c0) := by
    show V c main_v15 (((cfg0.win 2).blk t).view.emb (ix2 p c0)) = _
    congr 1; funext a; apply Fin.ext
    match a with
    | ⟨0, _⟩ => show win0_2.index t (0 : Fin 2) * 5000 + 1 * p.val = t.val * 5000 + p.val; omega
    | ⟨1, _⟩ => show win0_2.index t (1 : Fin 2) * 1 + 1 * 0 = 0; omega
  rw [h2]
  congr 1
  unfold prodAt
  refine Finset.sum_congr rfl fun k _ => ?_
  have hk : k.val < 128 := k.isLt
  have h0 : iblk0 V c 0 t (ix2 p k) = V c main_arg0 (ix2 (⟨t.val * 5000 + p.val, by omega⟩ : Fin 100000) k) := by
    show V c main_arg0 (((cfg0.win 0).blk t).view.emb (ix2 p k)) = _
    congr 1; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 k q) = V c main_arg2 (ix2 k q) := by
    show V c main_arg2 (((cfg0.win 1).blk t).view.emb (ix2 k q)) = _
    congr 1; funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [h0, h1]

/-- An index of the array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v18).slice (win0_3.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨(⟨(i 0).val / 5000, by show (i 0).val / 5000 < 20; omega⟩ : Fin cfg0.N), flush0_3 _, ?_⟩
  obtain ⟨-, -, -, -, -, -, e6, e7⟩ := idx_facts (⟨(i 0).val / 5000, by show (i 0).val / 5000 < 20; omega⟩ : Fin cfg0.N)
  rw [mem_blk]
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- THE ARRAY after the launch. -/
theorem final (c : Dev nD) : (dat0 V c).arrAt 3 cfg0.N = G V c :=
  (dat0 V c).arrAt_eq_of_cover 3 (G V c) (fun t _ => flushed_eq V c t) cover

end Cert.Gcn.R0

end
-- ==== Proof.SpecRows.lean ====
/-
  Every function of Spec.lean reads row r of its row-shaped arguments only: if two arrays (of possibly different
  heights) agree on one row each, the functions agree on that row. This is what lets a kernel tiled by blocks of rows
  be read block by block: block t of the whole-array function is the same function of the blocks.
-/
import proofs.«124494_j37151467111037_2_alg».proof.Proof.Spec

noncomputable section

open scoped BigOperators

namespace Cert.Gcn

open Idealize.ShloMosaic Idealize.ShloMosaic.ValueIdx

variable {n n' : Nat}

theorem prodAt_row {k c : Nat} (X : Mat n k) (X' : Mat n' k) (W : Mat k c) (p : Fin n) (p' : Fin n') (q : Fin c)
    (h : ∀ j : Fin k, X (ix2 p j) = X' (ix2 p' j)) : prodAt X W p q = prodAt X' W p' q := by
  unfold prodAt; exact Finset.sum_congr rfl fun j _ => by rw [h j]

theorem scaledProd_row (X : Mat n 128) (X' : Mat n' 128) (W : Mat 128 128) (d : Mat n 1) (d' : Mat n' 1) (p : Fin n) (p' : Fin n')
    (q : Fin 128) (hX : ∀ j : Fin 128, X (ix2 p j) = X' (ix2 p' j)) (hd : d (ix2 p c0) = d' (ix2 p' c0)) :
    scaledProd X W d (ix2 p q) = scaledProd X' W d' (ix2 p' q) := by
  rw [scaledProd_apply, scaledProd_apply, prodAt_row X X' W p p' q hX, hd]

theorem scaleBias_row (A : Mat n 128) (A' : Mat n' 128) (d : Mat n 1) (d' : Mat n' 1) (b : Mat 1 128) (p : Fin n) (p' : Fin n')
    (q : Fin 128) (hA : A (ix2 p q) = A' (ix2 p' q)) (hd : d (ix2 p c0) = d' (ix2 p' c0)) :
    scaleBias A d b (ix2 p q) = scaleBias A' d' b (ix2 p' q) := by
  rw [scaleBias_apply, scaleBias_apply, hA, hd]

theorem hidden_row (A : Mat n 128) (A' : Mat n' 128) (d : Mat n 1) (d' : Mat n' 1) (b : Mat 1 128) (p : Fin n) (p' : Fin n')
    (q : Fin 128) (hA : A (ix2 p q) = A' (ix2 p' q)) (hd : d (ix2 p c0) = d' (ix2 p' c0)) :
    hidden A d b (ix2 p q) = hidden A' d' b (ix2 p' q) := by
  rw [hidden_apply, hidden_apply, hA, hd]

theorem layer2_row (A : Mat n 128) (A' : Mat n' 128) (d : Mat n 1) (d' : Mat n' 1) (b : Mat 1 128) (W : Mat 128 128)
    (p : Fin n) (p' : Fin n') (q : Fin 128) (hA : ∀ j : Fin 128, A (ix2 p j) = A' (ix2 p' j))
    (hd : d (ix2 p c0) = d' (ix2 p' c0)) : layer2 A d b W (ix2 p q) = layer2 A' d' b W (ix2 p' q) := by
  unfold layer2
  exact scaledProd_row _ _ W d d' p p' q (fun j => hidden_row A A' d d' b p p' j (hA j) hd) hd

theorem relu_row {c : Nat} (X : Mat n c) (X' : Mat n' c) (p : Fin n) (p' : Fin n') (q : Fin c)
    (h : X (ix2 p q) = X' (ix2 p' q)) : relu X (ix2 p q) = relu X' (ix2 p' q) := by
  rw [relu_apply, relu_apply, h]

theorem dense_row {k c : Nat} (X : Mat n k) (X' : Mat n' k) (W : Mat k c) (b : Mat 1 c) (p : Fin n) (p' : Fin n') (q : Fin c)
    (h : ∀ j : Fin k, X (ix2 p j) = X' (ix2 p' j)) : dense X W b (ix2 p q) = dense X' W b (ix2 p' q) := by
  rw [dense_apply, dense_apply, prodAt_row X X' W p p' q h]

theorem edgePre_row (er ec : Mat n 128) (er' ec' : Mat n' 128) (Wt Wb : Mat 128 128) (be : Mat 1 128) (p : Fin n) (p' : Fin n')
    (q : Fin 128) (hr : ∀ j : Fin 128, er (ix2 p j) = er' (ix2 p' j)) (hc : ∀ j : Fin 128, ec (ix2 p j) = ec' (ix2 p' j)) :
    edgePre er ec Wt Wb be (ix2 p q) = edgePre er' ec' Wt Wb be (ix2 p' q) := by
  rw [edgePre_apply, edgePre_apply, prodAt_row er er' Wt p p' q hr, prodAt_row ec ec' Wb p p' q hc]

theorem logits_row (er ec : Mat n 128) (er' ec' : Mat n' 128) (Wt Wb : Mat 128 128) (be : Mat 1 128) (Wc1 : Mat 128 64)
    (bc1 : Mat 1 64) (Wc2 : Mat 64 2) (bc2 : Mat 1 2) (p : Fin n) (p' : Fin n') (q : Fin 2)
    (hr : ∀ j : Fin 128, er (ix2 p j) = er' (ix2 p' j)) (hc : ∀ j : Fin 128, ec (ix2 p j) = ec' (ix2 p' j)) :
    logits er ec Wt Wb be Wc1 bc1 Wc2 bc2 (ix2 p q) = logits er' ec' Wt Wb be Wc1 bc1 Wc2 bc2 (ix2 p' q) := by
  unfold logits
  exact dense_row _ _ Wc2 bc2 p p' q fun j => relu_row _ _ p p' j
    (dense_row _ _ Wc1 bc1 p p' j fun i => relu_row _ _ p p' i (edgePre_row er ec er' ec' Wt Wb be p p' i hr hc))

theorem edgeHead_row (er ec : Mat n 128) (er' ec' : Mat n' 128) (Wt Wb : Mat 128 128) (be : Mat 1 128) (Wc1 : Mat 128 64)
    (bc1 : Mat 1 64) (Wc2 : Mat 64 2) (bc2 : Mat 1 2) (p : Fin n) (p' : Fin n') (q q' : Fin 1)
    (hr : ∀ j : Fin 128, er (ix2 p j) = er' (ix2 p' j)) (hc : ∀ j : Fin 128, ec (ix2 p j) = ec' (ix2 p' j)) :
    edgeHead er ec Wt Wb be Wc1 bc1 Wc2 bc2 (ix2 p q) = edgeHead er' ec' Wt Wb be Wc1 bc1 Wc2 bc2 (ix2 p' q') := by
  rw [edgeHead_apply, edgeHead_apply, logits_row er ec er' ec' Wt Wb be Wc1 bc1 Wc2 bc2 p p' _ hr hc,
    logits_row er ec er' ec' Wt Wb be Wc1 bc1 Wc2 bc2 p p' _ hr hc]

end Cert.Gcn

end
-- ==== Proof.Region1.lean ====
/-
  The second launch, blocks to array. Point t of 20 loads rows 5000·t … 5000·t + 4999 of the aggregated features and
  of the factor column, the whole bias row and the whole weight matrix, and writes back the same rows of the result.
  The body's function (`layer2`) reads row r of its row-shaped arguments only, so block t of the whole-array function
  is the body's function of the blocks, and the blocks tile the rows.
-/
import proofs.«124494_j37151467111037_2_alg».proof.Proof.Gen.KernelIdeal.Frame
import proofs.«124494_j37151467111037_2_alg».proof.Proof.Payloads
import proofs.«124494_j37151467111037_2_alg».proof.Proof.SpecRows
import Idealize.ShloMosaic.Lib.Pipeline.Value
import Idealize.ShloMosaic.Lib.ValueIdx

set_option maxRecDepth 16384

noncomputable section

open scoped BigOperators

namespace Cert.Gcn.R1

open Idealize.ShloMosaic Idealize.ShloMosaic.TcCoe Idealize.ShloMosaic.ValueIdx
open Idealize.SL Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-shaped windows sit at block row t, the bias row and the weights at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The whole-array function of the launch. -/
abbrev G (c : Dev nD) : Mat 100000 128 := layer2 (V c main_v28) (V c main_v15) (V c main_v16) (V c main_arg4)

/-- The bias row's block is the whole row. -/
theorem blk2 (c : Dev nD) (t : Fin cfg1.N) : iblk1 V c 2 t = V c main_v16 := by
  obtain ⟨-, -, -, -, e4, e5, -, -, -, -⟩ := idx_facts t
  funext j
  show V c main_v16 (((cfg1.win 2).blk t).view.emb j) = V c main_v16 j
  congr 1; funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- The weight matrix's block is the whole matrix. -/
theorem blk3 (c : Dev nD) (t : Fin cfg1.N) : iblk1 V c 3 t = V c main_arg4 := by
  obtain ⟨-, -, -, -, -, -, e6, e7, -, -⟩ := idx_facts t
  funext j
  show V c main_arg4 (((cfg1.win 3).blk t).view.emb j) = V c main_arg4 j
  congr 1; funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- WHAT POINT t WRITES BACK is block t of the whole-array function. -/
theorem flushed_eq (c : Dev nD) (t : Fin cfg1.N) :
    (dat1 V c).flushed 4 t = ((cfg1.win 4).blk t).view.read (Elt Ideal) (G V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  rw [Pay.pay1, blk2, blk3]
  obtain ⟨e0, e1, e2, e3, -, -, -, -, e8, e9⟩ := idx_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  have hE : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  show layer2 (iblk1 V c 0 t) (iblk1 V c 1 t) (V c main_v16) (V c main_arg4) (ix2 p q) = G V c (((cfg1.win 4).blk t).view.emb (ix2 p q))
  rw [hE]
  refine layer2_row _ _ _ _ _ _ p _ q (fun k => ?_) ?_
  · have hk : k.val < 128 := k.isLt
    show V c main_v28 (((cfg1.win 0).blk t).view.emb (ix2 p k)) = V c main_v28 (ix2 (⟨t.val * 5000 + p.val, by omega⟩ : Fin 100000) k)
    congr 1; funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · show V c main_v15 (((cfg1.win 1).blk t).view.emb (ix2 p c0)) = V c main_v15 (ix2 (⟨t.val * 5000 + p.val, by omega⟩ : Fin 100000) c0)
    congr 1; funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega

/-- An index of the array is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v29).slice (win1_4.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  refine ⟨(⟨(i 0).val / 5000, by show (i 0).val / 5000 < 20; omega⟩ : Fin cfg1.N), flush1_4 _, ?_⟩
  obtain ⟨-, -, -, -, -, -, -, -, e8, e9⟩ := idx_facts (⟨(i 0).val / 5000, by show (i 0).val / 5000 < 20; omega⟩ : Fin cfg1.N)
  rw [mem_blk]
  intro a
  match a with
  | ⟨0, _⟩ =>
    show win1_4.index _ (0 : Fin 2) * 5000 ≤ (i 0).val ∧ (i 0).val < win1_4.index _ (0 : Fin 2) * 5000 + 5000
    rw [e8]; show (i 0).val / 5000 * 5000 ≤ (i 0).val ∧ (i 0).val < (i 0).val / 5000 * 5000 + 5000; omega
  | ⟨1, _⟩ =>
    show win1_4.index _ (1 : Fin 2) * 128 ≤ (i 1).val ∧ (i 1).val < win1_4.index _ (1 : Fin 2) * 128 + 128
    rw [e9]; omega

/-- THE ARRAY after the launch. -/
theorem final (c : Dev nD) : (dat1 V c).arrAt 4 cfg1.N = G V c :=
  (dat1 V c).arrAt_eq_of_cover 4 (G V c) (fun t _ => flushed_eq V c t) cover

end Cert.Gcn.R1

end
-- ==== Proof.Region2.lean ====
/-
  The third launch, blocks to array. Point t of 20 loads rows 5000·t … 5000·t + 4999 of the aggregated features and of
  the factor column and the whole bias row, and writes back the same rows of the result; the body's function
  (`scaleBias`) reads one entry of the features and its row's factor, so block t of the whole-array function is the
  body's function of the blocks, and the blocks tile the rows.
-/
import proofs.«124494_j37151467111037_2_alg».proof.Proof.Gen.KernelIdeal.Frame
import proofs.«124494_j37151467111037_2_alg».proof.Proof.Payloads
import proofs.«124494_j37151467111037_2_alg».proof.Proof.SpecRows
import Idealize.ShloMosaic.Lib.Pipeline.Value
import Idealize.ShloMosaic.Lib.ValueIdx

set_option maxRecDepth 16384

noncomputable section

open scoped BigOperators

namespace Cert.Gcn.R2

open Idealize.ShloMosaic Idealize.ShloMosaic.TcCoe Idealize.ShloMosaic.ValueIdx
open Idealize.SL Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-shaped windows sit at block row t, the bias row at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The whole-array function of the launch. -/
abbrev G (c : Dev nD) : Mat 100000 128 := scaleBias (V c main_v39) (V c main_v15) (V c main_v17)

/-- The bias row's block is the whole row. -/
theorem blk2 (c : Dev nD) (t : Fin cfg2.N) : iblk2 V c 2 t = V c main_v17 := by
  obtain ⟨-, -, -, -, e4, e5, -, -⟩ := idx_facts t
  funext j
  show V c main_v17 (((cfg2.win 2).blk t).view.emb j) = V c main_v17 j
  congr 1; funext a; apply Fin.ext
  match a with
  | ⟨0, _⟩ => show win2_2.index t (0 : Fin 2) * 1 + 1 * (j 0).val = (j 0).val; omega
  | ⟨1, _⟩ => show win2_2.index t (1 : Fin 2) * 128 + 1 * (j 1).val = (j 1).val; omega

/-- WHAT POINT t WRITES BACK is block t of the whole-array function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  rw [Pay.pay2, blk2]
  obtain ⟨e0, e1, e2, e3, -, -, e6, e7⟩ := idx_facts t
  have ht : t.val < 20 := t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  have hE : ((cfg2.win 3).blk t).view.emb (ix2 p q) = ix2 (⟨t.val * 5000 + p.val, by omega⟩ : Fin 100000) q := by
    funext a; apply Fin.ext
    match a with
    | ⟨0, _⟩ => show win2_3.index t (0 : Fin 2) * 5000 + 1 * p.val = t.val * 5000 + p.val; omega
    | ⟨1, _⟩ => show win2_3.index t (1 : Fin 2) * 128 + 1 * q.val = q.val; omega
  show scaleBias (iblk2 V c 0 t) (iblk2 V c 1 t) (V c main_v17) (ix2 p q) = G V c (((cfg2.win 3).blk t).view.emb (ix2 p q))
  rw [hE]
  refine scaleBias_row _ _ _ _ _ p _ q ?_ ?_
  · show V c main_v39 (((cfg2.win 0).blk t).view.emb (ix2 p q)) = V c main_v39 (ix2 (⟨t.val * 5000 + p.val, by omega⟩ : Fin 100000) q)
    refine congrArg (V c main_v39) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * q.val = q.val; omega
  · show V c main_v15 (((cfg2.win 1).blk t).view.emb (ix2 p c0)) = V c main_v15 (ix2 (⟨t.val * 5000 + p.val, by omega⟩ : Fin 100000) c0)
    congr 1; funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega

/-- An index of the array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v40).slice (win2_3.rect t)).set ↔ _
  rw [View.set_slice_whole, Rect.mem_set_unit]
  exact Iff.rfl

/-- The 20 blocks of 5000 rows tile the 100000 rows: row r is in the block of point r / 5000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  refine ⟨(⟨(i 0).val / 5000, by show (i 0).val / 5000 < 20; omega⟩ : Fin cfg2.N), flush2_3 _, ?_⟩
  obtain ⟨-, -, -, -, -, -, e6, e7⟩ := idx_facts (⟨(i 0).val / 5000, by show (i 0).val / 5000 < 20; omega⟩ : Fin cfg2.N)
  rw [mem_blk]
  intro a
  match a with
  | ⟨0, _⟩ =>
    show win2_3.index _ (0 : Fin 2) * 5000 ≤ (i 0).val ∧ (i 0).val < win2_3.index _ (0 : Fin 2) * 5000 + 5000
    rw [e6]; show (i 0).val / 5000 * 5000 ≤ (i 0).val ∧ (i 0).val < (i 0).val / 5000 * 5000 + 5000; omega
  | ⟨1, _⟩ =>
    show win2_3.index _ (1 : Fin 2) * 128 ≤ (i 1).val ∧ (i 1).val < win2_3.index _ (1 : Fin 2) * 128 + 128
    rw [e7]; omega

/-- THE ARRAY after the launch. -/
theorem final (c : Dev nD) : (dat2 V c).arrAt 3 cfg2.N = G V c :=
  (dat2 V c).arrAt_eq_of_cover 3 (G V c) (fun t _ => flushed_eq V c t) cover

end Cert.Gcn.R2

end
-- ==== Proof.Region3.lean ====
/-
  The fourth launch, blocks to array. Point t of 100 loads rows 5000·t … 5000·t + 4999 of the two endpoint-embedding
  arrays and the whole of the seven small weight and bias arrays, and writes back the same rows of the one-column
  result. The edge head reads row r of the two endpoint arrays only, so block t of the whole-array function is the
  body's function of the blocks, and the 100 blocks tile the 500000 rows.
-/
import proofs.«124494_j37151467111037_2_alg».proof.Proof.Gen.KernelIdeal.Frame
import proofs.«124494_j37151467111037_2_alg».proof.Proof.Payloads
import proofs.«124494_j37151467111037_2_alg».proof.Proof.SpecRows
import Idealize.ShloMosaic.Lib.Pipeline.Value
import Idealize.ShloMosaic.Lib.ValueIdx

set_option maxRecDepth 16384

noncomputable section

open scoped BigOperators

namespace Cert.Gcn.R3

open Idealize.ShloMosaic Idealize.ShloMosaic.TcCoe Idealize.ShloMosaic.ValueIdx
open Idealize.SL Idealize.SL.Sem
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-shaped windows sit at block row t, the seven small arrays at
    block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- The whole-array function of the launch. -/
abbrev G (c : Dev nD) : Mat 500000 1 :=
  edgeHead (V c main_v48) (V c main_v55) (V c main_v56) (V c main_v57) (V c main_v58) (V c main_arg8) (V c main_v59)
    (V c main_arg10) (V c main_v60)

/-- The top half of the edge weights: its block is the whole matrix. -/
theorem blk2 (c : Dev nD) (t : Fin cfg3.N) : iblk3 V c 2 t = V c main_v56 := by
  have e := idx_facts t
  funext j
  show V c main_v56 (((cfg3.win 2).blk t).view.emb j) = V c main_v56 j
  congr 1; funext a; apply Fin.ext
  match a with
  | ⟨0, _⟩ => show win3_2.index t (0 : Fin 2) * 128 + 1 * (j 0).val = (j 0).val; omega
  | ⟨1, _⟩ => show win3_2.index t (1 : Fin 2) * 128 + 1 * (j 1).val = (j 1).val; omega

/-- The bottom half of the edge weights: its block is the whole matrix. -/
theorem blk3 (c : Dev nD) (t : Fin cfg3.N) : iblk3 V c 3 t = V c main_v57 := by
  have e := idx_facts t
  funext j
  show V c main_v57 (((cfg3.win 3).blk t).view.emb j) = V c main_v57 j
  congr 1; funext a; apply Fin.ext
  match a with
  | ⟨0, _⟩ => show win3_3.index t (0 : Fin 2) * 128 + 1 * (j 0).val = (j 0).val; omega
  | ⟨1, _⟩ => show win3_3.index t (1 : Fin 2) * 128 + 1 * (j 1).val = (j 1).val; omega

/-- The edge bias row: its block is the whole row. -/
theorem blk4 (c : Dev nD) (t : Fin cfg3.N) : iblk3 V c 4 t = V c main_v58 := by
  have e := idx_facts t
  funext j
  show V c main_v58 (((cfg3.win 4).blk t).view.emb j) = V c main_v58 j
  congr 1; funext a; apply Fin.ext
  match a with
  | ⟨0, _⟩ => show win3_4.index t (0 : Fin 2) * 1 + 1 * (j 0).val = (j 0).val; omega
  | ⟨1, _⟩ => show win3_4.index t (1 : Fin 2) * 128 + 1 * (j 1).val = (j 1).val; omega

/-- The first classifier weights: its block is the whole matrix. -/
theorem blk5 (c : Dev nD) (t : Fin cfg3.N) : iblk3 V c 5 t = V c main_arg8 := by
  have e := idx_facts t
  funext j
  show V c main_arg8 (((cfg3.win 5).blk t).view.emb j) = V c main_arg8 j
  congr 1; funext a; apply Fin.ext
  match a with
  | ⟨0, _⟩ => show win3_5.index t (0 : Fin 2) * 128 + 1 * (j 0).val = (j 0).val; omega
  | ⟨1, _⟩ => show win3_5.index t (1 : Fin 2) * 64 + 1 * (j 1).val = (j 1).val; omega

/-- The first classifier bias row: its block is the whole row. -/
theorem blk6 (c : Dev nD) (t : Fin cfg3.N) : iblk3 V c 6 t = V c main_v59 := by
  have e := idx_facts t
  funext j
  show V c main_v59 (((cfg3.win 6).blk t).view.emb j) = V c main_v59 j
  congr 1; funext a; apply Fin.ext
  match a with
  | ⟨0, _⟩ => show win3_6.index t (0 : Fin 2) * 1 + 1 * (j 0).val = (j 0).val; omega
  | ⟨1, _⟩ => show win3_6.index t (1 : Fin 2) * 64 + 1 * (j 1).val = (j 1).val; omega

/-- The second classifier weights: its block is the whole matrix. -/
theorem blk7 (c : Dev nD) (t : Fin cfg3.N) : iblk3 V c 7 t = V c main_arg10 := by
  have e := idx_facts t
  funext j
  show V c main_arg10 (((cfg3.win 7).blk t).view.emb j) = V c main_arg10 j
  congr 1; funext a; apply Fin.ext
  match a with
  | ⟨0, _⟩ => show win3_7.index t (0 : Fin 2) * 64 + 1 * (j 0).val = (j 0).val; omega
  | ⟨1, _⟩ => show win3_7.index t (1 : Fin 2) * 2 + 1 * (j 1).val = (j 1).val; omega

/-- The second classifier bias row: its block is the whole row. -/
theorem blk8 (c : Dev nD) (t : Fin cfg3.N) : iblk3 V c 8 t = V c main_v60 := by
  have e := idx_facts t
  funext j
  show V c main_v60 (((cfg3.win 8).blk t).view.emb j) = V c main_v60 j
  congr 1; funext a; apply Fin.ext
  match a with
  | ⟨0, _⟩ => show win3_8.index t (0 : Fin 2) * 1 + 1 * (j 0).val = (j 0).val; omega
  | ⟨1, _⟩ => show win3_8.index t (1 : Fin 2) * 2 + 1 * (j 1).val = (j 1).val; omega

/-- WHAT POINT t WRITES BACK is block t of the whole-array function. -/
theorem flushed_eq (c : Dev nD) (t : Fin cfg3.N) :
    (dat3 V c).flushed 9 t = ((cfg3.win 9).blk t).view.read (Elt Ideal) (G V c) := by
  show (cfg3.win 9).cut (grid3.coords t) ((dat3 V c).after 9 t) = _
  rw [after3_9]
  unfold out3_9
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz, View.ld_unit_zero (S := S64x2) hz,
    View.ld_unit_zero (S := S1x2) hz]
  rw [Pay.pay3, blk2, blk3, blk4, blk5, blk6, blk7, blk8]
  have e := idx_facts t
  have ht : t.val < 100 := t.isLt
  funext j
  obtain ⟨p, q, rfl⟩ : ∃ (p : Fin 5000) (q : Fin 1), j = ix2 p q := ⟨j 0, j 1, eq_ix2 j⟩
  have hp : p.val < 5000 := p.isLt
  have hq : q.val < 1 := q.isLt
  have hE : ((cfg3.win 9).blk t).view.emb (ix2 p q) = ix2 (⟨t.val * 5000 + p.val, by omega⟩ : Fin 500000) q := by
    funext a; apply Fin.ext
    match a with
    | ⟨0, _⟩ => show win3_9.index t (0 : Fin 2) * 5000 + 1 * p.val = t.val * 5000 + p.val; omega
    | ⟨1, _⟩ => show win3_9.index t (1 : Fin 2) * 1 + 1 * q.val = q.val; omega
  show edgeHead (iblk3 V c 0 t) (iblk3 V c 1 t) (V c main_v56) (V c main_v57) (V c main_v58) (V c main_arg8) (V c main_v59)
      (V c main_arg10) (V c main_v60) (ix2 p q) = G V c (((cfg3.win 9).blk t).view.emb (ix2 p q))
  rw [hE]
  refine edgeHead_row _ _ _ _ _ _ _ _ _ _ _ p _ q q (fun k => ?_) (fun k => ?_)
  · have hk : k.val < 128 := k.isLt
    show V c main_v48 (((cfg3.win 0).blk t).view.emb (ix2 p k)) = V c main_v48 (ix2 (⟨t.val * 5000 + p.val, by omega⟩ : Fin 500000) k)
    congr 1; funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  · have hk : k.val < 128 := k.isLt
    show V c main_v55 (((cfg3.win 1).blk t).view.emb (ix2 p k)) = V c main_v55 (ix2 (⟨t.val * 5000 + p.val, by omega⟩ : Fin 500000) k)
    congr 1; funext a; apply Fin.ext
    match a with
    | ⟨0, _⟩ => show win3_1.index t (0 : Fin 2) * 5000 + 1 * p.val = t.val * 5000 + p.val; omega
    | ⟨1, _⟩ => show win3_1.index t (1 : Fin 2) * 128 + 1 * k.val = k.val; omega

/-- An index of the array is in point t's block iff each coordinate is in the block's range on its axis. -/
theorem mem_blk (t : Fin cfg3.N) (i : S500000x1.Idx) :
    i ∈ ((cfg3.win 9).blk t).view.set ↔ ∀ a : Fin 2, win3_9.index t a * S5000x1.size a ≤ (i a).val ∧ (i a).val < win3_9.index t a * S5000x1.size a + S5000x1.size a := by
  show i ∈ ((View.whole main_v61).slice (win3_9.rect t)).set ↔ _
  rw [View.set_slice_whole, Rect.mem_set_unit]
  exact Iff.rfl

/-- The 100 blocks of 5000 rows tile the 500000 rows: row r is in the block of point r / 5000. -/
theorem cover (i : S500000x1.Idx) : ∃ t : Fin cfg3.N, (cfg3.win 9).flush t = true ∧ i ∈ ((cfg3.win 9).blk t).view.set := by
  have hi0 : (i 0).val < 500000 := (i 0).isLt
  have hi1 : (i 1).val < 1 := (i 1).isLt
  refine ⟨(⟨(i 0).val / 5000, by show (i 0).val / 5000 < 100; omega⟩ : Fin cfg3.N), flush3_9 _, ?_⟩
  have e := idx_facts (⟨(i 0).val / 5000, by show (i 0).val / 5000 < 100; omega⟩ : Fin cfg3.N)
  rw [mem_blk]
  intro a
  match a with
  | ⟨0, _⟩ =>
    show win3_9.index _ (0 : Fin 2) * 5000 ≤ (i 0).val ∧ (i 0).val < win3_9.index _ (0 : Fin 2) * 5000 + 5000
    rw [e.2.2.2.2.2.2.2.2.2.2.2.2.2.2.2.2.2.2.1]; show (i 0).val / 5000 * 5000 ≤ (i 0).val ∧ (i 0).val < (i 0).val / 5000 * 5000 + 5000; omega
  | ⟨1, _⟩ =>
    show win3_9.index _ (1 : Fin 2) * 1 ≤ (i 1).val ∧ (i 1).val < win3_9.index _ (1 : Fin 2) * 1 + 1
    rw [e.2.2.2.2.2.2.2.2.2.2.2.2.2.2.2.2.2.2.2]; omega

/-- THE ARRAY after the launch. -/
theorem final (c : Dev nD) : (dat3 V c).arrAt 9 cfg3.N = G V c :=
  (dat3 V c).arrAt_eq_of_cover 9 (G V c) (fun t _ => flushed_eq V c t) cover

end Cert.Gcn.R3

end
-- ==== Proof.Chain.lean ====
/-
  The kernel program's fold, walked. Between its launch and its return the program alternates host stretches and
  kernel launches; the contents of its buffers at each boundary are a fold from the launch memory. This module reads
  that fold at the buffers each step consumes: the index vectors, the factor column and the bias rows made by the
  first stretch and carried untouched to where they are used; each launch's output array (the whole-array function of
  what the launch finds, by the blocks-to-array modules); each aggregation (a gather and a scatter-add of the previous
  launch's array); and at the end the result buffer, which holds `K.result` of the twelve argument arrays.
-/
import proofs.«124494_j37151467111037_2_alg».proof.Proof.Gen.KernelIdeal.Frame
import proofs.«124494_j37151467111037_2_alg».proof.Proof.KSpec
import proofs.«124494_j37151467111037_2_alg».proof.Proof.Region0
import proofs.«124494_j37151467111037_2_alg».proof.Proof.Region1
import proofs.«124494_j37151467111037_2_alg».proof.Proof.Region2
import proofs.«124494_j37151467111037_2_alg».proof.Proof.Region3
import Idealize.ShloMosaic.Lib.StableHlo.Run

set_option maxRecDepth 16384

noncomputable section

namespace Cert.Gcn.Chain

open Idealize.ShloMosaic Idealize.ShloMosaic.TcCoe Idealize.ShloMosaic.StableHlo
open Idealize.SL Idealize.SL.Sem
open Cert.KernelIdeal Cert.KernelIdeal.Gen Cert.Gcn

variable (m : (ℓ : Loc nD τ sig) → Buf (Elt Ideal) ℓ) (ρ : Dev nD → PrngReg) (c : Dev nD)

/-- A buffer that no operation of a stretch writes: the side condition, one inequality of references per operation. -/
macro "nw" : tactic => `(tactic| (
  refine List.forall_iff_forall_mem.mp ?_
  simp only [hostOps0, hostOps0_1, hostOps0_2, hostOps1, hostOps2, hostOps3, hostOps4, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## After the first stretch (the first launch's entry) -/

theorem W3_v1 : W3 m ρ c (Proc.devRef .tc main_v1) = K.rowI (m ((c : Thread nD τ).loc main_arg1)) := by
  show StableHlo.after hostOps0_2 (StableHlo.after hostOps0_1 (StableHlo.after hostOps0 (W0 m ρ c))) (Proc.devRef .tc main_v1) = _
  after_results
  rfl

theorem W3_v3 : W3 m ρ c (Proc.devRef .tc main_v3) = K.colI (m ((c : Thread nD τ).loc main_arg1)) := by
  show StableHlo.after hostOps0_2 (StableHlo.after hostOps0_1 (StableHlo.after hostOps0 (W0 m ρ c))) (Proc.devRef .tc main_v3) = _
  after_results
  rfl

theorem W3_v5 : W3 m ρ c (Proc.devRef .tc main_v5) = K.rowF (m ((c : Thread nD τ).loc main_arg1)) := by
  show StableHlo.after hostOps0_2 (StableHlo.after hostOps0_1 (StableHlo.after hostOps0 (W0 m ρ c))) (Proc.devRef .tc main_v5) = _
  after_results
  rfl

theorem W3_v6 : W3 m ρ c (Proc.devRef .tc main_v6) = K.colF (m ((c : Thread nD τ).loc main_arg1)) := by
  show StableHlo.after hostOps0_2 (StableHlo.after hostOps0_1 (StableHlo.after hostOps0 (W0 m ρ c))) (Proc.devRef .tc main_v6) = _
  after_results
  rfl

/-- The degrees, after the first operations of the first stretch. -/
theorem W1_v10 : W1 m ρ c (Proc.devRef .tc main_v10) = K.deg (m ((c : Thread nD τ).loc main_arg1)) := by
  show StableHlo.after hostOps0 (W0 m ρ c) (Proc.devRef .tc main_v10) = _
  after_results
  rfl
theorem W1_v12 : W1 m ρ c (Proc.devRef .tc main_v12)
    = cmpf .ogt (K.deg (m ((c : Thread nD τ).loc main_arg1))) (broadcastInDim S100000 ![] Facts₀.bcast_S_S100000 (constant (F := Ideal) S_ .f32 0x00000000#32)) := by
  show StableHlo.after hostOps0 (W0 m ρ c) (Proc.devRef .tc main_v12) = _
  after_results
  rfl
theorem W1_v13 : W1 m ρ c (Proc.devRef .tc main_v13) = Host.rsqrt (K.deg (m ((c : Thread nD τ).loc main_arg1))) := by
  show StableHlo.after hostOps0 (W0 m ρ c) (Proc.devRef .tc main_v13) = _
  after_results
  rfl
theorem W1_cst2 : W1 m ρ c (Proc.devRef .tc main_cst_2) = constant (F := Ideal) S_ .f32 0x00000000#32 := by
  show StableHlo.after hostOps0 (W0 m ρ c) (Proc.devRef .tc main_cst_2) = _
  after_results

/-- The factors, after the guard: the second stretch read on top of the first. -/
theorem W2_v14 : W2 m ρ c (Proc.devRef .tc main_v14) = K.dinv (m ((c : Thread nD τ).loc main_arg1)) := by
  show StableHlo.after hostOps0_1 (W1 m ρ c) (Proc.devRef .tc main_v14) = _
  generalize hV : W1 m ρ c = V1
  after_results
  subst hV
  rw [W1_v12, W1_v13, W1_cst2]
  unfold K.dinv
  simp only [TRef.toBuf, TRef.ofBuf, cast_eq, id]

theorem W3_v15 : W3 m ρ c (Proc.devRef .tc main_v15) = K.dcol (m ((c : Thread nD τ).loc main_arg1)) := by
  show StableHlo.after hostOps0_2 (W2 m ρ c) (Proc.devRef .tc main_v15) = _
  generalize hV : W2 m ρ c = V2
  after_results
  subst hV
  rw [W2_v14]
  rfl

theorem W3_v16 : W3 m ρ c (Proc.devRef .tc main_v16) = K.brow128 (m ((c : Thread nD τ).loc main_arg3)) := by
  show StableHlo.after hostOps0_2 (StableHlo.after hostOps0_1 (StableHlo.after hostOps0 (W0 m ρ c))) (Proc.devRef .tc main_v16) = _
  after_results
  rfl

theorem W3_v17 : W3 m ρ c (Proc.devRef .tc main_v17) = K.brow128 (m ((c : Thread nD τ).loc main_arg5)) := by
  show StableHlo.after hostOps0_2 (StableHlo.after hostOps0_1 (StableHlo.after hostOps0 (W0 m ρ c))) (Proc.devRef .tc main_v17) = _
  after_results
  rfl

/-- No operation of the first stretch writes an argument. -/
theorem W3_arg (b : Ref sig .tc) (h0 : ∀ op ∈ (hostOps0 : List (HloOp τ sig (Elt Ideal))), (Proc.devRef .tc b) ∉ op.writes)
    (h1 : ∀ op ∈ (hostOps0_1 : List (HloOp τ sig (Elt Ideal))), (Proc.devRef .tc b) ∉ op.writes)
    (h2 : ∀ op ∈ (hostOps0_2 : List (HloOp τ sig (Elt Ideal))), (Proc.devRef .tc b) ∉ op.writes) :
    W3 m ρ c (Proc.devRef .tc b) = W0 m ρ c (Proc.devRef .tc b) :=
  (StableHlo.after_of_forall_not_mem _ _ h2).trans ((StableHlo.after_of_forall_not_mem _ _ h1).trans
    (StableHlo.after_of_forall_not_mem _ _ h0))

/-! ## Carried untouched from the first launch's entry to a later boundary -/

/-- Through the first launch and the second stretch. -/
theorem pass35 (b : Ref sig .tc) (a0 : ∀ w, Pipeline.arrRef spec0 w ≠ b)
    (n1 : ∀ op ∈ (hostOps1 : List (HloOp τ sig (Elt Ideal))), (Proc.devRef .tc b) ∉ op.writes) :
    W5 m ρ c (Proc.devRef .tc b) = W3 m ρ c (Proc.devRef .tc b) :=
  (StableHlo.after_of_forall_not_mem _ _ n1).trans (W4_of_ne m ρ c b a0)

/-- Further through the second launch and the third stretch. -/
theorem pass37 (b : Ref sig .tc) (a0 : ∀ w, Pipeline.arrRef spec0 w ≠ b) (a1 : ∀ w, Pipeline.arrRef spec1 w ≠ b)
    (n1 : ∀ op ∈ (hostOps1 : List (HloOp τ sig (Elt Ideal))), (Proc.devRef .tc b) ∉ op.writes)
    (n2 : ∀ op ∈ (hostOps2 : List (HloOp τ sig (Elt Ideal))), (Proc.devRef .tc b) ∉ op.writes) :
    W7 m ρ c (Proc.devRef .tc b) = W3 m ρ c (Proc.devRef .tc b) :=
  (StableHlo.after_of_forall_not_mem _ _ n2).trans ((W6_of_ne m ρ c b a1).trans (pass35 m ρ c b a0 n1))

/-- Further through the third launch. -/
theorem pass38 (b : Ref sig .tc) (a0 : ∀ w, Pipeline.arrRef spec0 w ≠ b) (a1 : ∀ w, Pipeline.arrRef spec1 w ≠ b)
    (a2 : ∀ w, Pipeline.arrRef spec2 w ≠ b)
    (n1 : ∀ op ∈ (hostOps1 : List (HloOp τ sig (Elt Ideal))), (Proc.devRef .tc b) ∉ op.writes)
    (n2 : ∀ op ∈ (hostOps2 : List (HloOp τ sig (Elt Ideal))), (Proc.devRef .tc b) ∉ op.writes) :
    W8 m ρ c (Proc.devRef .tc b) = W3 m ρ c (Proc.devRef .tc b) :=
  (W8_of_ne m ρ c b a2).trans (pass37 m ρ c b a0 a1 n1 n2)

/-- Further through the fourth stretch. -/
theorem pass39 (b : Ref sig .tc) (a0 : ∀ w, Pipeline.arrRef spec0 w ≠ b) (a1 : ∀ w, Pipeline.arrRef spec1 w ≠ b)
    (a2 : ∀ w, Pipeline.arrRef spec2 w ≠ b)
    (n1 : ∀ op ∈ (hostOps1 : List (HloOp τ sig (Elt Ideal))), (Proc.devRef .tc b) ∉ op.writes)
    (n2 : ∀ op ∈ (hostOps2 : List (HloOp τ sig (Elt Ideal))), (Proc.devRef .tc b) ∉ op.writes)
    (n3 : ∀ op ∈ (hostOps3 : List (HloOp τ sig (Elt Ideal))), (Proc.devRef .tc b) ∉ op.writes) :
    W9 m ρ c (Proc.devRef .tc b) = W3 m ρ c (Proc.devRef .tc b) :=
  (StableHlo.after_of_forall_not_mem _ _ n3).trans (pass38 m ρ c b a0 a1 a2 n1 n2)

/-! ## The first launch and the first aggregation -/

theorem W3_arg0 : W3 m ρ c (Proc.devRef .tc main_arg0) = (m ((c : Thread nD τ).loc main_arg0)) := (W3_arg m ρ c main_arg0 (by nw) (by nw) (by nw)).trans rfl
theorem W3_arg2 : W3 m ρ c (Proc.devRef .tc main_arg2) = (m ((c : Thread nD τ).loc main_arg2)) := (W3_arg m ρ c main_arg2 (by nw) (by nw) (by nw)).trans rfl

/-- The first launch's array. -/
theorem W4_v18 : W4 m ρ c (Proc.devRef .tc main_v18) = K.stage0 (m ((c : Thread nD τ).loc main_arg0)) (m ((c : Thread nD τ).loc main_arg1)) (m ((c : Thread nD τ).loc main_arg2)) := by
  refine (W4_arr m ρ c 3).trans ((R0.final (V3 m ρ) c).trans ?_)
  show scaledProd (W3 m ρ c (Proc.devRef .tc main_arg0)) (W3 m ρ c (Proc.devRef .tc main_arg2)) (W3 m ρ c (Proc.devRef .tc main_v15)) = _
  rw [W3_arg0, W3_arg2, W3_v15]
  rfl

theorem W4_v5 : W4 m ρ c (Proc.devRef .tc main_v5) = K.rowF (m ((c : Thread nD τ).loc main_arg1)) := (W4_of_ne m ρ c main_v5 (by decide)).trans (W3_v5 m ρ c)
theorem W4_v6 : W4 m ρ c (Proc.devRef .tc main_v6) = K.colF (m ((c : Thread nD τ).loc main_arg1)) := (W4_of_ne m ρ c main_v6 (by decide)).trans (W3_v6 m ρ c)

/-- The first aggregation. -/
theorem W5_v28 : W5 m ρ c (Proc.devRef .tc main_v28) = K.aggregate (K.stage0 (m ((c : Thread nD τ).loc main_arg0)) (m ((c : Thread nD τ).loc main_arg1)) (m ((c : Thread nD τ).loc main_arg2))) (m ((c : Thread nD τ).loc main_arg1)) := by
  show StableHlo.after hostOps1 (W4 m ρ c) (Proc.devRef .tc main_v28) = _
  after_results
  rw [W4_v18, W4_v5, W4_v6]
  rfl

/-- The factor column at the second launch's entry: an input array of the first launch, untouched since. -/
theorem W5_v15 : W5 m ρ c (Proc.devRef .tc main_v15) = K.dcol (m ((c : Thread nD τ).loc main_arg1)) :=
  (StableHlo.after_of_forall_not_mem (b := (Proc.devRef .tc main_v15)) _ _ (by nw)).trans
    ((W4_arr m ρ c 2).trans (((dat0 (V3 m ρ) c).arrAt_in 2 rfl _).trans ((A_eq0 (V3 m ρ) c 2).trans (W3_v15 m ρ c))))
theorem W5_v16 : W5 m ρ c (Proc.devRef .tc main_v16) = K.brow128 (m ((c : Thread nD τ).loc main_arg3)) :=
  (pass35 m ρ c main_v16 (by decide) (by nw)).trans (W3_v16 m ρ c)
theorem W5_arg4 : W5 m ρ c (Proc.devRef .tc main_arg4) = (m ((c : Thread nD τ).loc main_arg4)) :=
  (pass35 m ρ c main_arg4 (by decide) (by nw)).trans ((W3_arg m ρ c main_arg4 (by nw) (by nw) (by nw)).trans rfl)

/-! ## The second launch and the second aggregation -/

/-- The second launch's array. -/
theorem W6_v29 : W6 m ρ c (Proc.devRef .tc main_v29) = K.stage1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 4).trans ((R1.final (V5 m ρ) c).trans ?_)
  show layer2 (W5 m ρ c (Proc.devRef .tc main_v28)) (W5 m ρ c (Proc.devRef .tc main_v15)) (W5 m ρ c (Proc.devRef .tc main_v16)) (W5 m ρ c (Proc.devRef .tc main_arg4)) = _
  rw [W5_v28, W5_v15, W5_v16, W5_arg4]
  rfl

theorem W6_v5 : W6 m ρ c (Proc.devRef .tc main_v5) = K.rowF (m ((c : Thread nD τ).loc main_arg1)) :=
  (W6_of_ne m ρ c main_v5 (by decide)).trans ((pass35 m ρ c main_v5 (by decide) (by nw)).trans (W3_v5 m ρ c))
theorem W6_v6 : W6 m ρ c (Proc.devRef .tc main_v6) = K.colF (m ((c : Thread nD τ).loc main_arg1)) :=
  (W6_of_ne m ρ c main_v6 (by decide)).trans ((pass35 m ρ c main_v6 (by decide) (by nw)).trans (W3_v6 m ρ c))

/-- The second aggregation. -/
theorem W7_v39 : W7 m ρ c (Proc.devRef .tc main_v39) = K.aggregate (K.stage1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps2 (W6 m ρ c) (Proc.devRef .tc main_v39) = _
  after_results
  rw [W6_v29, W6_v5, W6_v6]
  rfl

/-- The factor column at the third launch's entry: an input array of the second launch, untouched since. -/
theorem W7_v15 : W7 m ρ c (Proc.devRef .tc main_v15) = K.dcol (m ((c : Thread nD τ).loc main_arg1)) :=
  (StableHlo.after_of_forall_not_mem (b := (Proc.devRef .tc main_v15)) _ _ (by nw)).trans
    ((W6_arr m ρ c 1).trans (((dat1 (V5 m ρ) c).arrAt_in 1 rfl _).trans ((A_eq1 (V5 m ρ) c 1).trans (W5_v15 m ρ c))))
theorem W7_v17 : W7 m ρ c (Proc.devRef .tc main_v17) = K.brow128 (m ((c : Thread nD τ).loc main_arg5)) :=
  (pass37 m ρ c main_v17 (by decide) (by decide) (by nw) (by nw)).trans (W3_v17 m ρ c)

/-! ## The third launch and the endpoint gathers -/

/-- The third launch's array: the node embeddings. -/
theorem W8_v40 : W8 m ρ c (Proc.devRef .tc main_v40) = K.nodeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 3).trans ((R2.final (V7 m ρ) c).trans ?_)
  show scaleBias (W7 m ρ c (Proc.devRef .tc main_v39)) (W7 m ρ c (Proc.devRef .tc main_v15)) (W7 m ρ c (Proc.devRef .tc main_v17)) = _
  rw [W7_v39, W7_v15, W7_v17]
  rfl

theorem W8_v1 : W8 m ρ c (Proc.devRef .tc main_v1) = K.rowI (m ((c : Thread nD τ).loc main_arg1)) :=
  (pass38 m ρ c main_v1 (by decide) (by decide) (by decide) (by nw) (by nw)).trans (W3_v1 m ρ c)
theorem W8_v3 : W8 m ρ c (Proc.devRef .tc main_v3) = K.colI (m ((c : Thread nD τ).loc main_arg1)) :=
  (pass38 m ρ c main_v3 (by decide) (by decide) (by decide) (by nw) (by nw)).trans (W3_v3 m ρ c)
theorem W8_arg6 : W8 m ρ c (Proc.devRef .tc main_arg6) = (m ((c : Thread nD τ).loc main_arg6)) :=
  (pass38 m ρ c main_arg6 (by decide) (by decide) (by decide) (by nw) (by nw)).trans ((W3_arg m ρ c main_arg6 (by nw) (by nw) (by nw)).trans rfl)
theorem W8_arg7 : W8 m ρ c (Proc.devRef .tc main_arg7) = (m ((c : Thread nD τ).loc main_arg7)) :=
  (pass38 m ρ c main_arg7 (by decide) (by decide) (by decide) (by nw) (by nw)).trans ((W3_arg m ρ c main_arg7 (by nw) (by nw) (by nw)).trans rfl)
theorem W8_arg9 : W8 m ρ c (Proc.devRef .tc main_arg9) = (m ((c : Thread nD τ).loc main_arg9)) :=
  (pass38 m ρ c main_arg9 (by decide) (by decide) (by decide) (by nw) (by nw)).trans ((W3_arg m ρ c main_arg9 (by nw) (by nw) (by nw)).trans rfl)
theorem W8_arg11 : W8 m ρ c (Proc.devRef .tc main_arg11) = (m ((c : Thread nD τ).loc main_arg11)) :=
  (pass38 m ρ c main_arg11 (by decide) (by decide) (by decide) (by nw) (by nw)).trans ((W3_arg m ρ c main_arg11 (by nw) (by nw) (by nw)).trans rfl)
theorem W9_arg8 : W9 m ρ c (Proc.devRef .tc main_arg8) = (m ((c : Thread nD τ).loc main_arg8)) :=
  (pass39 m ρ c main_arg8 (by decide) (by decide) (by decide) (by nw) (by nw) (by nw)).trans ((W3_arg m ρ c main_arg8 (by nw) (by nw) (by nw)).trans rfl)
theorem W9_arg10 : W9 m ρ c (Proc.devRef .tc main_arg10) = (m ((c : Thread nD τ).loc main_arg10)) :=
  (pass39 m ρ c main_arg10 (by decide) (by decide) (by decide) (by nw) (by nw) (by nw)).trans ((W3_arg m ρ c main_arg10 (by nw) (by nw) (by nw)).trans rfl)

/-- What the fourth stretch makes of the embeddings and the arguments. A change of float format is the identity on the
    extended reals, so the embeddings converted to the narrow format before the gathers are the embeddings. -/
theorem W9_v48 : W9 m ρ c (Proc.devRef .tc main_v48) = K.endpoint (K.nodeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (K.rowI (m ((c : Thread nD τ).loc main_arg1))) := by
  show StableHlo.after hostOps3 (W8 m ρ c) (Proc.devRef .tc main_v48) = _
  after_results
  rw [W8_v40, W8_v1]
  rfl
theorem W9_v55 : W9 m ρ c (Proc.devRef .tc main_v55) = K.endpoint (K.nodeEmb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (K.colI (m ((c : Thread nD τ).loc main_arg1))) := by
  show StableHlo.after hostOps3 (W8 m ρ c) (Proc.devRef .tc main_v55) = _
  after_results_simp
  rw [W8_v40, W8_v3]
  rfl
theorem W9_v56 : W9 m ρ c (Proc.devRef .tc main_v56) = extractStridedSlice S128x128 ![0, 0] (m ((c : Thread nD τ).loc main_arg6)) Facts₀.slices_S256x128_S128x128_0_0 := by
  show StableHlo.after hostOps3 (W8 m ρ c) (Proc.devRef .tc main_v56) = _
  after_results
  rw [W8_arg6]
theorem W9_v57 : W9 m ρ c (Proc.devRef .tc main_v57) = extractStridedSlice S128x128 ![128, 0] (m ((c : Thread nD τ).loc main_arg6)) Facts₀.slices_S256x128_S128x128_128_0 := by
  show StableHlo.after hostOps3 (W8 m ρ c) (Proc.devRef .tc main_v57) = _
  after_results
  rw [W8_arg6]
theorem W9_v58 : W9 m ρ c (Proc.devRef .tc main_v58) = K.brow128 (m ((c : Thread nD τ).loc main_arg7)) := by
  show StableHlo.after hostOps3 (W8 m ρ c) (Proc.devRef .tc main_v58) = _
  after_results
  rw [W8_arg7]
  rfl
theorem W9_v59 : W9 m ρ c (Proc.devRef .tc main_v59) = K.brow64 (m ((c : Thread nD τ).loc main_arg9)) := by
  show StableHlo.after hostOps3 (W8 m ρ c) (Proc.devRef .tc main_v59) = _
  after_results
  rw [W8_arg9]
  rfl
theorem W9_v60 : W9 m ρ c (Proc.devRef .tc main_v60) = K.brow2 (m ((c : Thread nD τ).loc main_arg11)) := by
  show StableHlo.after hostOps3 (W8 m ρ c) (Proc.devRef .tc main_v60) = _
  after_results
  rw [W8_arg11]
  rfl

/-! ## The fourth launch and the result -/

/-- The fourth launch's array. -/
theorem W10_v61 : W10 m ρ c (Proc.devRef .tc main_v61)
    = K.stage3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 9).trans ((R3.final (V9 m ρ) c).trans ?_)
  show edgeHead (W9 m ρ c (Proc.devRef .tc main_v48)) (W9 m ρ c (Proc.devRef .tc main_v55)) (W9 m ρ c (Proc.devRef .tc main_v56)) (W9 m ρ c (Proc.devRef .tc main_v57))
    (W9 m ρ c (Proc.devRef .tc main_v58)) (W9 m ρ c (Proc.devRef .tc main_arg8)) (W9 m ρ c (Proc.devRef .tc main_v59)) (W9 m ρ c (Proc.devRef .tc main_arg10))
    (W9 m ρ c (Proc.devRef .tc main_v60)) = _
  rw [W9_v48, W9_v55, W9_v56, W9_v57, W9_v58, W9_arg8, W9_v59, W9_arg10, W9_v60]
  rfl

/-- THE RESULT BUFFER at the end of the fold holds the kernel program's function of the twelve arguments. -/
theorem W11_v62 : W11 m ρ c (Proc.devRef .tc main_v62)
    = K.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W10 m ρ c) (Proc.devRef .tc main_v62) = _
  after_results
  rw [W10_v61]
  rfl

end Cert.Gcn.Chain

end
-- ==== Proof.RefRun.lean ====
/-
  The reference program's run: its @main is a list of 172 host operations (a called function's operations stand in
  its call's place), so every weakly fair execution terminates with each buffer at the operations' composed function
  of the launch contents. Read at the result buffer that function is the last stage of the reference read one
  operation at a time (`val_main_v132` of the twelve argument arrays); read at an argument it is the argument.
-/
import proofs.«124494_j37151467111037_2_alg».proof.Proof.RefReadP
import Idealize.ShloMosaic.Lib.StableHlo.Run

noncomputable section

namespace Cert.Gcn.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 172 operations, in order (a called function's operations stand in its call's place, spelt `TRef.…`). -/
abbrev ops : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    binary main_arg0 main_arg2 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v5 (iotaInDim S100000 32 0),
    binary main_v1 main_v5 main_v6 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    binary main_v3 main_v5 main_v7 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst (constant S_ .f32 0x3F800000#32),
    unary main_cst main_v8 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S600000x1 ![0] bcast_S600000_S600000x1_0 : (⟨S600000, .i32⟩ : BufTy).Contents (Elt F) → (⟨S600000x1, .i32⟩ : BufTy).Contents (Elt F)),
    ternary main_v9 main_v10 main_v8 main_v11 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S600000 ![] bcast_S_S600000 : (⟨S_, .i32⟩ : BufTy).Contents (Elt F) → (⟨S600000, .i32⟩ : BufTy).Contents (Elt F)),
    binary main_v6 main_v16 main_v17 (cmpi .slt : (⟨S600000, .i32⟩ : BufTy).Contents (Elt F) → (⟨S600000, .i32⟩ : BufTy).Contents (Elt F) → (⟨S600000, .i1⟩ : BufTy).Contents (Elt F)),
    nullary main_c_3 (constantI S_ 32 100000#32),
    unary main_c_3 main_v18 (broadcastInDim S600000 ![] bcast_S_S600000 : (⟨S_, .i32⟩ : BufTy).Contents (Elt F) → (⟨S600000, .i32⟩ : BufTy).Contents (Elt F)),
    binary main_v6 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_v6 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v15 main_v21 main_v22 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_4 (constantI S_ 32 0#32),
    unary main_c_4 main_v23 (broadcastInDim S600000 ![] bcast_S_S600000 : (⟨S_, .i32⟩ : BufTy).Contents (Elt F) → (⟨S600000, .i32⟩ : BufTy).Contents (Elt F)),
    binary main_v7 main_v23 main_v24 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v25 (broadcastInDim S600000 ![] bcast_S_S600000 : (⟨S_, .i32⟩ : BufTy).Contents (Elt F) → (⟨S600000, .i32⟩ : BufTy).Contents (Elt F)),
    binary main_v7 main_v25 main_v26 (addi : (⟨S600000, .i32⟩ : BufTy).Contents (Elt F) → (⟨S600000, .i32⟩ : BufTy).Contents (Elt F) → (⟨S600000, .i32⟩ : BufTy).Contents (Elt F)),
    ternary main_v24 main_v26 main_v7 main_v27 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v27 main_v28 (broadcastInDim S600000x1 ![0] bcast_S600000_S600000x1_0 : (⟨S600000, .i32⟩ : BufTy).Contents (Elt F) → (⟨S600000x1, .i32⟩ : BufTy).Contents (Elt F)),
    binary main_v15 main_v28 main_v29 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v22 main_v29 main_v30 (mulf : (⟨S600000, .f32⟩ : BufTy).Contents (Elt F) → (⟨S600000, .f32⟩ : BufTy).Contents (Elt F) → (⟨S600000, .f32⟩ : BufTy).Contents (Elt F)),
    unary main_v30 main_v31 (broadcastInDim S600000x1 ![0] bcast_S600000_S600000x1_0 : (⟨S600000, .f32⟩ : BufTy).Contents (Elt F) → (⟨S600000x1, .f32⟩ : BufTy).Contents (Elt F)),
    nullary main_c_6 (constantI S_ 32 0#32),
    unary main_c_6 main_v32 (broadcastInDim S600000 ![] bcast_S_S600000 : (⟨S_, .i32⟩ : BufTy).Contents (Elt F) → (⟨S600000, .i32⟩ : BufTy).Contents (Elt F)),
    binary main_v6 main_v32 main_v33 (cmpi .slt : (⟨S600000, .i32⟩ : BufTy).Contents (Elt F) → (⟨S600000, .i32⟩ : BufTy).Contents (Elt F) → (⟨S600000, .i1⟩ : BufTy).Contents (Elt F)),
    nullary main_c_7 (constantI S_ 32 100000#32),
    unary main_c_7 main_v34 (broadcastInDim S600000 ![] bcast_S_S600000 : (⟨S_, .i32⟩ : BufTy).Contents (Elt F) → (⟨S600000, .i32⟩ : BufTy).Contents (Elt F)),
    binary main_v6 main_v34 main_v35 (addi : (⟨S600000, .i32⟩ : BufTy).Contents (Elt F) → (⟨S600000, .i32⟩ : BufTy).Contents (Elt F) → (⟨S600000, .i32⟩ : BufTy).Contents (Elt F)),
    ternary main_v33 main_v35 main_v6 main_v36 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v36 main_v37 (broadcastInDim S600000x1 ![0] bcast_S600000_S600000x1_0 : (⟨S600000, .i32⟩ : BufTy).Contents (Elt F) → (⟨S600000x1, .i32⟩ : BufTy).Contents (Elt F)),
    binary main_v4 main_v37 main_v38 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v31 main_v39 (broadcastInDim S600000x128 ![0, 1] bcast_S600000x1_S600000x128_0_1 : (⟨S600000x1, .f32⟩ : BufTy).Contents (Elt F) → (⟨S600000x128, .f32⟩ : BufTy).Contents (Elt F)),
    binary main_v39 main_v38 main_v40 (mulf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S600000x1 ![0] bcast_S600000_S600000x1_0 : (⟨S600000, .i32⟩ : BufTy).Contents (Elt F) → (⟨S600000x1, .i32⟩ : BufTy).Contents (Elt F)),
    ternary main_v41 main_v42 main_v40 main_v43 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_v49 (iotaInDim S100000 32 0),
    binary main_v1 main_v49 main_v50 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    binary main_v3 main_v49 main_v51 ((fun a b => concatenate S600000 0 [⟨S500000, a⟩, ⟨S100000, b⟩] concatenates_S500000_S100000_S600000_d0) : (⟨S500000, .i32⟩ : BufTy).Contents (Elt F) → (⟨S100000, .i32⟩ : BufTy).Contents (Elt F) → (⟨S600000, .i32⟩ : BufTy).Contents (Elt F)),
    nullary main_cst_9 (constant S_ .f32 0x3F800000#32),
    unary main_cst_9 main_v52 (broadcastInDim S600000 ![] bcast_S_S600000 : (⟨S_, .f32⟩ : BufTy).Contents (Elt F) → (⟨S600000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S600000x1 ![0] bcast_S600000_S600000x1_0 : (⟨S600000, .i32⟩ : BufTy).Contents (Elt F) → (⟨S600000x1, .i32⟩ : BufTy).Contents (Elt F)),
    ternary main_v53 main_v54 main_v52 main_v55 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S600000 ![] bcast_S_S600000 : (⟨S_, .i32⟩ : BufTy).Contents (Elt F) → (⟨S600000, .i32⟩ : BufTy).Contents (Elt F)),
    binary main_v50 main_v60 main_v61 (cmpi .slt : (⟨S600000, .i32⟩ : BufTy).Contents (Elt F) → (⟨S600000, .i32⟩ : BufTy).Contents (Elt F) → (⟨S600000, .i1⟩ : BufTy).Contents (Elt F)),
    nullary main_c_14 (constantI S_ 32 100000#32),
    unary main_c_14 main_v62 (broadcastInDim S600000 ![] bcast_S_S600000 : (⟨S_, .i32⟩ : BufTy).Contents (Elt F) → (⟨S600000, .i32⟩ : BufTy).Contents (Elt F)),
    binary main_v50 main_v62 main_v63 (addi : (⟨S600000, .i32⟩ : BufTy).Contents (Elt F) → (⟨S600000, .i32⟩ : BufTy).Contents (Elt F) → (⟨S600000, .i32⟩ : BufTy).Contents (Elt F)),
    ternary main_v61 main_v63 main_v50 main_v64 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v64 main_v65 (broadcastInDim S600000x1 ![0] bcast_S600000_S600000x1_0 : (⟨S600000, .i32⟩ : BufTy).Contents (Elt F) → (⟨S600000x1, .i32⟩ : BufTy).Contents (Elt F)),
    binary main_v59 main_v65 main_v66 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_c_15 (constantI S_ 32 0#32),
    unary main_c_15 main_v67 (broadcastInDim S600000 ![] bcast_S_S600000 : (⟨S_, .i32⟩ : BufTy).Contents (Elt F) → (⟨S600000, .i32⟩ : BufTy).Contents (Elt F)),
    binary main_v51 main_v67 main_v68 (cmpi .slt : (⟨S600000, .i32⟩ : BufTy).Contents (Elt F) → (⟨S600000, .i32⟩ : BufTy).Contents (Elt F) → (⟨S600000, .i1⟩ : BufTy).Contents (Elt F)),
    nullary main_c_16 (constantI S_ 32 100000#32),
    unary main_c_16 main_v69 (broadcastInDim S600000 ![] bcast_S_S600000 : (⟨S_, .i32⟩ : BufTy).Contents (Elt F) → (⟨S600000, .i32⟩ : BufTy).Contents (Elt F)),
    binary main_v51 main_v69 main_v70 (addi : (⟨S600000, .i32⟩ : BufTy).Contents (Elt F) → (⟨S600000, .i32⟩ : BufTy).Contents (Elt F) → (⟨S600000, .i32⟩ : BufTy).Contents (Elt F)),
    ternary main_v68 main_v70 main_v51 main_v71 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v71 main_v72 (broadcastInDim S600000x1 ![0] bcast_S600000_S600000x1_0 : (⟨S600000, .i32⟩ : BufTy).Contents (Elt F) → (⟨S600000x1, .i32⟩ : BufTy).Contents (Elt F)),
    binary main_v59 main_v72 main_v73 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v66 main_v73 main_v74 (mulf : (⟨S600000, .f32⟩ : BufTy).Contents (Elt F) → (⟨S600000, .f32⟩ : BufTy).Contents (Elt F) → (⟨S600000, .f32⟩ : BufTy).Contents (Elt F)),
    unary main_v74 main_v75 (broadcastInDim S600000x1 ![0] bcast_S600000_S600000x1_0 : (⟨S600000, .f32⟩ : BufTy).Contents (Elt F) → (⟨S600000x1, .f32⟩ : BufTy).Contents (Elt F)),
    nullary main_c_17 (constantI S_ 32 0#32),
    unary main_c_17 main_v76 (broadcastInDim S600000 ![] bcast_S_S600000 : (⟨S_, .i32⟩ : BufTy).Contents (Elt F) → (⟨S600000, .i32⟩ : BufTy).Contents (Elt F)),
    binary main_v50 main_v76 main_v77 (cmpi .slt : (⟨S600000, .i32⟩ : BufTy).Contents (Elt F) → (⟨S600000, .i32⟩ : BufTy).Contents (Elt F) → (⟨S600000, .i1⟩ : BufTy).Contents (Elt F)),
    nullary main_c_18 (constantI S_ 32 100000#32),
    unary main_c_18 main_v78 (broadcastInDim S600000 ![] bcast_S_S600000 : (⟨S_, .i32⟩ : BufTy).Contents (Elt F) → (⟨S600000, .i32⟩ : BufTy).Contents (Elt F)),
    binary main_v50 main_v78 main_v79 (addi : (⟨S600000, .i32⟩ : BufTy).Contents (Elt F) → (⟨S600000, .i32⟩ : BufTy).Contents (Elt F) → (⟨S600000, .i32⟩ : BufTy).Contents (Elt F)),
    ternary main_v77 main_v79 main_v50 main_v80 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v80 main_v81 (broadcastInDim S600000x1 ![0] bcast_S600000_S600000x1_0 : (⟨S600000, .i32⟩ : BufTy).Contents (Elt F) → (⟨S600000x1, .i32⟩ : BufTy).Contents (Elt F)),
    binary main_v48 main_v81 main_v82 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v75 main_v83 (broadcastInDim S600000x128 ![0, 1] bcast_S600000x1_S600000x128_0_1 : (⟨S600000x1, .f32⟩ : BufTy).Contents (Elt F) → (⟨S600000x128, .f32⟩ : BufTy).Contents (Elt F)),
    binary main_v83 main_v82 main_v84 (mulf : (⟨S600000x128, .f32⟩ : BufTy).Contents (Elt F) → (⟨S600000x128, .f32⟩ : BufTy).Contents (Elt F) → (⟨S600000x128, .f32⟩ : BufTy).Contents (Elt F)),
    nullary main_cst_19 (constant S_ .f32 0x00000000#32),
    unary main_cst_19 main_v85 (broadcastInDim S100000x128 ![] bcast_S_S100000x128 : (⟨S_, .f32⟩ : BufTy).Contents (Elt F) → (⟨S100000x128, .f32⟩ : BufTy).Contents (Elt F)),
    unary main_v51 main_v86 (broadcastInDim S600000x1 ![0] bcast_S600000_S600000x1_0 : (⟨S600000, .i32⟩ : BufTy).Contents (Elt F) → (⟨S600000x1, .i32⟩ : BufTy).Contents (Elt F)),
    ternary main_v85 main_v86 main_v84 main_v87 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg5 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    nullary main_c_20 (constantI S_ 32 0#32),
    unary main_c_20 main_v91 (broadcastInDim S500000 ![] bcast_S_S500000 : (⟨S_, .i32⟩ : BufTy).Contents (Elt F) → (⟨S500000, .i32⟩ : BufTy).Contents (Elt F)),
    binary main_v1 main_v91 main_v92 (cmpi .slt : (⟨S500000, .i32⟩ : BufTy).Contents (Elt F) → (⟨S500000, .i32⟩ : BufTy).Contents (Elt F) → (⟨S500000, .i1⟩ : BufTy).Contents (Elt F)),
    nullary main_c_21 (constantI S_ 32 100000#32),
    unary main_c_21 main_v93 (broadcastInDim S500000 ![] bcast_S_S500000 : (⟨S_, .i32⟩ : BufTy).Contents (Elt F) → (⟨S500000, .i32⟩ : BufTy).Contents (Elt F)),
    binary main_v1 main_v93 main_v94 (addi : (⟨S500000, .i32⟩ : BufTy).Contents (Elt F) → (⟨S500000, .i32⟩ : BufTy).Contents (Elt F) → (⟨S500000, .i32⟩ : BufTy).Contents (Elt F)),
    ternary main_v92 main_v94 main_v1 main_v95 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v95 main_v96 (broadcastInDim S500000x1 ![0] bcast_S500000_S500000x1_0 : (⟨S500000, .i32⟩ : BufTy).Contents (Elt F) → (⟨S500000x1, .i32⟩ : BufTy).Contents (Elt F)),
    binary main_v90 main_v96 main_v97 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    nullary main_c_22 (constantI S_ 32 0#32),
    unary main_c_22 main_v98 (broadcastInDim S500000 ![] bcast_S_S500000 : (⟨S_, .i32⟩ : BufTy).Contents (Elt F) → (⟨S500000, .i32⟩ : BufTy).Contents (Elt F)),
    binary main_v3 main_v98 main_v99 (cmpi .slt : (⟨S500000, .i32⟩ : BufTy).Contents (Elt F) → (⟨S500000, .i32⟩ : BufTy).Contents (Elt F) → (⟨S500000, .i1⟩ : BufTy).Contents (Elt F)),
    nullary main_c_23 (constantI S_ 32 100000#32),
    unary main_c_23 main_v100 (broadcastInDim S500000 ![] bcast_S_S500000 : (⟨S_, .i32⟩ : BufTy).Contents (Elt F) → (⟨S500000, .i32⟩ : BufTy).Contents (Elt F)),
    binary main_v3 main_v100 main_v101 (addi : (⟨S500000, .i32⟩ : BufTy).Contents (Elt F) → (⟨S500000, .i32⟩ : BufTy).Contents (Elt F) → (⟨S500000, .i32⟩ : BufTy).Contents (Elt F)),
    ternary main_v99 main_v101 main_v3 main_v102 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v102 main_v103 (broadcastInDim S500000x1 ![0] bcast_S500000_S500000x1_0 : (⟨S500000, .i32⟩ : BufTy).Contents (Elt F) → (⟨S500000x1, .i32⟩ : BufTy).Contents (Elt F)),
    binary main_v90 main_v103 main_v104 ((fun x i => Host.gather gather_S100000x128_S500000x1_S500000x128_1_0_n_n_0_1_1128 x i) : (⟨S100000x128, .f32⟩ : BufTy).Contents (Elt F) → (⟨S500000x1, .i32⟩ : BufTy).Contents (Elt F) → (⟨S500000x128, .f32⟩ : BufTy).Contents (Elt F)),
    binary main_v97 main_v104 main_v105 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    binary main_v105 main_arg6 main_v106 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    unary main_arg7 main_v107 (broadcastInDim S1x128 ![1] bcast_S128_S1x128_1 : (⟨S128, .f32⟩ : BufTy).Contents (Elt F) → (⟨S1x128, .f32⟩ : BufTy).Contents (Elt F)),
    unary main_v107 main_v108 (broadcastInDim S500000x128 ![0, 1] bcast_S1x128_S500000x128_0_1 : (⟨S1x128, .f32⟩ : BufTy).Contents (Elt F) → (⟨S500000x128, .f32⟩ : BufTy).Contents (Elt F)),
    binary main_v106 main_v108 main_v109 (addf : (⟨S500000x128, .f32⟩ : BufTy).Contents (Elt F) → (⟨S500000x128, .f32⟩ : BufTy).Contents (Elt F) → (⟨S500000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S500000x128, .f32⟩) main_call3_v0) (broadcastInDim S500000x128 ![] bcast_S_S500000x128),
    TRef.binary (TRef.of (T := ⟨S500000x128, .f32⟩) main_v109) (TRef.of (T := ⟨S500000x128, .f32⟩) main_call3_v0) (TRef.of (T := ⟨S500000x128, .f32⟩) main_v110) maximumf,
    binary main_v110 main_arg8 main_v111 ((fun l r => Host.dotGeneral dot_S500000x128_S128x64_S500000x64_1_0_0_1_n_n none l r) : (⟨S500000x128, .f32⟩ : BufTy).Contents (Elt F) → (⟨S128x64, .f32⟩ : BufTy).Contents (Elt F) → (⟨S500000x64, .f32⟩ : BufTy).Contents (Elt F)),
    unary main_arg9 main_v112 (broadcastInDim S1x64 ![1] bcast_S64_S1x64_1 : (⟨S64, .f32⟩ : BufTy).Contents (Elt F) → (⟨S1x64, .f32⟩ : BufTy).Contents (Elt F)),
    unary main_v112 main_v113 (broadcastInDim S500000x64 ![0, 1] bcast_S1x64_S500000x64_0_1 : (⟨S1x64, .f32⟩ : BufTy).Contents (Elt F) → (⟨S500000x64, .f32⟩ : BufTy).Contents (Elt F)),
    binary main_v111 main_v113 main_v114 (addf : (⟨S500000x64, .f32⟩ : BufTy).Contents (Elt F) → (⟨S500000x64, .f32⟩ : BufTy).Contents (Elt F) → (⟨S500000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S500000x64, .f32⟩) main_call4_v0) (broadcastInDim S500000x64 ![] bcast_S_S500000x64),
    TRef.binary (TRef.of (T := ⟨S500000x64, .f32⟩) main_v114) (TRef.of (T := ⟨S500000x64, .f32⟩) main_call4_v0) (TRef.of (T := ⟨S500000x64, .f32⟩) main_v115) maximumf,
    binary main_v115 main_arg10 main_v116 ((fun l r => Host.dotGeneral dot_S500000x64_S64x2_S500000x2_1_0_0_1_n_n none l r) : (⟨S500000x64, .f32⟩ : BufTy).Contents (Elt F) → (⟨S64x2, .f32⟩ : BufTy).Contents (Elt F) → (⟨S500000x2, .f32⟩ : BufTy).Contents (Elt F)),
    unary main_arg11 main_v117 (broadcastInDim S1x2 ![1] bcast_S2_S1x2_1 : (⟨S2, .f32⟩ : BufTy).Contents (Elt F) → (⟨S1x2, .f32⟩ : BufTy).Contents (Elt F)),
    unary main_v117 main_v118 (broadcastInDim S500000x2 ![0, 1] bcast_S1x2_S500000x2_0_1 : (⟨S1x2, .f32⟩ : BufTy).Contents (Elt F) → (⟨S500000x2, .f32⟩ : BufTy).Contents (Elt F)),
    binary main_v116 main_v118 main_v119 (addf : (⟨S500000x2, .f32⟩ : BufTy).Contents (Elt F) → (⟨S500000x2, .f32⟩ : BufTy).Contents (Elt F) → (⟨S500000x2, .f32⟩ : BufTy).Contents (Elt F)),
    nullary main_cst_24 (constant S_ .f32 0xFF800000#32),
    binary main_v119 main_cst_24 main_v120 ((fun x v => Host.reduce FloatOps.maximumf x v reducesTo_S500000x2_S500000_d1 h_S_) : (⟨S500000x2, .f32⟩ : BufTy).Contents (Elt F) → (⟨S_, .f32⟩ : BufTy).Contents (Elt F) → (⟨S500000, .f32⟩ : BufTy).Contents (Elt F)),
    nullary main_cst_25 (constant S_ .f32 0xFF800000#32),
    unary main_cst_25 main_v121 (broadcastInDim S500000 ![] bcast_S_S500000 : (⟨S_, .f32⟩ : BufTy).Contents (Elt F) → (⟨S500000, .f32⟩ : BufTy).Contents (Elt F)),
    binary main_v121 main_v120 main_v122 (maximumf : (⟨S500000, .f32⟩ : BufTy).Contents (Elt F) → (⟨S500000, .f32⟩ : BufTy).Contents (Elt F) → (⟨S500000, .f32⟩ : BufTy).Contents (Elt F)),
    unary main_v122 main_v123 (broadcastInDim S500000x1 ![0] bcast_S500000_S500000x1_0 : (⟨S500000, .f32⟩ : BufTy).Contents (Elt F) → (⟨S500000x1, .f32⟩ : BufTy).Contents (Elt F)),
    unary main_v123 main_v124 (broadcastInDim S500000x2 ![0, 1] bcast_S500000x1_S500000x2_0_1 : (⟨S500000x1, .f32⟩ : BufTy).Contents (Elt F) → (⟨S500000x2, .f32⟩ : BufTy).Contents (Elt F)),
    binary main_v119 main_v124 main_v125 (subf : (⟨S500000x2, .f32⟩ : BufTy).Contents (Elt F) → (⟨S500000x2, .f32⟩ : BufTy).Contents (Elt F) → (⟨S500000x2, .f32⟩ : BufTy).Contents (Elt F)),
    unary main_v125 main_v126 (Host.exp : (⟨S500000x2, .f32⟩ : BufTy).Contents (Elt F) → (⟨S500000x2, .f32⟩ : BufTy).Contents (Elt F)),
    nullary main_cst_26 (constant S_ .f32 0x00000000#32),
    binary main_v126 main_cst_26 main_v127 ((fun x v => Host.reduceAdd x v reducesTo_S500000x2_S500000_d1 h_S_) : (⟨S500000x2, .f32⟩ : BufTy).Contents (Elt F) → (⟨S_, .f32⟩ : BufTy).Contents (Elt F) → (⟨S500000, .f32⟩ : BufTy).Contents (Elt F)),
    unary main_v127 main_v128 (broadcastInDim S500000x1 ![0] bcast_S500000_S500000x1_0 : (⟨S500000, .f32⟩ : BufTy).Contents (Elt F) → (⟨S500000x1, .f32⟩ : BufTy).Contents (Elt F)),
    unary main_v128 main_v129 (broadcastInDim S500000x2 ![0, 1] bcast_S500000x1_S500000x2_0_1 : (⟨S500000x1, .f32⟩ : BufTy).Contents (Elt F) → (⟨S500000x2, .f32⟩ : BufTy).Contents (Elt F)),
    binary main_v126 main_v129 main_v130 (Host.divf : (⟨S500000x2, .f32⟩ : BufTy).Contents (Elt F) → (⟨S500000x2, .f32⟩ : BufTy).Contents (Elt F) → (⟨S500000x2, .f32⟩ : BufTy).Contents (Elt F)),
    unary main_v130 main_v131 ((extractStridedSlice S500000x1 ![0, 1] · slices_S500000x2_S500000x1_0_1) : (⟨S500000x2, .f32⟩ : BufTy).Contents (Elt F) → (⟨S500000x1, .f32⟩ : BufTy).Contents (Elt F)),
    reshape main_v131 main_v132 rfl shapeCasts_S500000x1_S500000 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub ..⟩

set_option maxRecDepth 8192 in
set_option maxHeartbeats 68800000 in
/-- Every weakly fair execution of the reference terminates with the result at the last stage's function of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v132) = val_main_v132 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v132).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.Gcn.RefRun

end
-- ==== Proof.EncGlue.lean ====
/-
  The index columns and the per-node factors of the two programs are the same arrays.

  Both programs append the self-loops to the two halves of the edge list, wrap negative numbers by the number of
  nodes, write the numbers as one column, count the edges landing on every node and take the guarded reciprocal
  square root of the count. The operations are the same one by one, so the arrays are equal by unfolding the names.
-/
import proofs.«124494_j37151467111037_2_alg».proof.Proof.KSpec
import proofs.«124494_j37151467111037_2_alg».proof.Proof.RefReadP

noncomputable section

namespace Cert.Gcn.Enc

open Idealize.ShloMosaic Cert.Gcn Cert.ReferenceIdeal.ReadP

variable (x1 : IVec Cert.KernelIdeal.S2x500000 32)

/-- The sources with the self-loops appended. -/
theorem rowF_eq : K.rowF x1 = val_main_v6 (F := Ideal) x1 := rfl
/-- The destinations with the self-loops appended. -/
theorem colF_eq : K.colF x1 = val_main_v7 (F := Ideal) x1 := rfl
/-- The wrapped source column (the reference writes it twice per layer). -/
theorem wrapSrc_eq : K.wrapCol (K.rowF x1) = val_main_v37 (F := Ideal) x1 := rfl
theorem wrapSrc_eq' : val_main_v21 (F := Ideal) x1 = val_main_v37 (F := Ideal) x1 := rfl
/-- The wrapped destination column. -/
theorem wrapDst_eq : K.wrapCol (K.colF x1) = val_main_v28 (F := Ideal) x1 := rfl
/-- The raw destination column. -/
theorem rawDst_eq : K.rawCol (K.colF x1) = val_main_v42 (F := Ideal) x1 := rfl
/-- The per-node factors. -/
theorem dinv_eq : K.dinv x1 = val_main_v15 (F := Ideal) x1 := rfl

/-! The second layer's copies of the same arrays. -/
theorem wrapSrc2_eq : val_main_v81 (F := Ideal) x1 = val_main_v37 (F := Ideal) x1 := rfl
theorem wrapSrc2_eq' : val_main_v65 (F := Ideal) x1 = val_main_v37 (F := Ideal) x1 := rfl
theorem wrapDst2_eq : val_main_v72 (F := Ideal) x1 = val_main_v28 (F := Ideal) x1 := rfl
theorem rawDst2_eq : val_main_v86 (F := Ideal) x1 = val_main_v42 (F := Ideal) x1 := rfl
theorem dinv2_eq : val_main_v59 (F := Ideal) x1 = val_main_v15 (F := Ideal) x1 := rfl

end Cert.Gcn.Enc

end
-- ==== Proof.LibRowGather.lean ====
/-
  A gather of whole rows, a gather of vector entries, and a scatter of whole rows, each driven by ONE column of
  row numbers, read at an index.

  The start indices are an E × 1 array of integers, one per result row e.
  * Gathering rows of an N × C matrix: result entry (e, l) is the matrix entry (r, l), where r is the integer of
    row e read as a signed number and clamped into [0, N − 1].
  * Gathering entries of a vector of length N: result entry e is the vector's entry r, the same clamped number.
  * Scattering the rows of an E × C array into an N × C matrix: update entry (e, l) lands on entry (r, l) of the
    matrix exactly when the integer of row e, read as a signed number WITHOUT clamping, is a row number r of the
    matrix; otherwise the update is dropped. In particular a landing update has a nonnegative integer, equal to
    the row it lands on, and keeps its column.
-/
import Idealize.ShloMosaic.Lib.ValueIdx
import Idealize.ShloMosaic.PureOps.Ideal

namespace Idealize.ShloMosaic.ValueIdx

open Idealize.ShloMosaic

section
variable {α : Type}

/-- The dimension numbers of a gather of rows: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of vector entries: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The dimension numbers of a scatter of rows: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The entry of the one column of row numbers that belongs to result row `e`. -/
abbrev colEntry {E : Nat} (e : Fin E) : (⟨2, ![E, 1]⟩ : Shape).Idx := ix2 e ⟨0, Nat.one_pos⟩

/-- The row a gather reads for result row `e`: the integer, signed, clamped into `[0, N − 1]`. -/
abbrev clampRow {N E w : Nat} (hN : 0 < N) (idx : IVec ⟨2, ![E, 1]⟩ w) (e : Fin E) : Fin N :=
  ⟨min (idx (colEntry e)).toInt.toNat (N - 1), by omega⟩

/-- A GATHER OF ROWS read at `(e, l)`: the operand at the clamped row, same column. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (l : Fin C) :
    Host.gather (rowGatherDims N E C wf) x idx (ix2 e l) = x (ix2 (clampRow hN idx e) l) := by
  have h0 : (rowGatherDims N E C wf).start (ix2 e l) idx (0 : Fin 2) + (rowGatherDims N E C wf).batchCoord (ix2 e l) (0 : Fin 2)
      + (rowGatherDims N E C wf).offCoord (ix2 e l) (0 : Fin 2) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e l) ⟨List.idxOf (0 : Fin 2) (rowGatherDims N E C wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  have h1 : (rowGatherDims N E C wf).start (ix2 e l) idx (1 : Fin 2) + (rowGatherDims N E C wf).batchCoord (ix2 e l) (1 : Fin 2)
      + (rowGatherDims N E C wf).offCoord (ix2 e l) (1 : Fin 2) = l.val := by
    rw [GatherDims.batchCoord_eq_zero _ _ _ List.not_mem_nil]
    have hs : (rowGatherDims N E C wf).start (ix2 e l) idx (1 : Fin 2) = 0 := by
      unfold GatherDims.start
      rw [dif_neg (show (1 : Fin 2) ∉ ([0] : List (Fin 2)) by decide)]
    rw [hs]
    simp only [Nat.zero_add, Nat.add_zero]
    rfl
  unfold Host.gather
  congr 1
  funext a
  refine Fin.ext ?_
  match a with
  | ⟨0, _⟩ => exact h0
  | ⟨1, _⟩ => exact h1

/-- A GATHER OF VECTOR ENTRIES read at `e`: the operand at the clamped number. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow hN idx e)) := by
  have h0 : (vecGatherDims N E wf).start (ix1 e) idx (0 : Fin 1) + (vecGatherDims N E wf).batchCoord (ix1 e) (0 : Fin 1)
      + (vecGatherDims N E wf).offCoord (ix1 e) (0 : Fin 1) = min (idx (colEntry e)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = colEntry e := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

/-- WHERE A SCATTERED ROW LANDS: if update entry `(e, l)` lands on entry `i` of the matrix, then the integer of row
    `e`, read signed, is the row number of `i` (so it is not negative and below `N`), and `i` is in column `l`. -/
theorem scatter_rows_lands {N E C w : Nat}
    (wf : ScatterDims.WF ⟨2, ![N, C]⟩ ⟨2, ![E, 1]⟩ ⟨2, ![E, C]⟩ [1] [0] [0] 1)
    (idx : IVec ⟨2, ![E, 1]⟩ w) (e : Fin E) (l : Fin C) (i : (⟨2, ![N, C]⟩ : Shape).Idx)
    (h : (rowScatterDims N E C wf).resultIdx? (ix2 e l) idx = some i) :
    (idx (colEntry e)).toInt = ((i 0).val : Int) ∧ (i 1).val = l.val := by
  have hs0 : (rowScatterDims N E C wf).start (ix2 e l) idx (0 : Fin 2) = (idx (colEntry e)).toInt := by
    unfold ScatterDims.start
    rw [dif_pos (show (0 : Fin 2) ∈ (rowScatterDims N E C wf).scatterDimsToOperandDims from List.mem_singleton.mpr rfl)]
    have hsi : (rowScatterDims N E C wf).siIdx (ix2 e l) ⟨List.idxOf (0 : Fin 2) (rowScatterDims N E C wf).scatterDimsToOperandDims,
        List.idxOf_lt_length_iff.2 (List.mem_singleton.mpr rfl)⟩ = colEntry e := by
      funext b; refine Fin.ext ?_
      match b with
      | ⟨0, _⟩ => rfl
      | ⟨1, _⟩ => rfl
    rw [hsi]
  have hw0 : (rowScatterDims N E C wf).window (ix2 e l) (0 : Fin 2) = 0 := by
    unfold ScatterDims.window
    rw [dif_neg (show (0 : Fin 2) ∉ (rowScatterDims N E C wf).sKept from (by decide : (0 : Fin 2) ∉ (List.finRange 2).filter (· ∉ ([0] : List (Fin 2)))))]
  have hs1 : (rowScatterDims N E C wf).start (ix2 e l) idx (1 : Fin 2) = 0 := by
    unfold ScatterDims.start
    rw [dif_neg (show (1 : Fin 2) ∉ ([0] : List (Fin 2)) by decide)]
  have hw1 : (rowScatterDims N E C wf).window (ix2 e l) (1 : Fin 2) = l.val := by
    unfold ScatterDims.window
    rw [dif_pos (show (1 : Fin 2) ∈ (rowScatterDims N E C wf).sKept from (by decide : (1 : Fin 2) ∈ (List.finRange 2).filter (· ∉ ([0] : List (Fin 2)))))]
    rfl
  unfold ScatterDims.resultIdx? at h
  split at h
  · rename_i hin
    have hi := Option.some.inj h
    have h0 := hin (0 : Fin 2)
    rw [hs0, hw0] at h0
    have e0 : (i 0).val = ((rowScatterDims N E C wf).start (ix2 e l) idx (0 : Fin 2) + ((rowScatterDims N E C wf).window (ix2 e l) (0 : Fin 2) : Int)).toNat := by
      rw [← hi]
    have e1 : (i 1).val = ((rowScatterDims N E C wf).start (ix2 e l) idx (1 : Fin 2) + ((rowScatterDims N E C wf).window (ix2 e l) (1 : Fin 2) : Int)).toNat := by
      rw [← hi]
    rw [hs0, hw0] at e0
    rw [hs1, hw1] at e1
    constructor
    · omega
    · omega
  · exact absurd h (by simp)

end

end Idealize.ShloMosaic.ValueIdx
-- ==== Proof.LibScaleSum.lean ====
/-
  Two facts about the extended reals.

  * Multiplying a finite sum by a factor d with 0 ≤ d < ⊤ can be done term by term: (Σ f) · d = Σ (f · d). On the
    extended reals multiplication does not distribute over addition in general (⊤ + ⊥ = ⊥, and a negative factor
    swaps the two infinities), but it does for a nonnegative finite factor, and a finite sum follows by induction.
  * The reciprocal square root, applied to max x r with r a positive real, is a nonnegative finite number: the
    argument is either ⊤, where the reciprocal square root is 0, or a positive real, where it is a positive real.
-/
import Idealize.ShloMosaic.PureOps.Ideal
import Mathlib.Data.EReal.Operations

open scoped BigOperators

namespace Idealize.ShloMosaic.Ideal

/-- A factor `d` with `0 ≤ d` and `d ≠ ⊤` distributes over a finite sum of extended reals. -/
theorem sum_mul_of_nonneg_of_ne_top {ι : Type*} (s : Finset ι) (f : ι → EReal) {d : EReal} (h0 : 0 ≤ d) (ht : d ≠ ⊤) :
    (∑ j ∈ s, f j) * d = ∑ j ∈ s, f j * d := by
  classical
  induction s using Finset.induction_on with
  | empty => simp
  | insert a s ha ih =>
    rw [Finset.sum_insert ha, Finset.sum_insert ha, EReal.right_distrib_of_nonneg_of_ne_top h0 ht, ih]

/-- `rsqrt (max x r)` for a positive real `r` is nonnegative and finite. -/
theorem rsqrt_max_pos_range (x : EReal) {r : ℝ} (hr : 0 < r) :
    0 ≤ Ideal.rsqrt (max x (r : EReal)) ∧ Ideal.rsqrt (max x (r : EReal)) ≠ ⊤ := by
  have hle : (r : EReal) ≤ max x (r : EReal) := le_max_right _ _
  induction h : max x (r : EReal) using EReal.rec with
  | bot => rw [h] at hle; exact absurd hle (by simp)
  | top => rw [Ideal.rsqrt_top]; exact ⟨le_refl _, EReal.zero_ne_top⟩
  | coe y =>
    rw [h] at hle
    have hy : 0 < y := lt_of_lt_of_le hr (by exact_mod_cast hle)
    have hs : 0 < Real.sqrt y := Real.sqrt_pos.mpr hy
    rw [Ideal.rsqrt_coe, if_neg (not_lt.mpr hy.le), if_neg hy.ne']
    exact ⟨by exact_mod_cast (inv_pos.mpr hs).le, EReal.coe_ne_top _⟩

end Idealize.ShloMosaic.Ideal
-- ==== Proof.LibScaledScatter.lean ====
/-
  A degree-normalised aggregation can be scaled before and after the sum, or once per edge.

  Rows of an N × C matrix h are gathered along a list of E edges (source row of edge e: the clamped integer
  row(e)) and added up per destination row (edge e lands on row col(e) when that integer is a row number, and is
  dropped otherwise). Let dis be a vector of N factors, each nonnegative and finite. Then, entry by entry,

      ( Σ_{e lands on i}  h(src e, l) · dis(src e) ) · dis(i)
        =  Σ_{e lands on i}  h(src e, l) · ( dis(src e) · dis(dst e) ),

  where dst e is the clamped integer of the destination column after negative numbers have been wrapped: an edge
  that lands on row i has the nonnegative integer i there, which neither the wrap nor the clamp changes, so
  dis(dst e) = dis(i). The factor dis(i) moves inside the sum because it is nonnegative and finite (the one case
  in which multiplication distributes over addition on the extended reals), and the product is associative.
  Nothing is assumed of h: its entries may be infinite.
-/
import proofs.«124494_j37151467111037_2_alg».proof.Proof.LibRowGather
import proofs.«124494_j37151467111037_2_alg».proof.Proof.LibScaleSum

open scoped BigOperators

namespace Idealize.ShloMosaic.ValueIdx

open Idealize.ShloMosaic

/-- THE SCALED AGGREGATION: the scatter-add of updates `h(src e, l) · dis(src e)`, scaled afterwards by `dis(i)`, is
    the scatter-add of updates `h(src e, l) · (dis(src e) · dis(dst e))`, into an operand of zeros. -/
theorem scaled_scatter_rows {N E C : Nat} (hN : 0 < N)
    (ws : ScatterDims.WF ⟨2, ![N, C]⟩ ⟨2, ![E, 1]⟩ ⟨2, ![E, C]⟩ [1] [0] [0] 1)
    (h : (⟨2, ![N, C]⟩ : Shape).Idx → EReal) (dis : (⟨1, ![N]⟩ : Shape).Idx → EReal)
    (hdis : ∀ r : Fin N, 0 ≤ dis (ix1 r) ∧ dis (ix1 r) ≠ ⊤)
    (irow icol icolw : IVec ⟨2, ![E, 1]⟩ 32)
    (hwrap : ∀ e : Fin E, 0 ≤ (icol (colEntry e)).toInt → icolw (colEntry e) = icol (colEntry e))
    (z : (⟨2, ![N, C]⟩ : Shape).Idx → EReal) (hz : ∀ i, z i = 0)
    (updK updR : (⟨2, ![E, C]⟩ : Shape).Idx → EReal)
    (hK : ∀ (e : Fin E) (l : Fin C), updK (ix2 e l) = h (ix2 (clampRow hN irow e) l) * dis (ix1 (clampRow hN irow e)))
    (hR : ∀ (e : Fin E) (l : Fin C), updR (ix2 e l)
      = h (ix2 (clampRow hN irow e) l) * (dis (ix1 (clampRow hN irow e)) * dis (ix1 (clampRow hN icolw e))))
    (i : Fin N) (l : Fin C) :
    Ideal.hostScatterAdd (rowScatterDims N E C ws) z icol updK (ix2 i l) * dis (ix1 i)
      = Ideal.hostScatterAdd (rowScatterDims N E C ws) z icol updR (ix2 i l) := by
  unfold Ideal.hostScatterAdd
  rw [hz, zero_add, zero_add, Ideal.sum_mul_of_nonneg_of_ne_top _ _ (hdis i).1 (hdis i).2]
  refine Finset.sum_congr rfl fun j hj => ?_
  obtain ⟨e, l', rfl⟩ : ∃ (e : Fin E) (l' : Fin C), j = ix2 e l' := ⟨j 0, j 1, eq_ix2 j⟩
  obtain ⟨hint, -⟩ := scatter_rows_lands ws icol e l' (ix2 i l) (Finset.mem_filter.mp hj).2
  have hi : ((ix2 i l : (⟨2, ![N, C]⟩ : Shape).Idx) 0).val = i.val := rfl
  rw [hi] at hint
  have hdst : clampRow hN icolw e = i := by
    refine Fin.ext ?_
    show min (icolw (colEntry e)).toInt.toNat (N - 1) = i.val
    rw [hwrap e (by omega), hint]
    have := i.isLt
    simp only [Int.toNat_natCast]
    omega
  rw [hK, hR, hdst, mul_assoc]

end Idealize.ShloMosaic.ValueIdx
-- ==== Proof.LibGuardedRsqrt.lean ====
/-
  The normalising factor of a node is the reciprocal square root of its degree where the degree is positive, and zero
  elsewhere. Whatever extended real the "degree" is, that factor is a nonnegative finite number: a positive real has
  a positive real reciprocal square root, the reciprocal square root of +∞ is 0, and anything not above zero is sent
  to 0 by the guard. This is the one property of the factors that the aggregation law uses.
-/
import Idealize.ShloMosaic.PureOps.Ideal
import Mathlib.Data.EReal.Operations

namespace Cert.Gcn

open Idealize.ShloMosaic

/-- `if 0 < x then rsqrt x else 0`, spelt with the comparison bit and the select of the two programs, lies in `[0, ⊤)`. -/
theorem guarded_rsqrt_range (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  induction x using EReal.rec with
  | bot => simp
  | top => simp
  | coe r =>
    by_cases h : (0 : ℝ) < r
    · have hs : 0 < Real.sqrt r := Real.sqrt_pos.mpr h
      have h' : ((0 : ℝ) : EReal) < (r : EReal) := by exact_mod_cast h
      simp only [EReal.coe_zero] at h'
      simp only [h', decide_true, BitVec.ofBool_true, if_true, Ideal.rsqrt_coe, if_neg (not_lt.mpr h.le), if_neg h.ne']
      exact ⟨by exact_mod_cast (inv_pos.mpr hs).le, EReal.coe_ne_top _⟩
    · have h' : ¬ ((0 : EReal) < (r : EReal)) := by
        intro hh; exact h (by exact_mod_cast hh)
      simp [h']

end Cert.Gcn
-- ==== Proof.LibBiasRows.lean ====
/-
  A vector repeated down the rows, or across the columns, of a matrix, the way the host writes it.

  A vector b of length n is first made a 1 × n row (broadcast along a new leading axis) and the row is then repeated
  M times (broadcast along that axis). Entry (r, a) of the result is b(a), whatever the row r. Likewise a vector
  v of length E made an E × 1 column and repeated across C columns has v(e) at entry (e, l).
-/
import Idealize.ShloMosaic.Lib.Pipeline.Value
import Idealize.ShloMosaic.Lib.ValueIdx

namespace Idealize.ShloMosaic.ValueIdx

open Idealize.ShloMosaic

variable {α : Type}

/-- A length-`n` vector broadcast to `[1, n]` and then to `[M, n]` reads, at `(r, a)`, the vector at `a`. -/
theorem bias_rows_apply {M n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![M, n]⟩ (![0, 1] : Fin 2 → Fin 2))
    (r : Fin M) (a : Fin n) :
    broadcastInDim ⟨2, ![M, n]⟩ (![0, 1] : Fin 2 → Fin 2) h2 (broadcastInDim ⟨2, ![1, n]⟩ (![1] : Fin 1 → Fin 2) h1 b) (ix2 r a)
      = b (ix1 a) := by
  refine (broadcastInDim_apply _ h2 _ (ix2 r a) (ix2 (0 : Fin 1) a) (fun ax => ?_)).trans
    (broadcastInDim_apply _ h1 b (ix2 (0 : Fin 1) a) (ix1 a) (fun ax => ?_))
  · match ax with
    | ⟨0, _⟩ => show 0 = if (1 : ℕ) = 1 then 0 else r.val; rw [if_pos rfl]
    | ⟨1, _⟩ =>
      show a.val = if n = 1 then 0 else a.val
      split
      · have := a.isLt; omega
      · rfl
  · match ax with
    | ⟨0, _⟩ =>
      show a.val = if n = 1 then 0 else a.val
      split
      · have := a.isLt; omega
      · rfl

/-- A length-`E` vector broadcast to one column `[E, 1]` and then across `C` columns reads, at `(e, l)`, the vector
    at `e`: one factor per row, repeated along the row. -/
theorem row_factors_apply {E C : ℕ} (v : (⟨1, ![E]⟩ : Shape).Idx → α)
    (h1 : (⟨1, ![E]⟩ : Shape).BroadcastsInDim ⟨2, ![E, 1]⟩ (![0] : Fin 1 → Fin 2))
    (h2 : (⟨2, ![E, 1]⟩ : Shape).BroadcastsInDim ⟨2, ![E, C]⟩ (![0, 1] : Fin 2 → Fin 2))
    (e : Fin E) (l : Fin C) :
    broadcastInDim ⟨2, ![E, C]⟩ (![0, 1] : Fin 2 → Fin 2) h2 (broadcastInDim ⟨2, ![E, 1]⟩ (![0] : Fin 1 → Fin 2) h1 v) (ix2 e l)
      = v (ix1 e) := by
  refine (broadcastInDim_apply _ h2 _ (ix2 e l) (ix2 e (0 : Fin 1)) (fun ax => ?_)).trans
    (broadcastInDim_apply _ h1 v (ix2 e (0 : Fin 1)) (ix1 e) (fun ax => ?_))
  · match ax with
    | ⟨0, _⟩ =>
      show e.val = if E = 1 then 0 else e.val
      split
      · have := e.isLt; omega
      · rfl
    | ⟨1, _⟩ => show 0 = if (1 : ℕ) = 1 then 0 else l.val; rw [if_pos rfl]
  · match ax with
    | ⟨0, _⟩ =>
      show e.val = if E = 1 then 0 else e.val
      split
      · have := e.isLt; omega
      · rfl

end Idealize.ShloMosaic.ValueIdx
-- ==== Proof.EncLayer.lean ====
/-
  One graph-convolution aggregation, scaled around the sum or per edge, in the two programs' own operations.

  The kernel program gathers the rows of A(r, l) = P(r, l) · dinv(r) along the sources, adds them up per destination
  and multiplies row i of the sums by dinv(i). The reference gathers the rows of P, multiplies row e of the gathered
  array by dinv(src e) · dinv(dst e) (the factor gathered twice, through the wrapped source and the wrapped
  destination numbers) and adds up per destination. The two agree entry by entry: the factors lie in [0, ⊤), so
  the outer factor moves inside the sum, and an edge that lands on row i has destination i, wrapped or not.
-/
import proofs.«124494_j37151467111037_2_alg».proof.Proof.EncGlue
import proofs.«124494_j37151467111037_2_alg».proof.Proof.LibScaledScatter
import proofs.«124494_j37151467111037_2_alg».proof.Proof.LibGuardedRsqrt
import proofs.«124494_j37151467111037_2_alg».proof.Proof.LibBiasRows
import proofs.«124494_j37151467111037_2_alg».proof.Proof.LibColumnCast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Enc

open Idealize.ShloMosaic Idealize.ShloMosaic.ValueIdx Cert.Gcn Cert.ReferenceIdeal.ReadP

/-- One column of 600000 node numbers. -/
abbrev Col : Type := IVec (⟨2, ![600000, 1]⟩ : Shape) 32
/-- One extended real per node. -/
abbrev NodeVec : Type := (⟨1, ![100000]⟩ : Shape).Idx → EReal
/-- One row of 128 extended reals per edge. -/
abbrev EdgeMat : Type := (⟨2, ![600000, 128]⟩ : Shape).Idx → EReal

theorem hN : 0 < 100000 := by decide

/-! ## The wrap leaves a nonnegative number alone -/

/-- Entry e of the one-column form of a vector of numbers is the vector's entry e. -/
theorem rawCol_apply (v : IVec Cert.KernelIdeal.S600000 32) (e : Fin 600000) : K.rawCol v (colEntry e) = v (ix1 e) :=
  broadcastInDim_apply _ _ v (colEntry e) (ix1 e) (fun a => match a with
    | ⟨0, _⟩ => by show e.val = if (600000 : Nat) = 1 then 0 else e.val; rw [if_neg (by decide)])

/-- Where the raw number is not negative, the wrapped column holds the raw number. -/
theorem wrapCol_of_nonneg (v : IVec Cert.KernelIdeal.S600000 32) (e : Fin 600000)
    (h : 0 ≤ (K.rawCol v (colEntry e)).toInt) : K.wrapCol v (colEntry e) = K.rawCol v (colEntry e) := by
  rw [rawCol_apply] at h ⊢
  unfold K.wrapCol
  refine (broadcastInDim_apply _ _ _ (colEntry e) (ix1 e) (fun a => match a with
    | ⟨0, _⟩ => by show e.val = if (600000 : Nat) = 1 then 0 else e.val; rw [if_neg (by decide)])).trans ?_
  show Scalar.select (IntOp.cmpi .slt (v (ix1 e)) 0#32) (IntOp.addi (v (ix1 e)) 100000#32) (v (ix1 e)) = v (ix1 e)
  generalize v (ix1 e) = a at h ⊢
  have hs : a.slt 0#32 = false := by
    simp only [BitVec.slt, BitVec.toInt_zero, decide_eq_false_iff_not, not_lt]
    exact h
  show Scalar.select (BitVec.ofBool (a.slt 0#32)) _ a = a
  rw [hs]
  rfl

/-! ## The factors lie in [0, ⊤) -/

/-- The kernel program's factor of node r: the guarded reciprocal square root of its degree. -/
theorem dinv_apply (x1 : IVec Cert.KernelIdeal.S2x500000 32) (i : Cert.KernelIdeal.S100000.Idx) :
    K.dinv x1 i = Scalar.select (Ideal.cmp .ogt (K.deg x1 i) 0) (Ideal.rsqrt (K.deg x1 i)) (0 : EReal) := by
  unfold K.dinv
  generalize K.deg x1 = d
  show Scalar.select (Ideal.cmp .ogt (d i) (Ideal.ofBits .f32 0x00000000#32)) (Ideal.rsqrt (d i)) (Ideal.ofBits .f32 0x00000000#32) = _
  rw [Ideal.ofBits_zero_f32]

theorem dinv_range (x1 : IVec Cert.KernelIdeal.S2x500000 32) (r : Fin 100000) :
    0 ≤ K.dinv x1 (ix1 r) ∧ K.dinv x1 (ix1 r) ≠ ⊤ := by
  rw [dinv_apply]
  exact guarded_rsqrt_range _

/-! ## The reference's per-edge factor -/

/-- The product of the factor gathered through two columns of numbers, repeated along the rows, at (e, l). -/
theorem norm_apply (wv : GatherDims.WF ⟨1, ![100000]⟩ ⟨2, ![600000, 1]⟩ ⟨1, ![600000]⟩ [] [0] [] [0] [] 1 ![1])
    (h1 : (⟨1, ![600000]⟩ : Shape).BroadcastsInDim ⟨2, ![600000, 1]⟩ (![0] : Fin 1 → Fin 2))
    (h2 : (⟨2, ![600000, 1]⟩ : Shape).BroadcastsInDim ⟨2, ![600000, 128]⟩ (![0, 1] : Fin 2 → Fin 2))
    (dis : NodeVec) (isrc idstw : Col) (e : Fin 600000) (l : Fin 128) :
    broadcastInDim ⟨2, ![600000, 128]⟩ (![0, 1] : Fin 2 → Fin 2) h2 (broadcastInDim ⟨2, ![600000, 1]⟩ (![0] : Fin 1 → Fin 2) h1
      (mulf (F := Ideal) (φ := .f32) (Host.gather (vecGatherDims 100000 600000 wv) dis isrc)
        (Host.gather (vecGatherDims 100000 600000 wv) dis idstw))) (ix2 e l)
      = dis (ix1 (clampRow hN isrc e)) * dis (ix1 (clampRow hN idstw e)) := by
  rw [row_factors_apply]
  show Host.gather (vecGatherDims 100000 600000 wv) dis isrc (ix1 e) * Host.gather (vecGatherDims 100000 600000 wv) dis idstw (ix1 e) = _
  rw [gather_vec_apply hN, gather_vec_apply hN]

/-! ## The aggregation law in the programs' operations -/

/-- THE AGGREGATION, over arbitrary arrays: gather-then-add of A = P · dis(row), scaled by dis(i) afterwards, is
    gather-then-add of P with every gathered row scaled by nrm = dis(src) · dis(dst). -/
theorem agg_law
    (ws : ScatterDims.WF ⟨2, ![100000, 128]⟩ ⟨2, ![600000, 1]⟩ ⟨2, ![600000, 128]⟩ [1] [0] [0] 1)
    (wg : GatherDims.WF ⟨2, ![100000, 128]⟩ ⟨2, ![600000, 1]⟩ ⟨2, ![600000, 128]⟩ [1] [0] [] [0] [] 1 ![1, 128])
    (P A : Mat 100000 128) (dis : NodeVec) (hdis : ∀ r : Fin 100000, 0 ≤ dis (ix1 r) ∧ dis (ix1 r) ≠ ⊤)
    (hA : ∀ (r : Fin 100000) (l : Fin 128), A (ix2 r l) = P (ix2 r l) * dis (ix1 r))
    (isrc idst idstw : Col)
    (hwrap : ∀ e : Fin 600000, 0 ≤ (idst (colEntry e)).toInt → idstw (colEntry e) = idst (colEntry e))
    (z z' : Mat 100000 128) (hz : ∀ i, z i = 0) (hz' : ∀ i, z' i = 0)
    (nrm : EdgeMat)
    (hnrm : ∀ (e : Fin 600000) (l : Fin 128), nrm (ix2 e l) = dis (ix1 (clampRow hN isrc e)) * dis (ix1 (clampRow hN idstw e)))
    (p : Fin 100000) (q : Fin 128) :
    Ideal.hostScatterAdd (rowScatterDims 100000 600000 128 ws) z idst
        (Host.gather (rowGatherDims 100000 600000 128 wg) A isrc) (ix2 p q) * dis (ix1 p)
      = Ideal.hostScatterAdd (rowScatterDims 100000 600000 128 ws) z' idst
          (mulf (F := Ideal) (φ := .f32) nrm (Host.gather (rowGatherDims 100000 600000 128 wg) P isrc)) (ix2 p q) := by
  have hzz : z' = z := funext fun i => (hz' i).trans (hz i).symm
  subst hzz
  exact scaled_scatter_rows hN ws P dis hdis isrc idst idstw hwrap z' hz' _ _
    (fun e l => by rw [gather_rows_apply hN, hA])
    (fun e l => by
      show nrm (ix2 e l) * Host.gather (rowGatherDims 100000 600000 128 wg) P isrc (ix2 e l) = _
      rw [gather_rows_apply hN, hnrm, mul_comm])
    p q

end Cert.Gcn.Enc

end
-- ==== Proof.Encoder.lean ====
/-
  The graph-convolution encoder: the kernel program's node embeddings are the reference's.

  Each of the two layers is a product with a weight matrix, an aggregation along the edges with the degree
  normalisation, and a bias; the first layer ends in a positive part. The kernel program scales rows by the per-node
  factor before and after the aggregation, the reference scales every gathered row by the product of the two
  endpoint factors. The aggregation law makes the two agree; the rest is the same operation on both sides.
-/
import proofs.«124494_j37151467111037_2_alg».proof.Proof.KSpec
import proofs.«124494_j37151467111037_2_alg».proof.Proof.RefReadP
import proofs.«124494_j37151467111037_2_alg».proof.Proof.EncLayer
import proofs.«124494_j37151467111037_2_alg».proof.Proof.LibScaledScatter
import proofs.«124494_j37151467111037_2_alg».proof.Proof.LibGuardedRsqrt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Enc

open Idealize.ShloMosaic Idealize.ShloMosaic.ValueIdx Cert.Gcn Cert.ReferenceIdeal.ReadP

/-- The reference's aggregation of an array P: the rows of P gathered along the sources, each scaled by the product
    of its two endpoint factors, added up per destination into an array of zeros. -/
def refAgg (P : FVec Ideal Cert.ReferenceIdeal.S100000x128 .f32) (x1 : IVec Cert.ReferenceIdeal.S2x500000 32) :
    FVec Ideal Cert.ReferenceIdeal.S100000x128 .f32 :=
  Host.scatterAdd Cert.ReferenceIdeal.scatter_S100000x128_S600000x1_S600000x128_1_0_0_1 (val_main_v41 (F := Ideal))
    (val_main_v42 (F := Ideal) x1)
    (mulf (val_main_v39 (F := Ideal) x1)
      (Host.gather Cert.ReferenceIdeal.gather_S100000x128_S600000x1_S600000x128_1_0_n_n_0_1_1128 P (val_main_v37 (F := Ideal) x1)))

/-- The first layer's aggregation is that function of the first product. -/
theorem v43_eq (x0 : FVec Ideal Cert.ReferenceIdeal.S100000x128 .f32) (x1 : IVec Cert.ReferenceIdeal.S2x500000 32)
    (x2 : FVec Ideal Cert.ReferenceIdeal.S128x128 .f32) :
    val_main_v43 (F := Ideal) x0 x1 x2 = refAgg (val_main_v4 (F := Ideal) x0 x2) x1 := rfl

/-- The second layer's aggregation is the same function of the second product. -/
theorem v87_eq (x0 : FVec Ideal Cert.ReferenceIdeal.S100000x128 .f32) (x1 : IVec Cert.ReferenceIdeal.S2x500000 32)
    (x2 : FVec Ideal Cert.ReferenceIdeal.S128x128 .f32) (x3 : FVec Ideal Cert.ReferenceIdeal.S128 .f32)
    (x4 : FVec Ideal Cert.ReferenceIdeal.S128x128 .f32) :
    val_main_v87 (F := Ideal) x0 x1 x2 x3 x4 = refAgg (val_main_v48 (F := Ideal) x0 x1 x2 x3 x4) x1 := rfl

/-- The factor column at row r is the factor of node r. -/
theorem dcol_apply (x1 : IVec Cert.KernelIdeal.S2x500000 32) (r : Fin 100000) : K.dcol x1 (ix2 r c0) = K.dinv x1 (ix1 r) :=
  shapeCast_a_a1_apply (K.dinv x1) _ r c0

/-- The reference's per-edge factor at (e, l): the factor of the source times the factor of the destination. -/
theorem v39_at (x1 : IVec Cert.KernelIdeal.S2x500000 32) (e : Fin 600000) (l : Fin 128) :
    val_main_v39 (F := Ideal) x1 (ix2 e l)
      = K.dinv x1 (ix1 (clampRow hN (K.wrapCol (K.rowF x1)) e)) * K.dinv x1 (ix1 (clampRow hN (K.wrapCol (K.colF x1)) e)) := by
  rw [dinv_eq, wrapSrc_eq, wrapDst_eq, ← wrapSrc_eq']
  exact norm_apply Cert.ReferenceIdeal.Facts₀.gather_S100000_S600000x1_S600000_n_0_n_n_0_1_1_wf
    Cert.ReferenceIdeal.Facts₀.bcast_S600000_S600000x1_0 Cert.ReferenceIdeal.Facts₀.bcast_S600000x1_S600000x128_0_1
    (val_main_v15 (F := Ideal) x1) (val_main_v21 (F := Ideal) x1) (val_main_v28 (F := Ideal) x1) e l

/-- The kernel program's aggregate, with the accumulating scatter as the exact sum and the two records as the row
    scatter and the row gather. -/
theorem aggregate_def (A : FVec Ideal Cert.KernelIdeal.S100000x128 .f32) (x1 : IVec Cert.KernelIdeal.S2x500000 32) :
    K.aggregate A x1
      = Ideal.hostScatterAdd
          (rowScatterDims 100000 600000 128 Cert.KernelIdeal.Facts₀.scatter_S100000x128_S600000x1_S600000x128_1_0_0_1_wf)
          (broadcastInDim Cert.KernelIdeal.S100000x128 ![] Cert.KernelIdeal.Facts₀.bcast_S_S100000x128
            (constant (F := Ideal) Cert.KernelIdeal.S_ .f32 0x00000000#32))
          (K.rawCol (K.colF x1))
          (Host.gather
            (rowGatherDims 100000 600000 128 Cert.KernelIdeal.Facts₀.gather_S100000x128_S600000x1_S600000x128_1_0_n_n_0_1_1128_wf)
            A (K.wrapCol (K.rowF x1))) := rfl

/-- The reference's aggregation in the same form. -/
theorem refAgg_def (P : FVec Ideal Cert.ReferenceIdeal.S100000x128 .f32) (x1 : IVec Cert.ReferenceIdeal.S2x500000 32) :
    refAgg P x1
      = Ideal.hostScatterAdd
          (rowScatterDims 100000 600000 128 Cert.KernelIdeal.Facts₀.scatter_S100000x128_S600000x1_S600000x128_1_0_0_1_wf)
          (val_main_v41 (F := Ideal)) (val_main_v42 (F := Ideal) x1)
          (mulf (F := Ideal) (φ := .f32) (val_main_v39 (F := Ideal) x1)
            (Host.gather
              (rowGatherDims 100000 600000 128 Cert.KernelIdeal.Facts₀.gather_S100000x128_S600000x1_S600000x128_1_0_n_n_0_1_1128_wf)
              P (val_main_v37 (F := Ideal) x1))) := rfl

/-- ONE LAYER'S AGGREGATION: the kernel program's aggregate of A = P · dinv(row), scaled by the factor column, is the
    reference's aggregation of P. -/
theorem aggregate_eq (x1 : IVec Cert.KernelIdeal.S2x500000 32) (A : FVec Ideal Cert.KernelIdeal.S100000x128 .f32)
    (P : FVec Ideal Cert.ReferenceIdeal.S100000x128 .f32)
    (hA : ∀ (r : Fin 100000) (l : Fin 128), A (ix2 r l) = P (ix2 r l) * K.dinv x1 (ix1 r)) (p : Fin 100000) (q : Fin 128) :
    K.aggregate A x1 (ix2 p q) * K.dcol x1 (ix2 p c0) = refAgg P x1 (ix2 p q) := by
  rw [dcol_apply, aggregate_def, refAgg_def, ← wrapSrc_eq, ← rawDst_eq]
  exact agg_law Cert.KernelIdeal.Facts₀.scatter_S100000x128_S600000x1_S600000x128_1_0_0_1_wf
    Cert.KernelIdeal.Facts₀.gather_S100000x128_S600000x1_S600000x128_1_0_n_n_0_1_1128_wf P A (K.dinv x1) (dinv_range x1) hA
    (K.wrapCol (K.rowF x1)) (K.rawCol (K.colF x1)) (K.wrapCol (K.colF x1)) (fun e => wrapCol_of_nonneg (K.colF x1) e)
    (broadcastInDim Cert.KernelIdeal.S100000x128 ![] Cert.KernelIdeal.Facts₀.bcast_S_S100000x128
      (constant (F := Ideal) Cert.KernelIdeal.S_ .f32 0x00000000#32))
    (val_main_v41 (F := Ideal)) (fun _ => Ideal.ofBits_zero_f32) (fun _ => Ideal.ofBits_zero_f32)
    (val_main_v39 (F := Ideal) x1) (v39_at x1) p q

/-! ## The two products -/

/-- The reference's first product at (r, l). -/
theorem v4_at (x0 : FVec Ideal Cert.ReferenceIdeal.S100000x128 .f32) (x2 : FVec Ideal Cert.ReferenceIdeal.S128x128 .f32)
    (r : Fin 100000) (l : Fin 128) : val_main_v4 (F := Ideal) x0 x2 (ix2 r l) = prodAt x0 x2 r l := by
  rw [val_main_v4_apply]
  unfold prodAt
  refine Finset.sum_congr rfl fun k _ => ?_
  have el : lidx_main_v4 (ix2 r l) k = ix2 r k := funext fun a => Fin.ext (by match a with | ⟨0, _⟩ => rfl | ⟨1, _⟩ => rfl)
  have er : ridx_main_v4 (ix2 r l) k = ix2 k l := funext fun a => Fin.ext (by match a with | ⟨0, _⟩ => rfl | ⟨1, _⟩ => rfl)
  rw [el, er]

/-- The reference's second product at (r, l). -/
theorem v48_at (x0 : FVec Ideal Cert.ReferenceIdeal.S100000x128 .f32) (x1 : IVec Cert.ReferenceIdeal.S2x500000 32)
    (x2 : FVec Ideal Cert.ReferenceIdeal.S128x128 .f32) (x3 : FVec Ideal Cert.ReferenceIdeal.S128 .f32)
    (x4 : FVec Ideal Cert.ReferenceIdeal.S128x128 .f32) (r : Fin 100000) (l : Fin 128) :
    val_main_v48 (F := Ideal) x0 x1 x2 x3 x4 (ix2 r l) = prodAt (val_main_v47 (F := Ideal) x0 x1 x2 x3) x4 r l := by
  rw [val_main_v48_apply]
  unfold prodAt
  refine Finset.sum_congr rfl fun k _ => ?_
  have el : lidx_main_v48 (ix2 r l) k = ix2 r k := funext fun a => Fin.ext (by match a with | ⟨0, _⟩ => rfl | ⟨1, _⟩ => rfl)
  have er : ridx_main_v48 (ix2 r l) k = ix2 k l := funext fun a => Fin.ext (by match a with | ⟨0, _⟩ => rfl | ⟨1, _⟩ => rfl)
  rw [el, er]

/-! ## The bias rows -/

theorem brow128_apply (b : FVec Ideal Cert.KernelIdeal.S128 .f32) (l : Fin 128) : K.brow128 b (ix2 c0 l) = b (ix1 l) :=
  shapeCast_a_1a_apply b _ c0 l

theorem v45_at (x3 : FVec Ideal Cert.ReferenceIdeal.S128 .f32) (r : Fin 100000) (l : Fin 128) :
    val_main_v45 (F := Ideal) x3 (ix2 r l) = x3 (ix1 l) := by
  unfold val_main_v45 val_main_v44
  exact bias_rows_apply x3 _ _ r l

theorem v89_at (x5 : FVec Ideal Cert.ReferenceIdeal.S128 .f32) (r : Fin 100000) (l : Fin 128) :
    val_main_v89 (F := Ideal) x5 (ix2 r l) = x5 (ix1 l) := by
  unfold val_main_v89 val_main_v88
  exact bias_rows_apply x5 _ _ r l

/-! ## The layers -/

/-- The first layer after its positive part. -/
theorem hidden_eq (x0 : FVec Ideal Cert.KernelIdeal.S100000x128 .f32) (x1 : IVec Cert.KernelIdeal.S2x500000 32)
    (x2 : FVec Ideal Cert.KernelIdeal.S128x128 .f32) (x3 : FVec Ideal Cert.KernelIdeal.S128 .f32) :
    hidden (K.aggregate (K.stage0 x0 x1 x2) x1) (K.dcol x1) (K.brow128 x3) = val_main_v47 (F := Ideal) x0 x1 x2 x3 := by
  funext j
  obtain ⟨r, l, rfl⟩ : ∃ (r : Fin 100000) (l : Fin 128), j = ix2 r l := ⟨j 0, j 1, eq_ix2 j⟩
  have hA : ∀ (r : Fin 100000) (l : Fin 128),
      K.stage0 x0 x1 x2 (ix2 r l) = val_main_v4 (F := Ideal) x0 x2 (ix2 r l) * K.dinv x1 (ix1 r) := fun r l => by
    unfold K.stage0
    rw [scaledProd_apply, dcol_apply, v4_at]
  rw [hidden_apply, aggregate_eq x1 _ _ hA r l, brow128_apply, val_main_v47_apply, val_main_v46_apply, v43_eq, v45_at,
    Ideal.maximumf_def, Ideal.addf_def]
  rfl

/-- THE ENCODER. -/
theorem nodeEmb_eq (x0 : FVec Ideal Cert.KernelIdeal.S100000x128 .f32) (x1 : IVec Cert.KernelIdeal.S2x500000 32) (x2 : FVec Ideal Cert.KernelIdeal.S128x128 .f32) (x3 : FVec Ideal Cert.KernelIdeal.S128 .f32)
    (x4 : FVec Ideal Cert.KernelIdeal.S128x128 .f32) (x5 : FVec Ideal Cert.KernelIdeal.S128 .f32) :
    K.nodeEmb x0 x1 x2 x3 x4 x5 = val_main_v90 (F := Ideal) x0 x1 x2 x3 x4 x5 := by
  funext j
  obtain ⟨p, q, rfl⟩ : ∃ (p : Fin 100000) (q : Fin 128), j = ix2 p q := ⟨j 0, j 1, eq_ix2 j⟩
  have hA : ∀ (r : Fin 100000) (l : Fin 128),
      K.stage1 x0 x1 x2 x3 x4 (ix2 r l) = val_main_v48 (F := Ideal) x0 x1 x2 x3 x4 (ix2 r l) * K.dinv x1 (ix1 r) := fun r l => by
    unfold K.stage1 layer2
    rw [scaledProd_apply, dcol_apply, hidden_eq, v48_at]
  unfold K.nodeEmb
  rw [scaleBias_apply, aggregate_eq x1 _ _ hA p q, brow128_apply, val_main_v90_apply, v87_eq, v89_at, Ideal.addf_def]

end Cert.Gcn.Enc

end
-- ==== Proof.LibConcatRead.lean ====
/-
  A concatenation read at an index given by coordinates.
  For two matrices joined side by side (along the columns) or one above the other (along the rows), for two vectors
  joined end to end, and for three matrices joined side by side: an index whose joined coordinate falls in a piece reads
  that piece at the same coordinates, the joined coordinate less the extents of the pieces before it.
-/
import Idealize.ShloMosaic.Lib.Pipeline.Value
import Idealize.ShloMosaic.Lib.ValueIdx

namespace Idealize.ShloMosaic.ValueIdx

open Idealize.ShloMosaic

variable {α : Type}

/-- Two matrices side by side, read in the LEFT one: column `q' = q`. -/
theorem concat_cols_left {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n1) (q' : Fin n)
    (hq : q'.val = q.val) :
    concatenate ⟨2, ![a, n]⟩ 1 [⟨⟨2, ![a, n1]⟩, X⟩, ⟨⟨2, ![a, n2]⟩, Y⟩] h (ix2 p q') = X (ix2 p q) :=
  concatenate_pair_apply_left 1 X Y h (ix2 p q') rfl (ix2 p q) (fun b => by
    match b with
    | ⟨0, _⟩ => rfl
    | ⟨1, _⟩ => exact hq.symm)

/-- Two matrices side by side, read in the RIGHT one: column `q' = n1 + q`. -/
theorem concat_cols_right {a n1 n2 n : ℕ} (X : (⟨2, ![a, n1]⟩ : Shape).Idx → α) (Y : (⟨2, ![a, n2]⟩ : Shape).Idx → α)
    (h : Shape.Concatenates [⟨2, ![a, n1]⟩, ⟨2, ![a, n2]⟩] ⟨2, ![a, n]⟩ 1) (p : Fin a) (q : Fin n2) (q' : Fin n)
    (hq : q'.val = n1 + q.val) :
    concatenate ⟨2, ![a, n]⟩ 1 [⟨⟨2, ![a, n1]⟩, X⟩, ⟨⟨2, ![a, n2]⟩, Y⟩] h (ix2 p q') = Y (ix2 p q) :=
  concatenate_pair_apply_right 1 X Y h (ix2 p q') rfl rfl (ix2 p q) (fun b hb => by
    match b, hb with
    | ⟨0, _⟩, _ => rfl
    | ⟨1, _⟩, hb => exact absurd rfl hb) (by show q.val + n1 = q'.val; omega)

/-- Two matrices one above the other, read in the TOP one: row `p' = p`. -/
theorem concat_rows_top {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a1) (p' : Fin a) (q : Fin n)
    (hp : p'.val = p.val) :
    concatenate ⟨2, ![a, n]⟩ 0 [⟨⟨2, ![a1, n]⟩, X⟩, ⟨⟨2, ![a2, n]⟩, Y⟩] h (ix2 p' q) = X (ix2 p q) :=
  concatenate_pair_apply_left 0 X Y h (ix2 p' q) rfl (ix2 p q) (fun b => by
    match b with
    | ⟨0, _⟩ => exact hp.symm
    | ⟨1, _⟩ => rfl)

/-- Two matrices one above the other, read in the BOTTOM one: row `p' = a1 + p`. -/
theorem concat_rows_bottom {a1 a2 a n : ℕ} (X : (⟨2, ![a1, n]⟩ : Shape).Idx → α) (Y : (⟨2, ![a2, n]⟩ : Shape).Idx → α)
    (h : Shape.Concatenates [⟨2, ![a1, n]⟩, ⟨2, ![a2, n]⟩] ⟨2, ![a, n]⟩ 0) (p : Fin a2) (p' : Fin a) (q : Fin n)
    (hp : p'.val = a1 + p.val) :
    concatenate ⟨2, ![a, n]⟩ 0 [⟨⟨2, ![a1, n]⟩, X⟩, ⟨⟨2, ![a2, n]⟩, Y⟩] h (ix2 p' q) = Y (ix2 p q) :=
  concatenate_pair_apply_right 0 X Y h (ix2 p' q) rfl rfl (ix2 p q) (fun b hb => by
    match b, hb with
    | ⟨0, _⟩, hb => exact absurd rfl hb
    | ⟨1, _⟩, _ => rfl) (by show p.val + a1 = p'.val; omega)

/-- Two vectors end to end, read in the FIRST: position `q' = q`. -/
theorem concat_vec_first {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n1) (q' : Fin n) (hq : q'.val = q.val) :
    concatenate ⟨1, ![n]⟩ 0 [⟨⟨1, ![n1]⟩, x⟩, ⟨⟨1, ![n2]⟩, y⟩] h (ix1 q') = x (ix1 q) :=
  concatenate_pair_apply_left 0 x y h (ix1 q') rfl (ix1 q) (fun b => by
    match b with
    | ⟨0, _⟩ => exact hq.symm)

/-- Two vectors end to end, read in the SECOND: position `q' = n1 + q`. -/
theorem concat_vec_second {n1 n2 n : ℕ} (x : (⟨1, ![n1]⟩ : Shape).Idx → α) (y : (⟨1, ![n2]⟩ : Shape).Idx → α)
    (h : Shape.Concatenates [⟨1, ![n1]⟩, ⟨1, ![n2]⟩] ⟨1, ![n]⟩ 0) (q : Fin n2) (q' : Fin n) (hq : q'.val = n1 + q.val) :
    concatenate ⟨1, ![n]⟩ 0 [⟨⟨1, ![n1]⟩, x⟩, ⟨⟨1, ![n2]⟩, y⟩] h (ix1 q') = y (ix1 q) :=
  concatenate_pair_apply_right 0 x y h (ix1 q') rfl rfl (ix1 q) (fun b hb => by
    match b, hb with
    | ⟨0, _⟩, hb => exact absurd rfl hb) (by show q.val + n1 = q'.val; omega)

/-- Three matrices side by side, read in the FIRST: column `q' = q`. -/
theorem concat3_cols_first {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n0) (q' : Fin n)
    (hq : q'.val = q.val) :
    concatenate ⟨2, ![a, n]⟩ 1 [⟨⟨2, ![a, n0]⟩, X0⟩, ⟨⟨2, ![a, n1]⟩, X1⟩, ⟨⟨2, ![a, n2]⟩, X2⟩] h (ix2 p q') = X0 (ix2 p q) :=
  concatenate_apply_piece 1 [⟨⟨2, ![a, n0]⟩, X0⟩, ⟨⟨2, ![a, n1]⟩, X1⟩, ⟨⟨2, ![a, n2]⟩, X2⟩] h (ix2 p q') 0 (by simp) _ X0 rfl rfl
    0 rfl (ix2 p q) (fun b hb => by
      match b, hb with
      | ⟨0, _⟩, _ => rfl
      | ⟨1, _⟩, hb => exact absurd rfl hb) (by show 0 + q.val = q'.val; omega)

/-- Three matrices side by side, read in the SECOND: column `q' = n0 + q`. -/
theorem concat3_cols_second {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n1) (q' : Fin n)
    (hq : q'.val = n0 + q.val) :
    concatenate ⟨2, ![a, n]⟩ 1 [⟨⟨2, ![a, n0]⟩, X0⟩, ⟨⟨2, ![a, n1]⟩, X1⟩, ⟨⟨2, ![a, n2]⟩, X2⟩] h (ix2 p q') = X1 (ix2 p q) :=
  concatenate_apply_piece 1 [⟨⟨2, ![a, n0]⟩, X0⟩, ⟨⟨2, ![a, n1]⟩, X1⟩, ⟨⟨2, ![a, n2]⟩, X2⟩] h (ix2 p q') 1 (by simp) _ X1 rfl rfl
    n0 (by simp) (ix2 p q) (fun b hb => by
      match b, hb with
      | ⟨0, _⟩, _ => rfl
      | ⟨1, _⟩, hb => exact absurd rfl hb) (by show n0 + q.val = q'.val; omega)

/-- Three matrices side by side, read in the THIRD: column `q' = n0 + n1 + q`. -/
theorem concat3_cols_third {a n0 n1 n2 n : ℕ} (X0 : (⟨2, ![a, n0]⟩ : Shape).Idx → α) (X1 : (⟨2, ![a, n1]⟩ : Shape).Idx → α)
    (X2 : (⟨2, ![a, n2]⟩ : Shape).Idx → α)
    (h : Shape.Concatenates [⟨2, ![a, n0]⟩, ⟨2, ![a, n1]⟩, ⟨2, ![a, n2]⟩] ⟨2, ![a, n]⟩ 1) (p : Fin a) (q : Fin n2) (q' : Fin n)
    (hq : q'.val = n0 + n1 + q.val) :
    concatenate ⟨2, ![a, n]⟩ 1 [⟨⟨2, ![a, n0]⟩, X0⟩, ⟨⟨2, ![a, n1]⟩, X1⟩, ⟨⟨2, ![a, n2]⟩, X2⟩] h (ix2 p q') = X2 (ix2 p q) :=
  concatenate_apply_piece 1 [⟨⟨2, ![a, n0]⟩, X0⟩, ⟨⟨2, ![a, n1]⟩, X1⟩, ⟨⟨2, ![a, n2]⟩, X2⟩] h (ix2 p q') 2 (by simp) _ X2 rfl rfl
    (n0 + n1) (by simp) (ix2 p q) (fun b hb => by
      match b, hb with
      | ⟨0, _⟩, _ => rfl
      | ⟨1, _⟩, hb => exact absurd rfl hb) (by show n0 + n1 + q.val = q'.val; omega)

end Idealize.ShloMosaic.ValueIdx
-- ==== Proof.HeadLogits.lean ====
/-
  The edge head's logits: the three layers applied to the two gathered endpoint rows are the reference's logits.

  The reference joins the two endpoint rows of an edge into one 256-wide row and contracts it with the whole edge
  weight matrix; the sum over the 256 joined coordinates is the sum over the first 128 (the first row against the top
  half of the matrix) plus the sum over the last 128 (the second row against the bottom half). Each bias is a vector
  repeated down the rows on one side and the same vector as a one-row matrix on the other: both read b(l) at (r, l).
  The positive parts compare against the same zero word. The endpoint rows themselves are the same gather of the same
  array through the same column of wrapped node numbers.
-/
import proofs.«124494_j37151467111037_2_alg».proof.Proof.KSpec
import proofs.«124494_j37151467111037_2_alg».proof.Proof.RefReadP
import proofs.«124494_j37151467111037_2_alg».proof.Proof.LibConcatRead
import proofs.«124494_j37151467111037_2_alg».proof.Proof.LibBiasRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Head

open Idealize.ShloMosaic Idealize.ShloMosaic.ValueIdx Cert.Gcn Cert.ReferenceIdeal Cert.ReferenceIdeal.Gen Cert.ReferenceIdeal.ReadP

/-! ## The 256-long contraction split into its halves -/

/-- A sum over 256 coordinates is the sum over the first 128 plus the sum over the last 128. -/
theorem sum_256_halves (f : Fin 256 → EReal) :
    ∑ k : Fin 256, f k = ∑ j : Fin 128, f ⟨j.val, by omega⟩ + ∑ j : Fin 128, f ⟨128 + j.val, by omega⟩ :=
  Fin.sum_univ_add (a := 128) (b := 128) f

/-- The top half of a 256 × 128 matrix, read at an entry. -/
theorem top_half_apply (W : Mat 256 128) (hT : (⟨2, ![256, 128]⟩ : Shape).Slices ![0, 0] ⟨2, ![128, 128]⟩)
    (j q : Fin 128) (j' : Fin 256) (hj : j'.val = j.val) :
    extractStridedSlice ⟨2, ![128, 128]⟩ ![0, 0] W hT (ix2 j q) = W (ix2 j' q) :=
  extractStridedSlice_apply ![0, 0] W hT (ix2 j q) (ix2 j' q) (fun a => by
    match a with
    | ⟨0, _⟩ => show j'.val = 0 + j.val; omega
    | ⟨1, _⟩ => show q.val = 0 + q.val; omega)

/-- The bottom half of a 256 × 128 matrix, read at an entry. -/
theorem bottom_half_apply (W : Mat 256 128) (hB : (⟨2, ![256, 128]⟩ : Shape).Slices ![128, 0] ⟨2, ![128, 128]⟩)
    (j q : Fin 128) (j' : Fin 256) (hj : j'.val = 128 + j.val) :
    extractStridedSlice ⟨2, ![128, 128]⟩ ![128, 0] W hB (ix2 j q) = W (ix2 j' q) :=
  extractStridedSlice_apply ![128, 0] W hB (ix2 j q) (ix2 j' q) (fun a => by
    match a with
    | ⟨0, _⟩ => show j'.val = 128 + j.val; omega
    | ⟨1, _⟩ => show q.val = 0 + q.val; omega)

/-- Against the two endpoint rows joined into one 256-wide row, the contraction with the whole edge weight matrix is
    the contraction of the first row with the top half plus the contraction of the second row with the bottom half. -/
theorem joined_contraction (R C : Mat 500000 128) (W : Mat 256 128)
    (hcat : Shape.Concatenates [⟨2, ![500000, 128]⟩, ⟨2, ![500000, 128]⟩] ⟨2, ![500000, 256]⟩ 1)
    (hT : (⟨2, ![256, 128]⟩ : Shape).Slices ![0, 0] ⟨2, ![128, 128]⟩)
    (hB : (⟨2, ![256, 128]⟩ : Shape).Slices ![128, 0] ⟨2, ![128, 128]⟩) (e : Fin 500000) (q : Fin 128) :
    ∑ k : Fin 256, concatenate ⟨2, ![500000, 256]⟩ 1 [⟨⟨2, ![500000, 128]⟩, R⟩, ⟨⟨2, ![500000, 128]⟩, C⟩] hcat (ix2 e k) * W (ix2 k q)
      = prodAt R (extractStridedSlice ⟨2, ![128, 128]⟩ ![0, 0] W hT) e q
        + prodAt C (extractStridedSlice ⟨2, ![128, 128]⟩ ![128, 0] W hB) e q := by
  rw [sum_256_halves]
  unfold prodAt
  refine congrArg₂ (· + ·) (Finset.sum_congr rfl fun j _ => ?_) (Finset.sum_congr rfl fun j _ => ?_)
  · rw [concat_cols_left R C hcat e j ⟨j.val, by omega⟩ rfl, top_half_apply W hT j q ⟨j.val, by omega⟩ rfl]
  · rw [concat_cols_right R C hcat e j ⟨128 + j.val, by omega⟩ rfl, bottom_half_apply W hB j q ⟨128 + j.val, by omega⟩ rfl]

/-! ## The reference's index maps at coordinates -/

theorem lidx106 (e : Fin 500000) (q : Fin 128) (k : Fin 256) : lidx_main_v106 (ix2 e q) k = ix2 e k :=
  funext fun a => Fin.ext (by match a with | ⟨0, _⟩ => rfl | ⟨1, _⟩ => rfl)
theorem ridx106 (e : Fin 500000) (q : Fin 128) (k : Fin 256) : ridx_main_v106 (ix2 e q) k = ix2 k q :=
  funext fun a => Fin.ext (by match a with | ⟨0, _⟩ => rfl | ⟨1, _⟩ => rfl)
theorem lidx111 (e : Fin 500000) (q : Fin 64) (k : Fin 128) : lidx_main_v111 (ix2 e q) k = ix2 e k :=
  funext fun a => Fin.ext (by match a with | ⟨0, _⟩ => rfl | ⟨1, _⟩ => rfl)
theorem ridx111 (e : Fin 500000) (q : Fin 64) (k : Fin 128) : ridx_main_v111 (ix2 e q) k = ix2 k q :=
  funext fun a => Fin.ext (by match a with | ⟨0, _⟩ => rfl | ⟨1, _⟩ => rfl)
theorem lidx116 (e : Fin 500000) (q : Fin 2) (k : Fin 64) : lidx_main_v116 (ix2 e q) k = ix2 e k :=
  funext fun a => Fin.ext (by match a with | ⟨0, _⟩ => rfl | ⟨1, _⟩ => rfl)
theorem ridx116 (e : Fin 500000) (q : Fin 2) (k : Fin 64) : ridx_main_v116 (ix2 e q) k = ix2 k q :=
  funext fun a => Fin.ext (by match a with | ⟨0, _⟩ => rfl | ⟨1, _⟩ => rfl)

/-! ## The biases: a vector repeated down the rows against the same vector as a one-row matrix -/

theorem bias128_read (x7 : (⟨S128, .f32⟩ : BufTy).Contents (Elt Ideal)) (e : Fin 500000) (q : Fin 128) :
    val_main_v108 (F := Ideal) x7 (ix2 e q) = K.brow128 x7 (ix2 c0 q) :=
  (bias_rows_apply (M := 500000) (n := 128) x7 bcast_S128_S1x128_1 bcast_S1x128_S500000x128_0_1 e q).trans
    (shapeCast_a_1a_apply (a := 128) x7 Cert.KernelIdeal.Facts₀.shapeCasts_S128_S1x128 c0 q).symm

theorem bias64_read (x9 : (⟨S64, .f32⟩ : BufTy).Contents (Elt Ideal)) (e : Fin 500000) (q : Fin 64) :
    val_main_v113 (F := Ideal) x9 (ix2 e q) = K.brow64 x9 (ix2 c0 q) :=
  (bias_rows_apply (M := 500000) (n := 64) x9 bcast_S64_S1x64_1 bcast_S1x64_S500000x64_0_1 e q).trans
    (shapeCast_a_1a_apply (a := 64) x9 Cert.KernelIdeal.Facts₀.shapeCasts_S64_S1x64 c0 q).symm

theorem bias2_read (x11 : (⟨S2, .f32⟩ : BufTy).Contents (Elt Ideal)) (e : Fin 500000) (q : Fin 2) :
    val_main_v118 (F := Ideal) x11 (ix2 e q) = K.brow2 x11 (ix2 c0 q) :=
  (bias_rows_apply (M := 500000) (n := 2) x11 bcast_S2_S1x2_1 bcast_S1x2_S500000x2_0_1 e q).trans
    (shapeCast_a_1a_apply (a := 2) x11 Cert.KernelIdeal.Facts₀.shapeCasts_S2_S1x2 c0 q).symm

/-! ## The layers, as equalities of whole arrays -/

section
variable (x0 : (⟨S100000x128, .f32⟩ : BufTy).Contents (Elt Ideal)) (x1 : (⟨S2x500000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))
  (x10 : (⟨S64x2, .f32⟩ : BufTy).Contents (Elt Ideal)) (x11 : (⟨S2, .f32⟩ : BufTy).Contents (Elt Ideal))

/-- The edge features before the positive part: the joined contraction plus the bias. -/
theorem edgePre_eq :
    edgePre (val_main_v97 (F := Ideal) x0 x1 x2 x3 x4 x5) (val_main_v104 (F := Ideal) x0 x1 x2 x3 x4 x5) (extractStridedSlice Cert.KernelIdeal.S128x128 ![0, 0] x6 Cert.KernelIdeal.Facts₀.slices_S256x128_S128x128_0_0) (extractStridedSlice Cert.KernelIdeal.S128x128 ![128, 0] x6 Cert.KernelIdeal.Facts₀.slices_S256x128_S128x128_128_0) (K.brow128 x7)
      = val_main_v109 (F := Ideal) x0 x1 x2 x3 x4 x5 x6 x7 := by
  funext i
  obtain ⟨e, q, rfl⟩ : ∃ (e : Fin 500000) (q : Fin 128), i = ix2 e q := ⟨i 0, i 1, eq_ix2 i⟩
  rw [edgePre_apply, val_main_v109_apply, val_main_v106_apply, Ideal.addf_def]
  refine congrArg₂ (· + ·) ?_ (bias128_read x7 e q).symm
  unfold val_main_v105
  generalize val_main_v97 (F := Ideal) x0 x1 x2 x3 x4 x5 = R
  generalize val_main_v104 (F := Ideal) x0 x1 x2 x3 x4 x5 = C
  simp only [lidx106, ridx106]
  exact (joined_contraction R C x6 _ _ _ e q).symm

/-- The positive part of the edge features. -/
theorem relu109_eq : relu (val_main_v109 (F := Ideal) x0 x1 x2 x3 x4 x5 x6 x7) = val_main_v110 (F := Ideal) x0 x1 x2 x3 x4 x5 x6 x7 := by
  funext i
  rw [relu_apply, val_main_v110_apply, val_main_call3_v0_apply, val_main_call3_cst_apply, Ideal.maximumf_def, Ideal.ofBits_def]

/-- The first dense layer. -/
theorem dense114_eq : dense (val_main_v110 (F := Ideal) x0 x1 x2 x3 x4 x5 x6 x7) x8 (K.brow64 x9) = val_main_v114 (F := Ideal) x0 x1 x2 x3 x4 x5 x6 x7 x8 x9 := by
  funext i
  obtain ⟨e, q, rfl⟩ : ∃ (e : Fin 500000) (q : Fin 64), i = ix2 e q := ⟨i 0, i 1, eq_ix2 i⟩
  rw [dense_apply, val_main_v114_apply, val_main_v111_apply, Ideal.addf_def]
  refine congrArg₂ (· + ·) ?_ (bias64_read x9 e q).symm
  unfold prodAt
  generalize val_main_v110 (F := Ideal) x0 x1 x2 x3 x4 x5 x6 x7 = H
  exact Finset.sum_congr rfl fun k _ => by rw [lidx111, ridx111]

/-- The positive part of the first dense layer. -/
theorem relu114_eq : relu (val_main_v114 (F := Ideal) x0 x1 x2 x3 x4 x5 x6 x7 x8 x9) = val_main_v115 (F := Ideal) x0 x1 x2 x3 x4 x5 x6 x7 x8 x9 := by
  funext i
  rw [relu_apply, val_main_v115_apply, val_main_call4_v0_apply, val_main_call4_cst_apply, Ideal.maximumf_def, Ideal.ofBits_def]

/-- The second dense layer: the two logits. -/
theorem dense119_eq : dense (val_main_v115 (F := Ideal) x0 x1 x2 x3 x4 x5 x6 x7 x8 x9) x10 (K.brow2 x11) = val_main_v119 (F := Ideal) x0 x1 x2 x3 x4 x5 x6 x7 x8 x9 x10 x11 := by
  funext i
  obtain ⟨e, q, rfl⟩ : ∃ (e : Fin 500000) (q : Fin 2), i = ix2 e q := ⟨i 0, i 1, eq_ix2 i⟩
  rw [dense_apply, val_main_v119_apply, val_main_v116_apply, Ideal.addf_def]
  refine congrArg₂ (· + ·) ?_ (bias2_read x11 e q).symm
  unfold prodAt
  generalize val_main_v115 (F := Ideal) x0 x1 x2 x3 x4 x5 x6 x7 x8 x9 = H
  exact Finset.sum_congr rfl fun k _ => by rw [lidx116, ridx116]

/-- THE LOGITS: the three layers applied to the reference's two gathered endpoint rows are the reference's logits. -/
theorem logits_eq :
    logits (val_main_v97 (F := Ideal) x0 x1 x2 x3 x4 x5) (val_main_v104 (F := Ideal) x0 x1 x2 x3 x4 x5) (extractStridedSlice Cert.KernelIdeal.S128x128 ![0, 0] x6 Cert.KernelIdeal.Facts₀.slices_S256x128_S128x128_0_0) (extractStridedSlice Cert.KernelIdeal.S128x128 ![128, 0] x6 Cert.KernelIdeal.Facts₀.slices_S256x128_S128x128_128_0) (K.brow128 x7) x8 (K.brow64 x9) x10 (K.brow2 x11)
      = val_main_v119 (F := Ideal) x0 x1 x2 x3 x4 x5 x6 x7 x8 x9 x10 x11 := by
  unfold logits
  rw [edgePre_eq, relu109_eq, dense114_eq, relu114_eq, dense119_eq]

end

/-! ## The endpoint gathers: the same wrapped index columns, the same gather -/

/-- The wrapped source column is the reference's. -/
theorem wrap_row (x1 : (⟨S2x500000, .i32⟩ : BufTy).Contents (Elt Ideal)) :
    K.wrapColE (K.rowI x1) = val_main_v96 (F := Ideal) x1 := rfl

/-- The wrapped destination column is the reference's. -/
theorem wrap_col (x1 : (⟨S2x500000, .i32⟩ : BufTy).Contents (Elt Ideal)) :
    K.wrapColE (K.colI x1) = val_main_v103 (F := Ideal) x1 := rfl

section
variable (x0 : (⟨S100000x128, .f32⟩ : BufTy).Contents (Elt Ideal)) (x1 : (⟨S2x500000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x64, .f32⟩ : BufTy).Contents (Elt Ideal)) (x9 : (⟨S64, .f32⟩ : BufTy).Contents (Elt Ideal))
  (x10 : (⟨S64x2, .f32⟩ : BufTy).Contents (Elt Ideal)) (x11 : (⟨S2, .f32⟩ : BufTy).Contents (Elt Ideal))

/-- The source endpoints' embeddings are the reference's first gather. -/
theorem endpoint_row_eq : K.endpoint (val_main_v90 (F := Ideal) x0 x1 x2 x3 x4 x5) (K.rowI x1) = val_main_v97 (F := Ideal) x0 x1 x2 x3 x4 x5 := by
  unfold K.endpoint val_main_v97
  rw [wrap_row]
  generalize val_main_v90 (F := Ideal) x0 x1 x2 x3 x4 x5 = E
  generalize val_main_v96 (F := Ideal) x1 = c
  rfl

/-- The destination endpoints' embeddings are the reference's second gather. -/
theorem endpoint_col_eq : K.endpoint (val_main_v90 (F := Ideal) x0 x1 x2 x3 x4 x5) (K.colI x1) = val_main_v104 (F := Ideal) x0 x1 x2 x3 x4 x5 := by
  unfold K.endpoint val_main_v104
  rw [wrap_col]
  generalize val_main_v90 (F := Ideal) x0 x1 x2 x3 x4 x5 = E
  generalize val_main_v103 (F := Ideal) x1 = c
  rfl

end

end Cert.Gcn.Head

end
-- ==== Proof.HeadAssembly.lean ====
/-
  The edge head assembled: from equal node embeddings, and the reference's softmax tail read at an edge as the second
  probability of the edge's two logits, the kernel program's result is the reference's. Both results are the one
  column of per-edge probabilities cast to a vector; at edge e both are the second probability of the two logits of e,
  and the logits agree because the endpoint rows, the three layers and their biases agree.
-/
import proofs.«124494_j37151467111037_2_alg».proof.Proof.HeadLogits
import proofs.«124494_j37151467111037_2_alg».proof.Proof.LibColumnCast

noncomputable section

open scoped BigOperators

namespace Cert.Gcn.Head

open Idealize.ShloMosaic Idealize.ShloMosaic.ValueIdx Cert.Gcn Cert.ReferenceIdeal.ReadP

/-- The reference's last reshape reads, at edge e, the one column of the probabilities at (e, 0). -/
theorem idx132 (e : Fin 500000) : idx_main_v132 (ix1 e) = ix2 e c0 :=
  funext fun a => Fin.ext (by match a with | ⟨0, _⟩ => exact Nat.div_one _ | ⟨1, _⟩ => rfl)

/-- From equal node embeddings, and the reference's softmax tail read as the second probability of its two logits,
    to equal results. -/
theorem result_eq_of_tail (x0 : FVec Ideal Cert.KernelIdeal.S100000x128 .f32) (x1 : IVec Cert.KernelIdeal.S2x500000 32) (x2 : FVec Ideal Cert.KernelIdeal.S128x128 .f32) (x3 : FVec Ideal Cert.KernelIdeal.S128 .f32)
    (x4 : FVec Ideal Cert.KernelIdeal.S128x128 .f32) (x5 : FVec Ideal Cert.KernelIdeal.S128 .f32) (x6 : FVec Ideal Cert.KernelIdeal.S256x128 .f32) (x7 : FVec Ideal Cert.KernelIdeal.S128 .f32)
    (x8 : FVec Ideal Cert.KernelIdeal.S128x64 .f32) (x9 : FVec Ideal Cert.KernelIdeal.S64 .f32) (x10 : FVec Ideal Cert.KernelIdeal.S64x2 .f32) (x11 : FVec Ideal Cert.KernelIdeal.S2 .f32)
    (hE : K.nodeEmb x0 x1 x2 x3 x4 x5 = val_main_v90 (F := Ideal) x0 x1 x2 x3 x4 x5)
    (hTail : ∀ e : Fin 500000, val_main_v131 (F := Ideal) x0 x1 x2 x3 x4 x5 x6 x7 x8 x9 x10 x11 (ix2 e c0)
      = prob1 (val_main_v119 (F := Ideal) x0 x1 x2 x3 x4 x5 x6 x7 x8 x9 x10 x11 (ix2 e (⟨0, by decide⟩ : Fin 2)))
          (val_main_v119 (F := Ideal) x0 x1 x2 x3 x4 x5 x6 x7 x8 x9 x10 x11 (ix2 e (⟨1, by decide⟩ : Fin 2)))) :
    K.result x0 x1 x2 x3 x4 x5 x6 x7 x8 x9 x10 x11 = val_main_v132 (F := Ideal) x0 x1 x2 x3 x4 x5 x6 x7 x8 x9 x10 x11 := by
  funext i
  obtain ⟨e, rfl⟩ : ∃ e : Fin 500000, i = ix1 e := ⟨i 0, eq_ix1 i⟩
  rw [val_main_v132_apply, idx132, hTail e]
  unfold K.result K.stage3
  rw [shapeCast_a1_a_apply, edgeHead_apply, hE, endpoint_row_eq, endpoint_col_eq, logits_eq]

end Cert.Gcn.Head

end
-- ==== Proof.LibHostTwoLanes.lean ====
/-
  The host program's reductions along the rows of a two-column matrix.

  A reduce of an [a, 2] matrix over its second axis combines, for every row, the initial value and the row's two
  entries. With a maximum body started from the word of minus infinity the result at row i is max(x(i,0), x(i,1));
  with an add body it is the initial value plus x(i,0) + x(i,1). (The vector unit's forms are
  `multiReduction_maximumf_two_apply` and `multiReduction_add_two_apply`.)
-/
import proofs.«124494_j37151467111037_2_alg».proof.Proof.LibTwoLanes

open scoped BigOperators

namespace Idealize.ShloMosaic.ValueIdx

open Idealize.ShloMosaic

/-- The host's reduce of an `[a, 2]` matrix over axis 1 with a maximum body, started from minus infinity, read at row
    `i`: the larger of the row's two entries. -/
theorem hostReduce_maximumf_two_apply {a : ℕ} (x : FVec Ideal ⟨2, ![a, 2]⟩ .f32)
    (init : (⟨0, ![]⟩ : Shape).Idx → Ideal .f32) (h' : (⟨2, ![a, 2]⟩ : Shape).ReducesTo [1] ⟨1, ![a]⟩)
    (h : (⟨2, ![a, 2]⟩ : Shape).Reduces [1] ⟨1, ![a]⟩) (hu : 0 < (⟨0, ![]⟩ : Shape).numel)
    (hinit : init (Shape.Idx.first hu) = (⊥ : EReal)) (i : Fin a) :
    Host.reduce FloatOps.maximumf x init h' hu (ix1 i) = max (x (ix2 i (0 : Fin 2))) (x (ix2 i (1 : Fin 2))) := by
  refine (Host.reduce_eq_fold_single FloatOps.maximumf x init h' h hu (ix1 i)).trans ?_
  refine Eq.trans ?_ ((fold_max_univ_two (fun c : Fin 2 => x (ix2 i c)) (init (Shape.Idx.first hu))).trans ?_)
  · exact congrArg (fun f => Finset.fold max (init (Shape.Idx.first hu)) f (Finset.univ : Finset (Fin 2)))
      (funext fun c => congrArg x (reduces_rows_lift h i c))
  · rw [hinit, max_bot_right]

/-- The host's float sum of an `[a, 2]` matrix over axis 1, at the exact extended reals, read at row `i`: the initial
    value plus the sum of the row's two entries. -/
theorem hostReduceAdd_two_apply {a : ℕ} {φ : FTy} (x : FVec Ideal ⟨2, ![a, 2]⟩ φ)
    (init : (⟨0, ![]⟩ : Shape).Idx → Ideal φ) (h' : (⟨2, ![a, 2]⟩ : Shape).ReducesTo [1] ⟨1, ![a]⟩)
    (h : (⟨2, ![a, 2]⟩ : Shape).Reduces [1] ⟨1, ![a]⟩) (hu : 0 < (⟨0, ![]⟩ : Shape).numel) (i : Fin a) :
    Host.reduceAdd x init h' hu (ix1 i)
      = init (Shape.Idx.first hu) + (x (ix2 i (0 : Fin 2)) + x (ix2 i (1 : Fin 2))) := by
  simp only [Host.reduceAdd, Ideal.hostReduceAdd_def]
  rw [Ideal.hostReduceAdd_single h' h]
  refine congrArg (init (Shape.Idx.first hu) + ·) ?_
  refine Eq.trans ?_ (Fin.sum_univ_two (fun c : Fin 2 => x (ix2 i c)))
  exact Finset.sum_congr rfl fun c _ => congrArg x (reduces_rows_lift h i c)

end Idealize.ShloMosaic.ValueIdx
-- ==== Proof.HeadSoftmax.lean ====
/-
  The reference's two-class softmax, as a function of the logits.

  From the [500000, 2] array L of logits the reference takes each row's maximum m (a maximum-reduce from minus
  infinity, compared once more with minus infinity), subtracts it, exponentiates, divides by the row's sum of the two
  exponentials, and keeps column 1: for edge e the result is
      exp(L(e,1) − m) / (exp(L(e,0) − m) + exp(L(e,1) − m)),   m = max(L(e,0), L(e,1)).
  The chain of operations is written once as a function of an arbitrary logits array, read at an edge, and
  identified with the reference's last stages applied to its own logits.
-/
import proofs.«124494_j37151467111037_2_alg».proof.Proof.RefReadP
import proofs.«124494_j37151467111037_2_alg».proof.Proof.Spec
import proofs.«124494_j37151467111037_2_alg».proof.Proof.LibHostTwoLanes
import Idealize.ShloMosaic.Lib.ValueIdx
import Idealize.ShloMosaic.Lib.Pipeline.Value
import Idealize.ShloMosaic.PureOps.Ideal.Laws

noncomputable section

open scoped BigOperators

namespace Cert.Gcn.HeadTail

open Idealize.ShloMosaic Idealize.ShloMosaic.ValueIdx Cert.Gcn Cert.ReferenceIdeal Cert.ReferenceIdeal.Gen
  Cert.ReferenceIdeal.ReadP

/-- The row maximum of the logits, from minus infinity, spread back over the two columns. -/
def rowMax (L : (⟨S500000x2, .f32⟩ : BufTy).Contents (Elt Ideal)) : (⟨S500000x2, .f32⟩ : BufTy).Contents (Elt Ideal) :=
  broadcastInDim S500000x2 ![0, 1] bcast_S500000x1_S500000x2_0_1
    (broadcastInDim S500000x1 ![0] bcast_S500000_S500000x1_0
      (maximumf (F := Ideal) (φ := .f32) (val_main_v121 (F := Ideal))
        (Host.reduce FloatOps.maximumf L (val_main_cst_24 (F := Ideal)) reducesTo_S500000x2_S500000_d1 h_S_)))

/-- The exponentials of the logits shifted by their row maximum. -/
def expShift (L : (⟨S500000x2, .f32⟩ : BufTy).Contents (Elt Ideal)) : (⟨S500000x2, .f32⟩ : BufTy).Contents (Elt Ideal) :=
  Host.exp (F := Ideal) (φ := .f32) (subf (F := Ideal) (φ := .f32) L (rowMax L))

/-- The row sum of a two-column array, from zero, spread back over the two columns. -/
def rowSum (E : (⟨S500000x2, .f32⟩ : BufTy).Contents (Elt Ideal)) : (⟨S500000x2, .f32⟩ : BufTy).Contents (Elt Ideal) :=
  broadcastInDim S500000x2 ![0, 1] bcast_S500000x1_S500000x2_0_1
    (broadcastInDim S500000x1 ![0] bcast_S500000_S500000x1_0
      (Host.reduceAdd (F := Ideal) (φ := .f32) E (val_main_cst_26 (F := Ideal)) reducesTo_S500000x2_S500000_d1 h_S_))

/-- The reference's softmax tail: column 1 of the shifted exponentials divided by their row sums. -/
def refTail (L : (⟨S500000x2, .f32⟩ : BufTy).Contents (Elt Ideal)) : (⟨S500000x1, .f32⟩ : BufTy).Contents (Elt Ideal) :=
  extractStridedSlice S500000x1 ![0, 1] (Host.divf (F := Ideal) (φ := .f32) (expShift L) (rowSum (expShift L))) slices_S500000x2_S500000x1_0_1

/-- The host's quotient, entry by entry. -/
theorem hostDivf_apply {s : Shape} {φ : FTy} (a b : FVec Ideal s φ) (i : s.Idx) :
    Host.divf a b i = Ideal.div (a i) (b i) := rfl

/-- The host's exponential, entry by entry. -/
theorem hostExp_apply {s : Shape} {φ : FTy} (a : FVec Ideal s φ) (i : s.Idx) : Host.exp a i = Ideal.exp (a i) := rfl

/-- Reading a [500000] vector spread over [500000, 1] and then over [500000, 2]: entry (e, c) is entry e. -/
theorem spread_apply {α : Type} (v : S500000.Idx → α) (e : Fin 500000) (c : Fin 2) :
    broadcastInDim S500000x2 ![0, 1] bcast_S500000x1_S500000x2_0_1
      (broadcastInDim S500000x1 ![0] bcast_S500000_S500000x1_0 v) (ix2 e c) = v (ix1 e) := by
  refine (broadcastInDim_apply _ bcast_S500000x1_S500000x2_0_1 _ (ix2 e c) (ix2 e (0 : Fin 1)) fun a => ?_).trans ?_
  · match a with
    | ⟨0, _⟩ => show e.val = if (500000 : Nat) = 1 then 0 else e.val; rw [if_neg (by decide)]
    | ⟨1, _⟩ => show 0 = if (1 : Nat) = 1 then 0 else c.val; rw [if_pos rfl]
  refine broadcastInDim_apply _ bcast_S500000_S500000x1_0 v (ix2 e (0 : Fin 1)) (ix1 e) fun a => ?_
  match a with
  | ⟨0, _⟩ => show e.val = if (500000 : Nat) = 1 then 0 else e.val; rw [if_neg (by decide)]

/-- Column 1 of a [500000, 2] array, kept as a [500000, 1] array: entry (e, 0) is entry (e, 1). -/
theorem col1_apply {α : Type} (y : S500000x2.Idx → α) (e : Fin 500000) :
    extractStridedSlice S500000x1 ![0, 1] y slices_S500000x2_S500000x1_0_1 (ix2 e c0) = y (ix2 e (1 : Fin 2)) :=
  extractStridedSlice_apply ![0, 1] y slices_S500000x2_S500000x1_0_1 (ix2 e c0) (ix2 e (1 : Fin 2)) (fun a => match a with
    | ⟨0, _⟩ => by show e.val = 0 + e.val; omega
    | ⟨1, _⟩ => by show 1 = 1 + 0; rfl)

/-- The row maximum at edge e, in either column: the larger of the two logits. -/
theorem rowMax_apply (L : (⟨S500000x2, .f32⟩ : BufTy).Contents (Elt Ideal)) (e : Fin 500000) (c : Fin 2) :
    rowMax L (ix2 e c) = max (L (ix2 e (0 : Fin 2))) (L (ix2 e (1 : Fin 2))) := by
  unfold rowMax
  refine (spread_apply _ e c).trans ?_
  rw [maximumf_apply]
  refine (congrArg₂ max (val_main_v121_apply (F := Ideal) (ix1 e))
    (hostReduce_maximumf_two_apply L (val_main_cst_24 (F := Ideal)) reducesTo_S500000x2_S500000_d1 (by decide) h_S_
      ofBits_neg_inf_f32 e)).trans ?_
  show max (Ideal.ofBits .f32 0xFF800000#32) _ = _
  rw [ofBits_neg_inf_f32, max_bot_left]

/-- The row sum at edge e, in either column: the sum of the row's two entries. -/
theorem rowSum_apply (E : (⟨S500000x2, .f32⟩ : BufTy).Contents (Elt Ideal)) (e : Fin 500000) (c : Fin 2) :
    rowSum E (ix2 e c) = E (ix2 e (0 : Fin 2)) + E (ix2 e (1 : Fin 2)) := by
  unfold rowSum
  refine (spread_apply _ e c).trans ?_
  refine (hostReduceAdd_two_apply E (val_main_cst_26 (F := Ideal)) reducesTo_S500000x2_S500000_d1 (by decide) h_S_ e).trans ?_
  show Ideal.ofBits .f32 0x00000000#32 + _ = _
  rw [Ideal.ofBits_zero_f32, zero_add]

/-- The shifted exponential at (e, c). -/
theorem expShift_apply (L : (⟨S500000x2, .f32⟩ : BufTy).Contents (Elt Ideal)) (e : Fin 500000) (c : Fin 2) :
    expShift L (ix2 e c) = Ideal.exp (L (ix2 e c) - max (L (ix2 e (0 : Fin 2))) (L (ix2 e (1 : Fin 2)))) := by
  unfold expShift
  rw [hostExp_apply, subf_apply, rowMax_apply]

/-- The softmax tail of an arbitrary logits array, read at an edge: the second class's probability. -/
theorem refTail_apply (L : (⟨S500000x2, .f32⟩ : BufTy).Contents (Elt Ideal)) (e : Fin 500000) :
    refTail L (ix2 e c0) = prob1 (L (ix2 e (⟨0, by decide⟩ : Fin 2))) (L (ix2 e (⟨1, by decide⟩ : Fin 2))) := by
  unfold refTail
  refine (col1_apply _ e).trans ?_
  rw [hostDivf_apply, rowSum_apply, expShift_apply, expShift_apply]
  rfl

/-- The reference's last stage before the final reshape is the softmax tail of its own logits. -/
theorem val_main_v131_eq (x0 : (⟨S100000x128, .f32⟩ : BufTy).Contents (Elt Ideal))
    (x1 : (⟨S2x500000, .i32⟩ : BufTy).Contents (Elt Ideal))
    (x2 : (⟨S128x128, .f32⟩ : BufTy).Contents (Elt Ideal))
    (x3 : (⟨S128, .f32⟩ : BufTy).Contents (Elt Ideal))
    (x4 : (⟨S128x128, .f32⟩ : BufTy).Contents (Elt Ideal))
    (x5 : (⟨S128, .f32⟩ : BufTy).Contents (Elt Ideal))
    (x6 : (⟨S256x128, .f32⟩ : BufTy).Contents (Elt Ideal))
    (x7 : (⟨S128, .f32⟩ : BufTy).Contents (Elt Ideal))
    (x8 : (⟨S128x64, .f32⟩ : BufTy).Contents (Elt Ideal))
    (x9 : (⟨S64, .f32⟩ : BufTy).Contents (Elt Ideal))
    (x10 : (⟨S64x2, .f32⟩ : BufTy).Contents (Elt Ideal))
    (x11 : (⟨S2, .f32⟩ : BufTy).Contents (Elt Ideal)) :
    val_main_v131 (F := Ideal) x0 x1 x2 x3 x4 x5 x6 x7 x8 x9 x10 x11 = refTail (val_main_v119 (F := Ideal) x0 x1 x2 x3 x4 x5 x6 x7 x8 x9 x10 x11) := by
  unfold val_main_v131 val_main_v130 val_main_v129 val_main_v128 val_main_v127 val_main_v126 val_main_v125
    val_main_v124 val_main_v123 val_main_v122 val_main_v120 refTail rowSum expShift rowMax
  rfl

end Cert.Gcn.HeadTail

end
-- ==== Proof.EdgeHead.lean ====
/-
  The edge head: given the same node embeddings, the kernel program's result is the reference's.
-/
import proofs.«124494_j37151467111037_2_alg».proof.Proof.KSpec
import proofs.«124494_j37151467111037_2_alg».proof.Proof.RefReadP
import proofs.«124494_j37151467111037_2_alg».proof.Proof.LibScaledScatter
import proofs.«124494_j37151467111037_2_alg».proof.Proof.LibGuardedRsqrt
import proofs.«124494_j37151467111037_2_alg».proof.Proof.HeadAssembly
import proofs.«124494_j37151467111037_2_alg».proof.Proof.HeadSoftmax
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gcn.Head

open Idealize.ShloMosaic Idealize.ShloMosaic.ValueIdx Cert.Gcn Cert.ReferenceIdeal.ReadP

/-- From equal node embeddings to equal results: the endpoint gathers, the edge features (the 256-wide contraction
    against the joined endpoint rows split into its two 128-wide halves), the two dense layers and the two-class
    softmax's second probability. -/
theorem result_eq_of (x0 : FVec Ideal Cert.KernelIdeal.S100000x128 .f32) (x1 : IVec Cert.KernelIdeal.S2x500000 32) (x2 : FVec Ideal Cert.KernelIdeal.S128x128 .f32) (x3 : FVec Ideal Cert.KernelIdeal.S128 .f32)
    (x4 : FVec Ideal Cert.KernelIdeal.S128x128 .f32) (x5 : FVec Ideal Cert.KernelIdeal.S128 .f32) (x6 : FVec Ideal Cert.KernelIdeal.S256x128 .f32) (x7 : FVec Ideal Cert.KernelIdeal.S128 .f32)
    (x8 : FVec Ideal Cert.KernelIdeal.S128x64 .f32) (x9 : FVec Ideal Cert.KernelIdeal.S64 .f32) (x10 : FVec Ideal Cert.KernelIdeal.S64x2 .f32) (x11 : FVec Ideal Cert.KernelIdeal.S2 .f32)
    (hE : K.nodeEmb x0 x1 x2 x3 x4 x5 = val_main_v90 (F := Ideal) x0 x1 x2 x3 x4 x5) :
    K.result x0 x1 x2 x3 x4 x5 x6 x7 x8 x9 x10 x11 = val_main_v132 (F := Ideal) x0 x1 x2 x3 x4 x5 x6 x7 x8 x9 x10 x11 :=
  result_eq_of_tail x0 x1 x2 x3 x4 x5 x6 x7 x8 x9 x10 x11 hE (fun e => by
    rw [HeadTail.val_main_v131_eq, HeadTail.refTail_apply])

end Cert.Gcn.Head

end
-- ==== Proof.lean ====
/-
  A two-layer graph-convolution encoder with an edge classification head, as a kernel program of four launches among
  host gathers and scatter-adds, against the plain reference: at the extended reals both end with the same vector of
  edge probabilities.

  The reference normalises each message by the product of its two endpoint factors, d(src)·d(dst), before the sum over
  the edges landing on a node; the kernel program scales the features by d(src) inside the launch before the gather and
  the sum by d(dst) inside the next launch. A factor d = rsqrt(deg) where deg > 0, and 0 elsewhere, is nonnegative and
  finite whatever the degree is, and such a factor moves inside a finite sum of extended reals; an edge that lands on
  node i has dst = i. The edge head contracts the two endpoint rows against the two halves of the edge weights where
  the reference contracts the joined row against the whole: one sum over 256 terms split in two. Everything else is
  the same operation on both sides (a change of float format is the identity on the extended reals).

  The modules: Spec (the whole-array functions), KSpec (the kernel program as one function of its arguments), Payloads
  (the four bodies are those functions on a block of rows), Region0–3 (blocks to arrays), KRun and Chain (the kernel
  program's run ends with the result buffer at KSpec's function), RefReadP and RefRun (the reference's run ends at the
  last of its stages), Encoder and EdgeHead (the two functions are equal).
-/
import proofs.«124494_j37151467111037_2_alg».proof.Defs
import proofs.«124494_j37151467111037_2_alg».proof.Proof.Gen.Kernel
import proofs.«124494_j37151467111037_2_alg».proof.Proof.Gen.Kernel.Frame
import proofs.«124494_j37151467111037_2_alg».proof.Proof.Gen.KernelIdeal
import proofs.«124494_j37151467111037_2_alg».proof.Proof.Gen.KernelIdeal.Frame
import proofs.«124494_j37151467111037_2_alg».proof.Proof.Gen.ReferenceIdeal
import proofs.«124494_j37151467111037_2_alg».proof.Proof.Gen.Pre_finite_inputs
import proofs.«124494_j37151467111037_2_alg».proof.Proof.KRun
import proofs.«124494_j37151467111037_2_alg».proof.Proof.Chain
import proofs.«124494_j37151467111037_2_alg».proof.Proof.RefRun
import proofs.«124494_j37151467111037_2_alg».proof.Proof.Encoder
import proofs.«124494_j37151467111037_2_alg».proof.Proof.EdgeHead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Gcn.RefRun.run (F := Ideal) m ρ)

/-- The kernel program's result buffer ends at its function of the arguments (the run, then the fold walked); the
    reference's at its last stage of arguments that agree; the two functions are equal (the encoder, then the head). -/
theorem algebraic : Cert.algebraic_KernelIdeal_ReferenceIdeal := by
  intro m ρ m' ρ' _ hagree
  refine ⟨fun c => Cert.Gcn.K.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Gcn.Chain.W11_v62 m ρ c), (h c).2⟩)
      (Cert.Gcn.KRun.run_result m ρ)
  · refine (θ_run Cert.ReferenceIdeal.defs _ _).mono (fun _ h c => ⟨(h c).1.trans ?_, (h c).2⟩)
      (Cert.Gcn.RefRun.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2]
    exact (Cert.Gcn.Head.result_eq_of _ _ _ _ _ _ _ _ _ _ _ _ (Cert.Gcn.Enc.nodeEmb_eq _ _ _ _ _ _)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
